-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v52_1)) (v3 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v52_1) = v2 c
          ∧ r.2.mem ((c.tc : Thread Cert.KernelIdeal.nD Cert.KernelIdeal.τ).loc Cert.KernelIdeal.main_v49) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S4096x4096 : Shape := ⟨2, ![4096, 4096]⟩
abbrev S4096 : Shape := ⟨1, ![4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x4096 .f32) (main_arg5 : FVec F S1x4096 .f32) (main_arg6 : FVec F S4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S1x4096 .f32) (main_arg1 : FVec F S1x4096 .f32) (main_arg2 : FVec F S4096x4096 .f32) (main_arg3 : FVec F S1x4096 .f32) (main_arg4 : FVec F S4096x4096 .f32) (main_arg5 : FVec F S1x4096 .f32) (main_arg6 : FVec F S4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_arg6 main_v13 main_v16
-- ==== Kernel.lean ====
abbrev S1x4096 : Shape := ⟨2, ![1, 4096]⟩
abbrev S4096x4096 : Shape := ⟨2, ![4096, 4096]⟩
abbrev S4096 : Shape := ⟨1, ![4096]⟩
abbrev S4096x1 : Shape := ⟨2, ![4096, 1]⟩
abbrev S512x512 : Shape := ⟨2, ![512, 512]⟩
abbrev S512x4096 : Shape := ⟨2, ![512, 4096]⟩
abbrev S1x512 : Shape := ⟨2, ![1, 512]⟩
abbrev S512x1 : Shape := ⟨2, ![512, 1]⟩
abbrev S512 : Shape := ⟨1, ![512]⟩
abbrev S128x4096 : Shape := ⟨2, ![128, 4096]⟩
abbrev S128x1 : Shape := ⟨2, ![128, 1]⟩
abbrev S128 : Shape := ⟨1, ![128]⟩
abbrev S_ : Shape := ⟨0, ![]⟩

abbrev nBuf : Space → Nat
  | .hbm => 76
  | .vmem => 24
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S1x4096, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .i1⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .i1⟩
  | .hbm, ⟨39, _⟩ => ⟨S_, .f32⟩
  | .hbm, ⟨40, _⟩ => ⟨S4096, .f32⟩
  | .hbm, ⟨41, _⟩ => ⟨S4096, .i1⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .i1⟩
  | .hbm, ⟨53, _⟩ => ⟨S4096, .i1⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S1x4096, .f32⟩
  | .hbm, ⟨71, _⟩ => ⟨S1x4096, .f32⟩
  | .hbm, ⟨72, _⟩ => ⟨S4096x1, .f32⟩
  | .hbm, ⟨73, _⟩ => ⟨S4096x1, .f32⟩
  | .hbm, ⟨74, _⟩ => ⟨S4096x4096, .f32⟩
  | .hbm, ⟨75, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S512x1, .f32⟩
  | .local _ .vmem, ⟨7, _⟩ => ⟨S512x1, .f32⟩
  | .local _ .vmem, ⟨8, _⟩ => ⟨S1x4096, .f32⟩
  | .local _ .vmem, ⟨9, _⟩ => ⟨S1x4096, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x4096, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_15 : BitVec 32 := 0#32
  let v23 : BitVec 1 := Scalar.cmpi .ne v22 c0_i32_15
  v23

def k0_mult1 : BitVec 32 :=
  let c0_i32_20 : BitVec 32 := 0#32
  let c128_i32 : BitVec 32 := 128#32
  let v27 : BitVec 32 := Scalar.muli c0_i32_20 c128_i32
  v27
def k0_off1 (c0_i32_20 : BitVec 32) : Fin 2 → Nat :=
  let c128_i32 : BitVec 32 := 128#32
  let v27 : BitVec 32 := Scalar.muli c0_i32_20 c128_i32
  let v28 : BitVec 32 := v27
  let v29 : Index := Scalar.indexCast v28
  let c0_21 : Index := 0#32
  ![v29.toNat, 0]
def k0_off2 (c0_i32_20 : BitVec 32) : Fin 2 → Nat :=
  let c128_i32 : BitVec 32 := 128#32
  let v27 : BitVec 32 := Scalar.muli c0_i32_20 c128_i32
  let v28 : BitVec 32 := v27
  let v35 : Index := Scalar.indexCast v28
  let c0_23 : Index := 0#32
  ![v35.toNat, 0]
def k0_mult2 : BitVec 32 :=
  let c1_i32 : BitVec 32 := 1#32
  let c128_i32_31 : BitVec 32 := 128#32
  let v61 : BitVec 32 := Scalar.muli c1_i32 c128_i32_31
  v61
def k0_mult3 : BitVec 32 :=
  let c2_i32 : BitVec 32 := 2#32
  let c128_i32_42 : BitVec 32 := 128#32
  let v95 : BitVec 32 := Scalar.muli c2_i32 c128_i32_42
  v95
def k0_mult4 : BitVec 32 :=
  let c3_i32 : BitVec 32 := 3#32
  let c128_i32_53 : BitVec 32 := 128#32
  let v129 : BitVec 32 := Scalar.muli c3_i32 c128_i32_53
  v129
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S1x4096_S4096x1 : S1x4096.ShapeCasts S4096x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  broadcasts_S1x512_S512x512 : S1x512.Broadcasts S512x512
  reduces_S512x512_S512 : S512x512.Reduces [1] S512
  shapeCasts_S512_S512x1 : S512.ShapeCasts S512x1
  inb_S1x4096_S1x4096_0_0 : ∀ a, (![0, 0] : Fin 2 → Nat) a + S1x4096.size a ≤ S1x4096.size a
  h_S1x4096 : 0 < S1x4096.numel
  h_S128x4096 : 0 < S128x4096.numel
  broadcasts_S1x4096_S128x4096 : S1x4096.Broadcasts S128x4096
  h_S128x1 : 0 < S128x1.numel
  shapeCasts_S128x1_S128x1 : S128x1.ShapeCasts S128x1
  reduces_S128x4096_S128 : S128x4096.Reduces [1] S128
  shapeCasts_S128_S128x1 : S128.ShapeCasts S128x1
  shapeCasts_S4096x1_S4096 : S4096x1.ShapeCasts S4096
  bcast_S_S4096 : S_.BroadcastsInDim S4096 (![] : Fin 0 → Fin S4096.rank)
  bcast_S_S1x4096 : S_.BroadcastsInDim S1x4096 (![] : Fin 0 → Fin S1x4096.rank)
  shapeCasts_S4096_S1x4096 : S4096.ShapeCasts S1x4096
  shapeCasts_S4096_S4096x1 : S4096.ShapeCasts S4096x1
  iota_S512x512_d0_w32 : S512x512.Iotas .tc 32 [0]
  iota_S512x512_d1_w32 : S512x512.Iotas .tc 32 [1]
  broadcasts_S512x1_S512x512 : S512x1.Broadcasts S512x512
  dot_S512x512_S512x4096_S512x4096_1_0_0_1_n_n_wf : DotDims.WF S512x512 S512x4096 S512x4096 [1] [0] [0] [1] [] []
  hrank0 : 0 < grid0.rank
  k0_mult1_dvd : ∀ i : grid0.Coords, ∀ (k0_h2 : k0_cond2 i = 1#1), 128 ∣ k0_mult1.toNat
  k0_off1_inb : ∀ i : grid0.Coords, ∀ (k0_h2 : k0_cond2 i = 1#1), ∀ (r : Fin 4), ∀ a, (k0_off1 (BitVec.ofNat 32 r.val)) a + S128x4096.size a ≤ S512x4096.size a
  k0_off2_inb : ∀ i : grid0.Coords, ∀ (k0_h2 : k0_cond2 i = 1#1), ∀ (r : Fin 4), ∀ a, (k0_off2 (BitVec.ofNat 32 r.val)) a + S128x1.size a ≤ S512x1.size a
  k0_mult2_dvd : ∀ i : grid0.Coords, ∀ (k0_h2 : k0_cond2 i = 1#1), 128 ∣ k0_mult2.toNat
  k0_mult3_dvd : ∀ i : grid0.Coords, ∀ (k0_h2 : k0_cond2 i = 1#1), 128 ∣ k0_mult3.toNat
  k0_mult4_dvd : ∀ i : grid0.Coords, ∀ (k0_h2 : k0_cond2 i = 1#1), 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S4096x1.size a
  hwx1_0 : ∀ i : grid1.Coords, EltTy.bits .f32 = 32 ∨ (Rect.block (s := S4096x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S4096x1.size a
  hwx1_1 : ∀ i : grid1.Coords, EltTy.bits .f32 = 32 ∨ (Rect.block (s := S4096x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .f32 = 32 ∨ (Rect.block (s := S4096x4096) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .f32 = 32 ∨ (Rect.block (s := S4096x4096) S512x512.size (cc1_transform_3 i) (hinb1_3 i)).WholeWords (EltTy.packing .f32)

variable [Facts₀]

def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_arg4) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v50) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52_0) S512x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52_1) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x4096 : Shape := ⟨2, ![1, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩

abbrev nBuf : Space → Nat
  | .hbm => 173
  | .vmem => 0
  | .smem => 0
  | _ => 0

abbrev hbmTy0_0 (i : Nat) : BufTy := match i % 128 with
  | 0 => ⟨S1x4096, .f32⟩
  | 1 => ⟨S1x4096, .f32⟩
  | 2 => ⟨S4096x4096, .f32⟩
  | 3 => ⟨S1x4096, .f32⟩
  | 4 => ⟨S4096x4096, .f32⟩
  | 5 => ⟨S1x4096, .f32⟩
  | 6 => ⟨S4096, .f32⟩
  | 7 => ⟨S_, .f32⟩
  | 8 => ⟨S4096x4096, .f32⟩
  | 9 => ⟨S4096x4096, .i1⟩
  | 10 => ⟨S_, .f32⟩
  | 11 => ⟨S4096x4096, .f32⟩
  | 12 => ⟨S4096x4096, .f32⟩
  | 13 => ⟨S_, .f32⟩
  | 14 => ⟨S4096x4096, .f32⟩
  | 15 => ⟨S4096x4096, .i1⟩
  | 16 => ⟨S_, .f32⟩
  | 17 => ⟨S4096x4096, .f32⟩
  | 18 => ⟨S4096x4096, .f32⟩
  | 19 => ⟨S_, .f32⟩
  | 20 => ⟨S4096x4096, .f32⟩
  | 21 => ⟨S4096x4096, .i1⟩
  | 22 => ⟨S_, .f32⟩
  | 23 => ⟨S4096x4096, .f32⟩
  | 24 => ⟨S4096x4096, .f32⟩
  | 25 => ⟨S_, .f32⟩
  | 26 => ⟨S4096x4096, .f32⟩
  | 27 => ⟨S4096x4096, .i1⟩
  | 28 => ⟨S_, .f32⟩
  | 29 => ⟨S4096x4096, .f32⟩
  | 30 => ⟨S4096x4096, .f32⟩
  | 31 => ⟨S4096x4096, .f32⟩
  | 32 => ⟨S1x4096, .f32⟩
  | 33 => ⟨S4096x4096, .f32⟩
  | 34 => ⟨S1x4096, .f32⟩
  | 35 => ⟨S1x4096, .f32⟩
  | 36 => ⟨S1x4096, .f32⟩
  | 37 => ⟨S4096x4096, .f32⟩
  | 38 => ⟨S1x4096, .f32⟩
  | 39 => ⟨S4096x4096, .f32⟩
  | 40 => ⟨S1x4096, .f32⟩
  | 41 => ⟨S1x4096, .f32⟩
  | 42 => ⟨S1x4096, .f32⟩
  | 43 => ⟨S4096x4096, .f32⟩
  | 44 => ⟨S4096x4096, .f32⟩
  | 45 => ⟨S4096x4096, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .i1⟩
  | 52 => ⟨S_, .f32⟩
  | 53 => ⟨S4096x4096, .f32⟩
  | 54 => ⟨S4096x4096, .f32⟩
  | 55 => ⟨S_, .f32⟩
  | 56 => ⟨S4096x4096, .f32⟩
  | 57 => ⟨S4096x4096, .i1⟩
  | 58 => ⟨S_, .f32⟩
  | 59 => ⟨S4096x4096, .f32⟩
  | 60 => ⟨S4096x4096, .f32⟩
  | 61 => ⟨S_, .f32⟩
  | 62 => ⟨S4096x4096, .f32⟩
  | 63 => ⟨S4096x4096, .i1⟩
  | 64 => ⟨S_, .f32⟩
  | 65 => ⟨S4096x4096, .f32⟩
  | 66 => ⟨S4096x4096, .f32⟩
  | 67 => ⟨S_, .f32⟩
  | 68 => ⟨S4096x4096, .f32⟩
  | 69 => ⟨S4096x4096, .i1⟩
  | 70 => ⟨S_, .f32⟩
  | 71 => ⟨S4096x4096, .f32⟩
  | 72 => ⟨S4096x4096, .f32⟩
  | 73 => ⟨S4096x4096, .f32⟩
  | 74 => ⟨S1x4096, .f32⟩
  | 75 => ⟨S4096x4096, .f32⟩
  | 76 => ⟨S1x4096, .f32⟩
  | 77 => ⟨S1x4096, .f32⟩
  | 78 => ⟨S1x4096, .f32⟩
  | 79 => ⟨S4096x4096, .f32⟩
  | 80 => ⟨S1x4096, .f32⟩
  | 81 => ⟨S4096x4096, .f32⟩
  | 82 => ⟨S1x4096, .f32⟩
  | 83 => ⟨S1x4096, .f32⟩
  | 84 => ⟨S1x4096, .f32⟩
  | 85 => ⟨S4096, .f32⟩
  | 86 => ⟨S4096, .f32⟩
  | 87 => ⟨S_, .f32⟩
  | 88 => ⟨S4096, .f32⟩
  | 89 => ⟨S4096, .f32⟩
  | 90 => ⟨S_, .f32⟩
  | 91 => ⟨S4096, .f32⟩
  | 92 => ⟨S4096, .f32⟩
  | 93 => ⟨S_, .f32⟩
  | 94 => ⟨S1x4096, .f32⟩
  | 95 => ⟨S1x4096, .f32⟩
  | 96 => ⟨S1x4096, .f32⟩
  | 97 => ⟨S1x4096, .f32⟩
  | 98 => ⟨S1x4096, .f32⟩
  | 99 => ⟨S4096, .f32⟩
  | 100 => ⟨S4096, .i1⟩
  | 101 => ⟨S_, .f32⟩
  | 102 => ⟨S4096, .f32⟩
  | 103 => ⟨S4096, .f32⟩
  | 104 => ⟨S_, .f32⟩
  | 105 => ⟨S4096, .f32⟩
  | 106 => ⟨S4096, .f32⟩
  | 107 => ⟨S1x4096, .f32⟩
  | 108 => ⟨S1x4096, .f32⟩
  | 109 => ⟨S_, .f32⟩
  | 110 => ⟨S4096, .f32⟩
  | 111 => ⟨S_, .f32⟩
  | 112 => ⟨S1x4096, .f32⟩
  | 113 => ⟨S_, .f32⟩
  | 114 => ⟨S1x4096, .f32⟩
  | 115 => ⟨S1x4096, .i1⟩
  | 116 => ⟨S4096, .i1⟩
  | 117 => ⟨S_, .f32⟩
  | 118 => ⟨S1x4096, .f32⟩
  | 119 => ⟨S1x4096, .i1⟩
  | 120 => ⟨S4096, .i1⟩
  | 121 => ⟨S_, .f32⟩
  | 122 => ⟨S4096, .f32⟩
  | 123 => ⟨S4096, .f32⟩
  | 124 => ⟨S4096, .f32⟩
  | 125 => ⟨S_, .f32⟩
  | 126 => ⟨S4096, .f32⟩
  | 127 => ⟨S4096, .f32⟩
  | _ => ⟨S1x4096, .f32⟩

abbrev hbmTy0_1 (i : Nat) : BufTy := match i % 128 with
  | 0 => ⟨S4096, .f32⟩
  | 1 => ⟨S4096, .f32⟩
  | 2 => ⟨S4096, .f32⟩
  | 3 => ⟨S4096, .i1⟩
  | 4 => ⟨S4096, .i1⟩
  | 5 => ⟨S4096, .f32⟩
  | 6 => ⟨S1x4096, .i1⟩
  | 7 => ⟨S1x4096, .f32⟩
  | 8 => ⟨S4096, .f32⟩
  | 9 => ⟨S_, .f32⟩
  | 10 => ⟨S4096, .f32⟩
  | 11 => ⟨S4096, .f32⟩
  | 12 => ⟨S4096, .f32⟩
  | 13 => ⟨S4096, .f32⟩
  | 14 => ⟨S_, .f32⟩
  | 15 => ⟨S4096, .f32⟩
  | 16 => ⟨S4096, .f32⟩
  | 17 => ⟨S4096, .f32⟩
  | 18 => ⟨S4096, .f32⟩
  | 19 => ⟨S_, .f32⟩
  | 20 => ⟨S4096, .f32⟩
  | 21 => ⟨S4096x4096, .i32⟩
  | 22 => ⟨S4096x4096, .i32⟩
  | 23 => ⟨S_, .i32⟩
  | 24 => ⟨S4096x4096, .i32⟩
  | 25 => ⟨S4096x4096, .i32⟩
  | 26 => ⟨S4096x4096, .i1⟩
  | 27 => ⟨S4096x1, .f32⟩
  | 28 => ⟨S_, .f32⟩
  | 29 => ⟨S4096x4096, .f32⟩
  | 30 => ⟨S4096x4096, .f32⟩
  | 31 => ⟨S4096x4096, .f32⟩
  | 32 => ⟨S_, .f32⟩
  | 33 => ⟨S4096, .f32⟩
  | 34 => ⟨S4096x4096, .i32⟩
  | 35 => ⟨S4096x4096, .i32⟩
  | 36 => ⟨S_, .i32⟩
  | 37 => ⟨S4096x4096, .i32⟩
  | 38 => ⟨S4096x4096, .i32⟩
  | 39 => ⟨S4096x4096, .i1⟩
  | 40 => ⟨S4096x1, .f32⟩
  | 41 => ⟨S_, .f32⟩
  | 42 => ⟨S4096x4096, .f32⟩
  | 43 => ⟨S4096x4096, .f32⟩
  | 44 => ⟨S4096x4096, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_18 : Ref sig .tc := ⟨.hbm, 101, rfl⟩
abbrev main_v75 : Ref sig .tc := ⟨.hbm, 102, rfl⟩
abbrev main_v76 : Ref sig .tc := ⟨.hbm, 103, rfl⟩
abbrev main_cst_19 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_20 : Ref sig .tc := ⟨.hbm, 109, rfl⟩
abbrev main_v81 : Ref sig .tc := ⟨.hbm, 110, rfl⟩
abbrev main_cst_21 : Ref sig .tc := ⟨.hbm, 111, rfl⟩
abbrev main_v82 : Ref sig .tc := ⟨.hbm, 112, rfl⟩
abbrev main_cst_22 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_23 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_24 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_25 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_call14_v0 : Ref sig .tc := ⟨.hbm, 134, rfl⟩
abbrev main_v100 : Ref sig .tc := ⟨.hbm, 135, rfl⟩
abbrev main_v101 : Ref sig .tc := ⟨.hbm, 136, rfl⟩
abbrev main_cst_26 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_27 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_call17_cst : Ref sig .tc := ⟨.hbm, 147, rfl⟩
abbrev main_call17_v0 : Ref sig .tc := ⟨.hbm, 148, rfl⟩
abbrev main_call17_v1 : Ref sig .tc := ⟨.hbm, 149, rfl⟩
abbrev main_call17_v2 : Ref sig .tc := ⟨.hbm, 150, rfl⟩
abbrev main_call17_c : Ref sig .tc := ⟨.hbm, 151, rfl⟩
abbrev main_call17_v3 : Ref sig .tc := ⟨.hbm, 152, rfl⟩
abbrev main_call17_v4 : Ref sig .tc := ⟨.hbm, 153, rfl⟩
abbrev main_call17_v5 : Ref sig .tc := ⟨.hbm, 154, rfl⟩
abbrev main_call17_v6 : Ref sig .tc := ⟨.hbm, 155, rfl⟩
abbrev main_call17_cst_0 : Ref sig .tc := ⟨.hbm, 156, rfl⟩
abbrev main_call17_call0_v0 : Ref sig .tc := ⟨.hbm, 157, rfl⟩
abbrev main_call17_call0_v1 : Ref sig .tc := ⟨.hbm, 158, rfl⟩
abbrev main_v110 : Ref sig .tc := ⟨.hbm, 159, rfl⟩
abbrev main_call18_cst : Ref sig .tc := ⟨.hbm, 160, rfl⟩
abbrev main_call18_v0 : Ref sig .tc := ⟨.hbm, 161, rfl⟩
abbrev main_call18_v1 : Ref sig .tc := ⟨.hbm, 162, rfl⟩
abbrev main_call18_v2 : Ref sig .tc := ⟨.hbm, 163, rfl⟩
abbrev main_call18_c : Ref sig .tc := ⟨.hbm, 164, rfl⟩
abbrev main_call18_v3 : Ref sig .tc := ⟨.hbm, 165, rfl⟩
abbrev main_call18_v4 : Ref sig .tc := ⟨.hbm, 166, rfl⟩
abbrev main_call18_v5 : Ref sig .tc := ⟨.hbm, 167, rfl⟩
abbrev main_call18_v6 : Ref sig .tc := ⟨.hbm, 168, rfl⟩
abbrev main_call18_cst_0 : Ref sig .tc := ⟨.hbm, 169, rfl⟩
abbrev main_call18_call0_v0 : Ref sig .tc := ⟨.hbm, 170, rfl⟩
abbrev main_call18_call0_v1 : Ref sig .tc := ⟨.hbm, 171, rfl⟩
abbrev main_v111 : Ref sig .tc := ⟨.hbm, 172, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S_S4096 : S_.BroadcastsInDim S4096 (![] : Fin 0 → Fin S4096.rank)
  bcast_S_S1x4096 : S_.BroadcastsInDim S1x4096 (![] : Fin 0 → Fin S1x4096.rank)
  shapeCasts_S1x4096_S4096 : S1x4096.ShapeCasts S4096
  bcast_S4096_S1x4096_1 : S4096.BroadcastsInDim S1x4096 (![1] : Fin 1 → Fin S1x4096.rank)
  pads_S4096_S4096_000 : S4096.Pads (![0] : Fin 1 → Nat) ![0] ![0] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S1x4096_S4096x4096_S1x4096_1_0_0_1_n_n_wf : DotDims.WF S1x4096 S4096x4096 S1x4096 [1] [0] [0] [1] [] []
  dot_S4096x4096_S4096x4096_S4096x4096_1_0_0_1_n_n_wf : DotDims.WF S4096x4096 S4096x4096 S4096x4096 [1] [0] [0] [1] [] []

variable [Facts₀]

def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.Runs0.lean ====
import proofs.«165992_j40183714021526_2_alg».proof.Proof.Gen.Kernel.Launch
import proofs.«165992_j40183714021526_2_alg».proof.Proof.Gen.Kernel.Skeleton
import proofs.«165992_j40183714021526_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (the bounds kernel): what its runs share

The grid is 8 × 8: coordinate 0 picks a block of 512 rows of the second layer, coordinate 1 (`k`) a block of 512 of the
contracted index.  At `k = 0` the body clears its two accumulators; at every point it adds one tile's product to them;
at `k = 7` it turns the finished accumulators into the two bound columns and stores them. -/

/-- The body's first branch: `k = 0` (the scalar chain of the printed condition). -/
abbrev first0 (i : grid0.Coords) : Prop :=
  (Scalar.cmpi .ne (Scalar.extui (Scalar.cmpi .eq (BitVec.ofNat 32 (i 1).val) 0#32)) 0#32) = 1#1
/-- It holds at the points whose second coordinate is 0. -/
theorem hfirst0 : ∀ t : Fin cfg0.N, first0 (grid0.coords t) ↔ t.val % 8 = 0 :=
  (by decide +kernel : ∀ t : Fin grid0.N, first0 (grid0.coords t) ↔ t.val % 8 = 0)

/-- The body's second branch: `k = 7`. -/
abbrev last0 (i : grid0.Coords) : Prop := k0_cond2 i = 1#1
/-- It holds at the points whose second coordinate is 7. -/
theorem hlast0 : ∀ t : Fin cfg0.N, last0 (grid0.coords t) ↔ t.val % 8 = 7 :=
  (by decide +kernel : ∀ t : Fin grid0.N, last0 (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- Away from `k = 7` the two outputs are idle: nothing is stored into them and their blocks are not written back. -/
theorem idle0_6 : ∀ t : Fin cfg0.N, ¬last0 (grid0.coords t) → cfg0.idle 6 (grid0.coords t) = true := by decide +kernel
theorem idle0_7 : ∀ t : Fin cfg0.N, ¬last0 (grid0.coords t) → cfg0.idle 7 (grid0.coords t) = true := by decide +kernel
theorem noFlush0_6 : ∀ t : Fin cfg0.N, ¬last0 (grid0.coords t) → (cfg0.win 6).flush t = false := by decide +kernel
theorem noFlush0_7 : ∀ t : Fin cfg0.N, ¬last0 (grid0.coords t) → (cfg0.win 7).flush t = false := by decide +kernel
/-- At `k = 7` they are live. -/
theorem live0_6 : ∀ t : Fin cfg0.N, last0 (grid0.coords t) → cfg0.idle 6 (grid0.coords t) = false := by decide +kernel
theorem live0_7 : ∀ t : Fin cfg0.N, last0 (grid0.coords t) → cfg0.idle 7 (grid0.coords t) = false := by decide +kernel

/-! ## The memrefs the body is called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The slope accumulator (512 × 4096) and the intercept accumulator (512 × 1): whole scoped buffers of the kernel's own. -/
abbrev accS : Memref sig .tc .vmem S512x4096 .f32 := Memref.whole cc0_scratch0
abbrev accC : Memref sig .tc .vmem S512x1 .f32 := Memref.whole cc0_scratch1
/-- Views through which the accumulators' and the outputs' contents are stated. -/
abbrev VaccS : View sig .tc .vmem S512x4096 .f32 := accS.view
abbrev VaccC : View sig .tc .vmem S512x1 .f32 := accC.view
abbrev Vout6 : View sig .tc .vmem S512x1 .f32 := (Memref.whole cc0_stg6_0 : Memref sig .tc .vmem S512x1 .f32).view
abbrev Vout7 : View sig .tc .vmem S512x1 .f32 := (Memref.whole cc0_stg7_0 : Memref sig .tc .vmem S512x1 .f32).view

/-- The second kernel's staging buffers, each owned whole at some contents: scoped buffers this kernel never touches. -/
def restScoped (c : Dev nD) : sProp 𝕄 :=
  iprop((∃ d, owns (c : Thread nD τ) (Memref.whole cc1_stg0_0 : Memref sig .tc .vmem S512x1 .f32) fullShare d) ∗ (∃ d, owns (c : Thread nD τ) (Memref.whole cc1_stg0_1 : Memref sig .tc .vmem S512x1 .f32) fullShare d) ∗ (∃ d, owns (c : Thread nD τ) (Memref.whole cc1_stg1_0 : Memref sig .tc .vmem S512x1 .f32) fullShare d) ∗ (∃ d, owns (c : Thread nD τ) (Memref.whole cc1_stg1_1 : Memref sig .tc .vmem S512x1 .f32) fullShare d) ∗ (∃ d, owns (c : Thread nD τ) (Memref.whole cc1_stg2_0 : Memref sig .tc .vmem S512x512 .f32) fullShare d) ∗ (∃ d, owns (c : Thread nD τ) (Memref.whole cc1_stg2_1 : Memref sig .tc .vmem S512x512 .f32) fullShare d) ∗ (∃ d, owns (c : Thread nD τ) (Memref.whole cc1_stg3_0 : Memref sig .tc .vmem S512x512 .f32) fullShare d) ∗ (∃ d, owns (c : Thread nD τ) (Memref.whole cc1_stg3_1 : Memref sig .tc .vmem S512x512 .f32) fullShare d))

/-- The invariant of a kernel that keeps nothing between points, with this kernel's two accumulators as memrefs owned at
    some contents, then the other scoped buffers, then the generator register. -/
theorem PhiA0_eq (c : Dev nD) :
    (Pipeline.ΦA spec0 c : sProp 𝕄)
      = iprop(iprop((∃ d, owns (c : Thread nD τ) accS fullShare d) ∗ (∃ d, owns (c : Thread nD τ) accC fullShare d) ∗ restScoped c) ∗ (∃ r, prngReg c r)) := by
  unfold Pipeline.ΦA restScoped; rw [scopedRest0_eq]; simp only [accS, accC, owns_whole]; try rfl

end Cert.Kernel.Hand

end
-- ==== Proof.K.Run0A.lean ====
import proofs.«165992_j40183714021526_2_alg».proof.Proof.K.Runs0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at `k = 0`: the accumulators are cleared, then one tile's product and one tile's weighted row sums are added; the outputs are left untouched.  On whole memrefs — the six inputs at their contents, the outputs at contents handed back as they were, the accumulators at anything — the body
    runs to a continuation that holds the inputs as they were, the outputs as they were, and each accumulator with the
    listed pieces written; the piece lists are what the symbolic run of the body's stores finds. -/
noncomputable def bodyRunA (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 : Vec F S1x4096 .f32) (x5 : Vec F S1x4096 .f32) :
    Σ' (LS0 : List (View.Piece (Elt F) S512x4096 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__bounds_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__bounds_kernel_eq_skeleton]; unfold cc0__bounds_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand

end
-- ==== Proof.K.Run0B.lean ====
import proofs.«165992_j40183714021526_2_alg».proof.Proof.K.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at `0 < k < 7`: one tile's product and one tile's weighted row sums are added to the accumulators; the outputs are left untouched.  On whole memrefs — the six inputs at their contents, the outputs at contents handed back as they were, the accumulators at what the point before left — the body
    runs to a continuation that holds the inputs as they were, the outputs as they were, and each accumulator with the
    listed pieces written; the piece lists are what the symbolic run of the body's stores finds. -/
noncomputable def bodyRunB (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 : Vec F S1x4096 .f32) (x5 : Vec F S1x4096 .f32) (xs0 : Vec F S512x4096 .f32) (xs1 : Vec F S512x1 .f32) :
    Σ' (LS0 : List (View.Piece (Elt F) S512x4096 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__bounds_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__bounds_kernel_eq_skeleton]; unfold cc0__bounds_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand

end
-- ==== Proof.K.Run0C.lean ====
import proofs.«165992_j40183714021526_2_alg».proof.Proof.K.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at `k = 7`: the last tile is added, then four chunks of 128 rows each turn the accumulators into the two bound columns, stored into the outputs.  On whole memrefs — the six inputs at their contents, the outputs at anything, the accumulators at what the point before left — the body
    runs to a continuation that holds the inputs as they were, each output with the listed pieces written, and each accumulator with the
    listed pieces written; the piece lists are what the symbolic run of the body's stores finds. -/
noncomputable def bodyRunC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 : Vec F S1x4096 .f32) (x5 : Vec F S1x4096 .f32) (xs0 : Vec F S512x4096 .f32) (xs1 : Vec F S512x1 .f32) :
    Σ' (L6 : List (View.Piece (Elt F) S512x1 .f32)) (L7 : List (View.Piece (Elt F) S512x1 .f32)) (LS0 : List (View.Piece (Elt F) S512x4096 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__bounds_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__bounds_kernel_eq_skeleton]; unfold cc0__bounds_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Hand

end
-- ==== Proof.K.Frame0.lean ====
import proofs.«165992_j40183714021526_2_alg».proof.Proof.K.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first kernel over a region entered at contents `V`: what its buffers hold point by point, and its body obligation -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Case A: the pieces stored into the slope accumulator tile it. -/
theorem coverA_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 x5 : Vec F S1x4096 .f32) (y : S512x4096.Idx) :
    ∃ pc ∈ (bodyRunA c i arg2 harg2 arg3 harg3 arg4 harg4 arg5 harg5 arg6 harg6 arg7 harg7 arg8 harg8 arg9 harg9 arg10 harg10 arg11 harg11 hc1 hc2 x0 x1 x2 x3 x4 x5).1, y ∈ pc.1.set :=
  View.cover_of_tiledL (bodyRunA c i arg2 harg2 arg3 harg3 arg4 harg4 arg5 harg5 arg6 harg6 arg7 harg7 arg8 harg8 arg9 harg9 arg10 harg10 arg11 harg11 hc1 hc2 x0 x1 x2 x3 x4 x5).1 S512x4096.size (by sl_kernel_rfl) y

/-- Case A: what the body leaves there, its pieces read back. -/
def leftA_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 x5 : Vec F S1x4096 .f32) : Vec F S512x4096 .f32 :=
  VaccS.read (Elt F) (VaccS.writes (Elt F) VaccS.junk (bodyRunA c i arg2 harg2 arg3 harg3 arg4 harg4 arg5 harg5 arg6 harg6 arg7 harg7 arg8 harg8 arg9 harg9 arg10 harg10 arg11 harg11 hc1 hc2 x0 x1 x2 x3 x4 x5).1)

/-- Case A: the pieces stored into the intercept accumulator tile it. -/
theorem coverA_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 x5 : Vec F S1x4096 .f32) (y : S512x1.Idx) :
    ∃ pc ∈ (bodyRunA c i arg2 harg2 arg3 harg3 arg4 harg4 arg5 harg5 arg6 harg6 arg7 harg7 arg8 harg8 arg9 harg9 arg10 harg10 arg11 harg11 hc1 hc2 x0 x1 x2 x3 x4 x5).2.1, y ∈ pc.1.set :=
  View.cover_of_tiledL (bodyRunA c i arg2 harg2 arg3 harg3 arg4 harg4 arg5 harg5 arg6 harg6 arg7 harg7 arg8 harg8 arg9 harg9 arg10 harg10 arg11 harg11 hc1 hc2 x0 x1 x2 x3 x4 x5).2.1 S512x1.size (by sl_kernel_rfl) y

/-- Case A: what the body leaves there, its pieces read back. -/
def leftA_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 x5 : Vec F S1x4096 .f32) : Vec F S512x1 .f32 :=
  VaccC.read (Elt F) (VaccC.writes (Elt F) VaccC.junk (bodyRunA c i arg2 harg2 arg3 harg3 arg4 harg4 arg5 harg5 arg6 harg6 arg7 harg7 arg8 harg8 arg9 harg9 arg10 harg10 arg11 harg11 hc1 hc2 x0 x1 x2 x3 x4 x5).2.1)

/-- Case B: the pieces stored into the slope accumulator tile it. -/
theorem coverB_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x4096.Idx) :
    ∃ pc ∈ (bodyRunB c i arg2 harg2 arg3 harg3 arg4 harg4 arg5 harg5 arg6 harg6 arg7 harg7 arg8 harg8 arg9 harg9 arg10 harg10 arg11 harg11 hc1 hc2 x0 x1 x2 x3 x4 x5 xs0 xs1).1, y ∈ pc.1.set :=
  View.cover_of_tiledL (bodyRunB c i arg2 harg2 arg3 harg3 arg4 harg4 arg5 harg5 arg6 harg6 arg7 harg7 arg8 harg8 arg9 harg9 arg10 harg10 arg11 harg11 hc1 hc2 x0 x1 x2 x3 x4 x5 xs0 xs1).1 S512x4096.size (by sl_kernel_rfl) y

/-- Case B: what the body leaves there, its pieces read back. -/
def leftB_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x4096 .f32 :=
  VaccS.read (Elt F) (VaccS.writes (Elt F) VaccS.junk (bodyRunB c i arg2 harg2 arg3 harg3 arg4 harg4 arg5 harg5 arg6 harg6 arg7 harg7 arg8 harg8 arg9 harg9 arg10 harg10 arg11 harg11 hc1 hc2 x0 x1 x2 x3 x4 x5 xs0 xs1).1)

/-- Case B: the pieces stored into the intercept accumulator tile it. -/
theorem coverB_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x1.Idx) :
    ∃ pc ∈ (bodyRunB c i arg2 harg2 arg3 harg3 arg4 harg4 arg5 harg5 arg6 harg6 arg7 harg7 arg8 harg8 arg9 harg9 arg10 harg10 arg11 harg11 hc1 hc2 x0 x1 x2 x3 x4 x5 xs0 xs1).2.1, y ∈ pc.1.set :=
  View.cover_of_tiledL (bodyRunB c i arg2 harg2 arg3 harg3 arg4 harg4 arg5 harg5 arg6 harg6 arg7 harg7 arg8 harg8 arg9 harg9 arg10 harg10 arg11 harg11 hc1 hc2 x0 x1 x2 x3 x4 x5 xs0 xs1).2.1 S512x1.size (by sl_kernel_rfl) y

/-- Case B: what the body leaves there, its pieces read back. -/
def leftB_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x1 .f32 :=
  VaccC.read (Elt F) (VaccC.writes (Elt F) VaccC.junk (bodyRunB c i arg2 harg2 arg3 harg3 arg4 harg4 arg5 harg5 arg6 harg6 arg7 harg7 arg8 harg8 arg9 harg9 arg10 harg10 arg11 harg11 hc1 hc2 x0 x1 x2 x3 x4 x5 xs0 xs1).2.1)

/-- Case C: the pieces stored into output 6 tile it. -/
theorem coverC_out6 (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x1.Idx) :
    ∃ pc ∈ (bodyRunC c i arg2 harg2 arg3 harg3 arg4 harg4 arg5 harg5 arg6 harg6 arg7 harg7 arg8 harg8 arg9 harg9 arg10 harg10 arg11 harg11 hc1 hc2 x0 x1 x2 x3 x4 x5 xs0 xs1).1, y ∈ pc.1.set :=
  View.cover_of_tiledL (bodyRunC c i arg2 harg2 arg3 harg3 arg4 harg4 arg5 harg5 arg6 harg6 arg7 harg7 arg8 harg8 arg9 harg9 arg10 harg10 arg11 harg11 hc1 hc2 x0 x1 x2 x3 x4 x5 xs0 xs1).1 S128x1.size (by sl_kernel_rfl) y

/-- Case C: what the body leaves there, its pieces read back. -/
def leftC_out6 (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x1 .f32 :=
  Vout6.read (Elt F) (Vout6.writes (Elt F) Vout6.junk (bodyRunC c i arg2 harg2 arg3 harg3 arg4 harg4 arg5 harg5 arg6 harg6 arg7 harg7 arg8 harg8 arg9 harg9 arg10 harg10 arg11 harg11 hc1 hc2 x0 x1 x2 x3 x4 x5 xs0 xs1).1)

/-- Case C: the pieces stored into output 7 tile it. -/
theorem coverC_out7 (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x1.Idx) :
    ∃ pc ∈ (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.1, y ∈ pc.1.set :=
  View.cover_of_tiledL (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.1 S128x1.size (by sl_kernel_rfl) y

/-- Case C: what the body leaves there, its pieces read back. -/
def leftC_out7 (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x1 .f32 :=
  Vout7.read (Elt F) (Vout7.writes (Elt F) Vout7.junk (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.1)

/-- Case C: the pieces stored into the slope accumulator tile it. -/
theorem coverC_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x4096.Idx) :
    ∃ pc ∈ (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.1, y ∈ pc.1.set :=
  View.cover_of_tiledL (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.1 S512x4096.size (by sl_kernel_rfl) y

/-- Case C: what the body leaves there, its pieces read back. -/
def leftC_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x4096 .f32 :=
  VaccS.read (Elt F) (VaccS.writes (Elt F) VaccS.junk (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.1)

/-- Case C: the pieces stored into the intercept accumulator tile it. -/
theorem coverC_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x1.Idx) :
    ∃ pc ∈ (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.2.1 S512x1.size (by sl_kernel_rfl) y

/-- Case C: what the body leaves there, its pieces read back. -/
def leftC_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x1 .f32 :=
  VaccC.read (Elt F) (VaccC.writes (Elt F) VaccC.junk (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.2.1)

/-! ## The accumulation -/

/-- What the two outputs' staging buffers and the two accumulators hold after the body at position `n`: at `k = 0` the
    accumulators restart from this point's tile; otherwise they continue from what position `n - 1` left; the outputs are
    stored at `k = 7` only (elsewhere a placeholder nothing consults: the windows are idle there). -/
def outsAt0 (c : Dev nD) : (n : ℕ) → n < cfg0.N → Vec F S512x1 .f32 × Vec F S512x1 .f32 × Vec F S512x4096 .f32 × Vec F S512x1 .f32
  | 0, hn => (Vout6.read (Elt F) Vout6.junk, Vout7.read (Elt F) Vout7.junk, leftA_accS c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) accS (Memref.isWhole_whole _) accC (Memref.isWhole_whole _) ((hfirst0 ⟨0, hn⟩).mpr (Nat.zero_mod _)) (fun h => by have h' := (hlast0 ⟨0, hn⟩).mp h; dsimp only at h'; omega) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), leftA_accC c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) accS (Memref.isWhole_whole _) accC (Memref.isWhole_whole _) ((hfirst0 ⟨0, hn⟩).mpr (Nat.zero_mod _)) (fun h => by have h' := (hlast0 ⟨0, hn⟩).mp h; dsimp only at h'; omega) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : (n + 1) % 8 = 0 then
      (Vout6.read (Elt F) Vout6.junk, Vout7.read (Elt F) Vout7.junk, leftA_accS c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) ((hfirst0 ⟨n + 1, hn⟩).mpr h1) (fun h => by have h' := (hlast0 ⟨n + 1, hn⟩).mp h; dsimp only at h'; omega) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), leftA_accC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) ((hfirst0 ⟨n + 1, hn⟩).mpr h1) (fun h => by have h' := (hlast0 ⟨n + 1, hn⟩).mp h; dsimp only at h'; omega) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else if h2 : (n + 1) % 8 = 7 then
      (leftC_out6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) ((hlast0 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2, leftC_out7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) ((hlast0 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2, leftC_accS c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) ((hlast0 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2, leftC_accC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) ((hlast0 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2)
    else
      (Vout6.read (Elt F) Vout6.junk, Vout7.read (Elt F) Vout7.junk, leftB_accS c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) (fun h => h2 ((hlast0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2, leftB_accC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) (fun h => h2 ((hlast0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2)

theorem outsAt0_A (c : Dev nD) (t : Fin cfg0.N) (h1 : t.val % 8 = 0) (h2 : ¬t.val % 8 = 7) :
    outsAt0 V c t.val t.isLt = (Vout6.read (Elt F) Vout6.junk, Vout7.read (Elt F) Vout7.junk, leftA_accS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) ((hfirst0 t).mpr h1) (fun h => h2 ((hlast0 t).mp h)) (iblk0 V c 0 t) (iblk0 V c 1 t) (iblk0 V c 2 t) (iblk0 V c 3 t) (iblk0 V c 4 t) (iblk0 V c 5 t), leftA_accC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) ((hfirst0 t).mpr h1) (fun h => h2 ((hlast0 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h1).trans rfl

theorem outsAt0_B (c : Dev nD) (t : Fin cfg0.N) (h1 : ¬t.val % 8 = 0) (h2 : ¬t.val % 8 = 7) :
    outsAt0 V c t.val t.isLt = (Vout6.read (Elt F) Vout6.junk, Vout7.read (Elt F) Vout7.junk, leftB_accS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) (fun h => h2 ((hlast0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, leftB_accC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) (fun h => h2 ((hlast0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd (Nat.zero_mod _) h1
  | succ n => exact (dif_neg h1).trans ((dif_neg h2).trans rfl)

theorem outsAt0_C (c : Dev nD) (t : Fin cfg0.N) (h1 : ¬t.val % 8 = 0) (h2 : t.val % 8 = 7) :
    outsAt0 V c t.val t.isLt = (leftC_out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) ((hlast0 t).mpr h2) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, leftC_out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) ((hlast0 t).mpr h2) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, leftC_accS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) ((hlast0 t).mpr h2) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, leftC_accC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) ((hlast0 t).mpr h2) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd (Nat.zero_mod _) h1
  | succ n => exact (dif_neg h1).trans ((dif_pos h2).trans rfl)

/-- The region invariant before position `n`: before the first point every scoped buffer at anything; afterwards the two
    accumulators at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accS fullShare ((outsAt0 V c n hn).2.2.1) ∗ owns (c : Thread nD τ) accC fullShare ((outsAt0 V c n hn).2.2.2) ∗ restScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accS fullShare ((outsAt0 V c n hn).2.2.1) ∗ owns (c : Thread nD τ) accC fullShare ((outsAt0 V c n hn).2.2.2) ∗ restScoped c) ∗ (∃ r, prngReg c r)) := rfl

theorem PhiS_pos (c : Dev nD) (n : ℕ) (h : n ≤ cfg0.N) (hz : n ≠ 0) :
    PhiS V c n h = iprop(iprop(owns (c : Thread nD τ) accS fullShare ((outsAt0 V c (n - 1) (by omega)).2.2.1) ∗ owns (c : Thread nD τ) accC fullShare ((outsAt0 V c (n - 1) (by omega)).2.2.2) ∗ restScoped c) ∗ (∃ r, prngReg c r)) := by
  cases n with
  | zero => exact absurd rfl hz
  | succ n => rfl

/-! ## The proof data -/

/-- The first pipeline's proof data on core `c`: the arrays as the region finds them; after the body each input's buffer
    at its block, the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point.  The inputs' memrefs hold their blocks; the second grid coordinate says which case the point is
    in; the invariant hands the body the accumulators at what the point before left (at anything at the very first point)
    and takes them back at this point's contents; where the outputs are idle their buffers come back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  rw [show (dat0 V c).leavesExact 5 t = owns (c : Thread nD τ) (ms0_5 t) fullShare ((dat0 V c).after 5 t) from by
    unfold Dat.leavesExact; rw [live0_5 t], after0_5]
  by_cases h1 : t.val % 8 = 0
  · have h2 : ¬t.val % 8 = 7 := by omega
    rw [Dat.leavesExact_idle (dat0 V c) 6 t (idle0_6 t (fun h => h2 ((hlast0 t).mp h))) (noFlush0_6 t (fun h => h2 ((hlast0 t).mp h)))]
    rw [Dat.leavesExact_idle (dat0 V c) 7 t (idle0_7 t (fun h => h2 ((hlast0 t).mp h))) (noFlush0_7 t (fun h => h2 ((hlast0 t).mp h)))]
    rw [outsAt0_A V c t h1 h2]
    unfold leftA_accS leftA_accC; (try dsimp only)
    by_cases hz : t.val = 0
    ·
      rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRunA c (grid0.coords t) _ _ _ _ _ _ _ _ _ _ _ _ _ _ _ _ _ _ _ _ ((hfirst0 t).mpr h1) (fun h => h2 ((hlast0 t).mp h)) (iblk0 V c 0 t) (iblk0 V c 1 t) (iblk0 V c 2 t) (iblk0 V c 3 t) (iblk0 V c 4 t) (iblk0 V c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverA_accS c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverA_accC c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    ·
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRunA c (grid0.coords t) _ _ _ _ _ _ _ _ _ _ _ _ _ _ _ _ _ _ _ _ ((hfirst0 t).mpr h1) (fun h => h2 ((hlast0 t).mp h)) (iblk0 V c 0 t) (iblk0 V c 1 t) (iblk0 V c 2 t) (iblk0 V c 3 t) (iblk0 V c 4 t) (iblk0 V c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverA_accS c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverA_accC c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun h => h1 (by rw [h])
    by_cases h2 : t.val % 8 = 7
    · rw [show (dat0 V c).leavesExact 6 t = owns (c : Thread nD τ) (ms0_6 t) fullShare ((dat0 V c).after 6 t) from by
        unfold Dat.leavesExact; rw [live0_6 t ((hlast0 t).mpr h2)], after0_6]
      rw [show (dat0 V c).leavesExact 7 t = owns (c : Thread nD τ) (ms0_7 t) fullShare ((dat0 V c).after 7 t) from by
        unfold Dat.leavesExact; rw [live0_7 t ((hlast0 t).mpr h2)], after0_7]
      rw [outsAt0_C V c t h1 h2]
      unfold leftC_out6 leftC_out7 leftC_accS leftC_accC; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRunC c (grid0.coords t) _ _ _ _ _ _ _ _ _ _ _ _ _ _ _ _ _ _ _ _ (fun h => h1 ((hfirst0 t).mp h)) ((hlast0 t).mpr h2) (iblk0 V c 0 t) (iblk0 V c 1 t) (iblk0 V c 2 t) (iblk0 V c 3 t) (iblk0 V c 4 t) (iblk0 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverC_accS c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverC_accC c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC_out6 c _ _ _ _ _ _ _ _ _ _ _ _ _ _ _ _ _ _ _ _ _ _ _ _ _ _ _ _ _ _ _)
      · unfold owns; iexists _; isplitr
        swap; · iexact H7
        ipureintro; exact View.read_writes_of_cover _ _ _ _ _ (coverC_out7 c _ _ _ _ _ _ _ _ _ _ _ _ _ _ _ _ _ _ _ _ _ _ _ _ _ _ _ _ _ _ _)
    · rw [Dat.leavesExact_idle (dat0 V c) 6 t (idle0_6 t (fun h => h2 ((hlast0 t).mp h))) (noFlush0_6 t (fun h => h2 ((hlast0 t).mp h)))]
      rw [Dat.leavesExact_idle (dat0 V c) 7 t (idle0_7 t (fun h => h2 ((hlast0 t).mp h))) (noFlush0_7 t (fun h => h2 ((hlast0 t).mp h)))]
      rw [outsAt0_B V c t h1 h2]
      unfold leftB_accS leftB_accC; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRunB c (grid0.coords t) _ _ _ _ _ _ _ _ _ _ _ _ _ _ _ _ _ _ _ _ (fun h => h1 ((hfirst0 t).mp h)) (fun h => h2 ((hlast0 t).mp h)) (iblk0 V c 0 t) (iblk0 V c 1 t) (iblk0 V c 2 t) (iblk0 V c 3 t) (iblk0 V c 4 t) (iblk0 V c 5 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverB_accS c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverB_accC c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back at contents no longer named. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.Kernel.Hand

end
-- ==== Proof.K.Diag.lean ====
/-
  The second kernel region of @main (custom_call 1, the diagonal kernel, pipeline 1) as the class-A half of a
  frame certificate over several regions, for any float type `F`, at a parameter `V`: the TensorCore's buffer
  contents when the region is entered.

  The kernel has two input windows (0 and 1: columns of 4096 rows in blocks of 512 rows, indexed by the first
  grid coordinate only) and two output windows (2 and 3: 4096 × 4096 in blocks 512 × 512, indexed by both
  coordinates).  At a grid point the body loads the two column blocks whole, loads each output buffer whole
  (the values are not used) and stores one payload over the whole of each output buffer; the payloads read the
  grid coordinates.  So what each output buffer holds after the body is the canonical contents of one covering
  store, a function of the grid coordinates and the input blocks; each input buffer holds its window's block at
  every point, whether fetched there or not (the inputs are fetched only when the first coordinate moves).
-/
import proofs.«165992_j40183714021526_2_alg».proof.Proof.Gen.Kernel.Launch
import proofs.«165992_j40183714021526_2_alg».proof.Proof.Gen.Kernel.Skeleton
import proofs.«165992_j40183714021526_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved, so the block left by the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a column block: what each load of an input buffer reads. -/
abbrev r1_0 : Rect S512x1 := Rect.unit (s := S512x1) ![0, 0] S512x1.size inb_S512x1_S512x1_0_0
/-- The whole of a square block: what each store into an output buffer writes. -/
abbrev r1_1 : Rect S512x512 := Rect.unit (s := S512x512) ![0, 0] S512x512.size inb_S512x512_S512x512_0_0

/-! ## What the body leaves in each output window's buffer -/

/-- Window 2's staging buffer after the body at grid coordinates `i`, from the input windows' blocks: its one
    store, over the whole buffer, of the payload computed from the first column block. -/
def out1_2 (i : grid1.Coords) (x0 x1 : Vec F S512x1 .f32) : Vec F S512x512 .f32 :=
  View.canon [⟨r1_1, k1_pay2 i (View.ld x0 r1_0)⟩]

/-- Window 3's staging buffer after the body at grid coordinates `i`: its one store, over the whole buffer, of
    the payload computed from the second column block. -/
def out1_3 (i : grid1.Coords) (x0 x1 : Vec F S512x1 .f32) : Vec F S512x512 .f32 :=
  View.canon [⟨r1_1, k1_pay3 i (View.ld x1 r1_0)⟩]

/-- One store over the whole buffer tiles it, so it covers it. -/
theorem cover1_2 (p0 : Vec F S512x512 .f32) (y : S512x512.Idx) :
    ∃ pc ∈ ([⟨r1_1, p0⟩] : List (View.Piece (Elt F) S512x512 .f32)), y ∈ pc.1.set :=
  View.cover_of_tiled [⟨r1_1, p0⟩] S512x512.size (by rfl) y

/-! ## The body's triple -/

set_option maxHeartbeats 1000000 in
/-- The kernel body at grid coordinates `i` on whole staging memrefs, the inputs' at read contents `x0`, `x1` and
    the outputs' at anything, runs to the continuation holding the inputs' as they were and the outputs' at
    `out1_2`, `out1_3` of the inputs': the printed function is its skeleton, which is run operation by operation;
    after each output's store the buffer reads as the canonical contents of that store, which covers it. -/
theorem sound_kernel1 (c : Dev nD) (E : Set ℕ) (i : grid1.Coords)
    (arg2 : Memref sig .tc .vmem S512x1 .f32) (harg2 : arg2.IsWhole) (arg3 : Memref sig .tc .vmem S512x1 .f32) (harg3 : arg3.IsWhole)
    (arg4 : Memref sig .tc .vmem S512x512 .f32) (harg4 : arg4.IsWhole) (arg5 : Memref sig .tc .vmem S512x512 .f32) (harg5 : arg5.IsWhole)
    (x0 x1 : Vec F S512x1 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out1_2 i x0 x1) ∗ owns (c : Thread nD τ) arg5 fullShare (out1_3 i x0 x1)) -∗ K ⟨⟩))
      ⊢ wp frame (wpE (defs₀ (F := F)) Variants.none c none) E (cc1__diag_kernel i arg2 harg2 arg3 harg3 arg4 harg4 arg5 harg5) K := by
  simp only [cc1__diag_kernel_eq_skeleton]; unfold cc1__diag_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_2 _)

/-! ## The pipeline's proof data -/

/-- The proof data of pipeline 1 on core `c`: the arrays as the region finds them (`V`); after the body at point
    `t` each input's buffer at its block and each output's at `out1_W` of the point's coordinates and the input
    blocks; the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
    | ⟨3, _⟩ => out1_3 (grid1.coords t) (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]
theorem after1_3 (c : Dev nD) (t : Fin cfg1.N) :
    (dat1 V c).after 3 t = out1_3 (grid1.coords t) (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies at the point's
    coordinates; the invariant and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Segs.lean ====
import proofs.«165992_j40183714021526_2_alg».proof.Proof.K.Frame0
import proofs.«165992_j40183714021526_2_alg».proof.Proof.K.Diag
import proofs.«165992_j40183714021526_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: its nineteen segments from the launch to the return

One host stretch (a reshape of the second bias), the first kernel, sixteen host stretches (the relaxation of the bounds,
one stretch per outlined selection), the second kernel.  The buffer contents at each boundary are a fold from the launch
memory: a host stretch applies its operations; a kernel leaves its arrays at what its write-backs fold to and every
other buffer as entered. -/

/-- Core `c`'s buffers at launch. -/
abbrev W0 : Dev nD → Valuation τ sig (Elt F) := fun c b => m (c, b)
/-- After the first host stretch: the first kernel's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
theorem W3_of (c : Dev nD) (r : Ref sig .tc) (h : r ∉ hostOps1_W) : W3 m c r = W2 m c r :=
  StableHlo.after_of_writes_sub hostOps1 _ hostOps1_writes h
/-- After the host stretch `hostOps1_1`. -/
abbrev W4 : Dev nD → Valuation τ sig (Elt F) := fun c => StableHlo.after hostOps1_1 (W3 m c)
theorem W4_of (c : Dev nD) (r : Ref sig .tc) (h : r ∉ hostOps1_1_W) : W4 m c r = W3 m c r :=
  StableHlo.after_of_writes_sub hostOps1_1 _ hostOps1_1_writes h
/-- After the host stretch `hostOps1_2`. -/
abbrev W5 : Dev nD → Valuation τ sig (Elt F) := fun c => StableHlo.after hostOps1_2 (W4 m c)
theorem W5_of (c : Dev nD) (r : Ref sig .tc) (h : r ∉ hostOps1_2_W) : W5 m c r = W4 m c r :=
  StableHlo.after_of_writes_sub hostOps1_2 _ hostOps1_2_writes h
/-- After the host stretch `hostOps1_3`. -/
abbrev W6 : Dev nD → Valuation τ sig (Elt F) := fun c => StableHlo.after hostOps1_3 (W5 m c)
theorem W6_of (c : Dev nD) (r : Ref sig .tc) (h : r ∉ hostOps1_3_W) : W6 m c r = W5 m c r :=
  StableHlo.after_of_writes_sub hostOps1_3 _ hostOps1_3_writes h
/-- After the host stretch `hostOps1_4`. -/
abbrev W7 : Dev nD → Valuation τ sig (Elt F) := fun c => StableHlo.after hostOps1_4 (W6 m c)
theorem W7_of (c : Dev nD) (r : Ref sig .tc) (h : r ∉ hostOps1_4_W) : W7 m c r = W6 m c r :=
  StableHlo.after_of_writes_sub hostOps1_4 _ hostOps1_4_writes h
/-- After the host stretch `hostOps1_5`. -/
abbrev W8 : Dev nD → Valuation τ sig (Elt F) := fun c => StableHlo.after hostOps1_5 (W7 m c)
theorem W8_of (c : Dev nD) (r : Ref sig .tc) (h : r ∉ hostOps1_5_W) : W8 m c r = W7 m c r :=
  StableHlo.after_of_writes_sub hostOps1_5 _ hostOps1_5_writes h
/-- After the host stretch `hostOps1_6`. -/
abbrev W9 : Dev nD → Valuation τ sig (Elt F) := fun c => StableHlo.after hostOps1_6 (W8 m c)
theorem W9_of (c : Dev nD) (r : Ref sig .tc) (h : r ∉ hostOps1_6_W) : W9 m c r = W8 m c r :=
  StableHlo.after_of_writes_sub hostOps1_6 _ hostOps1_6_writes h
/-- After the host stretch `hostOps1_7`. -/
abbrev W10 : Dev nD → Valuation τ sig (Elt F) := fun c => StableHlo.after hostOps1_7 (W9 m c)
theorem W10_of (c : Dev nD) (r : Ref sig .tc) (h : r ∉ hostOps1_7_W) : W10 m c r = W9 m c r :=
  StableHlo.after_of_writes_sub hostOps1_7 _ hostOps1_7_writes h
/-- After the host stretch `hostOps1_8`. -/
abbrev W11 : Dev nD → Valuation τ sig (Elt F) := fun c => StableHlo.after hostOps1_8 (W10 m c)
theorem W11_of (c : Dev nD) (r : Ref sig .tc) (h : r ∉ hostOps1_8_W) : W11 m c r = W10 m c r :=
  StableHlo.after_of_writes_sub hostOps1_8 _ hostOps1_8_writes h
/-- After the host stretch `hostOps1_9`. -/
abbrev W12 : Dev nD → Valuation τ sig (Elt F) := fun c => StableHlo.after hostOps1_9 (W11 m c)
theorem W12_of (c : Dev nD) (r : Ref sig .tc) (h : r ∉ hostOps1_9_W) : W12 m c r = W11 m c r :=
  StableHlo.after_of_writes_sub hostOps1_9 _ hostOps1_9_writes h
/-- After the host stretch `hostOps1_10`. -/
abbrev W13 : Dev nD → Valuation τ sig (Elt F) := fun c => StableHlo.after hostOps1_10 (W12 m c)
theorem W13_of (c : Dev nD) (r : Ref sig .tc) (h : r ∉ hostOps1_10_W) : W13 m c r = W12 m c r :=
  StableHlo.after_of_writes_sub hostOps1_10 _ hostOps1_10_writes h
/-- After the host stretch `hostOps1_11`. -/
abbrev W14 : Dev nD → Valuation τ sig (Elt F) := fun c => StableHlo.after hostOps1_11 (W13 m c)
theorem W14_of (c : Dev nD) (r : Ref sig .tc) (h : r ∉ hostOps1_11_W) : W14 m c r = W13 m c r :=
  StableHlo.after_of_writes_sub hostOps1_11 _ hostOps1_11_writes h
/-- After the host stretch `hostOps1_12`. -/
abbrev W15 : Dev nD → Valuation τ sig (Elt F) := fun c => StableHlo.after hostOps1_12 (W14 m c)
theorem W15_of (c : Dev nD) (r : Ref sig .tc) (h : r ∉ hostOps1_12_W) : W15 m c r = W14 m c r :=
  StableHlo.after_of_writes_sub hostOps1_12 _ hostOps1_12_writes h
/-- After the host stretch `hostOps1_13`. -/
abbrev W16 : Dev nD → Valuation τ sig (Elt F) := fun c => StableHlo.after hostOps1_13 (W15 m c)
theorem W16_of (c : Dev nD) (r : Ref sig .tc) (h : r ∉ hostOps1_13_W) : W16 m c r = W15 m c r :=
  StableHlo.after_of_writes_sub hostOps1_13 _ hostOps1_13_writes h
/-- After the host stretch `hostOps1_14`. -/
abbrev W17 : Dev nD → Valuation τ sig (Elt F) := fun c => StableHlo.after hostOps1_14 (W16 m c)
theorem W17_of (c : Dev nD) (r : Ref sig .tc) (h : r ∉ hostOps1_14_W) : W17 m c r = W16 m c r :=
  StableHlo.after_of_writes_sub hostOps1_14 _ hostOps1_14_writes h
/-- After the host stretch `hostOps1_15`. -/
abbrev W18 : Dev nD → Valuation τ sig (Elt F) := fun c => StableHlo.after hostOps1_15 (W17 m c)
theorem W18_of (c : Dev nD) (r : Ref sig .tc) (h : r ∉ hostOps1_15_W) : W18 m c r = W17 m c r :=
  StableHlo.after_of_writes_sub hostOps1_15 _ hostOps1_15_writes h
abbrev V18 : (c : Dev nD) → (b : Ref sig .tc) → Buf (Elt F) ((c : Thread nD τ).loc b) := fun c b => W18 m c b
/-- At the second kernel's exit. -/
def W19 (c : Dev nD) : Valuation τ sig (Elt F) :=
  Pipeline.withArrays spec1 c (W18 m c) fun w => (dat1 (V18 m) c).arrAt w cfg1.N
theorem W19_arr (c : Dev nD) (w : Fin cfg1.W) :
    W19 m c (Proc.devRef .tc (Pipeline.arrRef spec1 w)) = (dat1 (V18 m) c).arrAt w cfg1.N := by
  unfold W19; exact Pipeline.withArrays_arr spec1 launch1.win.arr_inj c _ _ w
theorem W19_of_ne (c : Dev nD) (b : Ref sig .tc) (hb : ∀ w, Pipeline.arrRef spec1 w ≠ b) :
    W19 m c (Proc.devRef .tc b) = W18 m c (Proc.devRef .tc b) := by
  unfold W19; exact Pipeline.withArrays_of_ne spec1 c _ _ b hb
abbrev V19 : (c : Dev nD) → (b : Ref sig .tc) → Buf (Elt F) ((c : Thread nD τ).loc b) := fun c b => W19 m c b
theorem hF1 (c : Dev nD) (w : Fin cfg1.W) : (dat1 (V18 m) c).arrAt w cfg1.N = V19 m c (Pipeline.arrRef spec1 w) :=
  (W19_arr m c w).symm
theorem hrest1 (c : Dev nD) : ∀ b, b ∉ Finset.univ.image (Pipeline.arrRef spec1) → V19 m c b = V18 m c b :=
  fun b hb => W19_of_ne m c b fun w e => hb (Finset.mem_image.mpr ⟨w, Finset.mem_univ _, e⟩)
theorem W1_of (c : Dev nD) (r : Ref sig .tc) (h : r ∉ hostOps0_W) : W1 m c r = W0 m c r :=
  StableHlo.after_of_writes_sub hostOps0 _ hostOps0_writes h

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V18 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W19 m c) ∗ ∃ r, prngReg c r)

/-! ## The regions as segments -/

set_option backward.isDefEq.respectTransparency.types false in
/-- The first kernel's region over the thread state: entered from every unscoped buffer at `W1`, left at `W2`.  Its
    arrays are split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region over the thread state: entered from every unscoped buffer at `W18`, left at `W19`.  Its
    arrays are split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V18 m) c).loose
  hwaits := Pipeline.hwaits_of_owed_zero _ _ _ _ L lv 1 fun _ _ => rfl
  pre c := iprop(StableHlo.held (c : Thread nD τ) (Pipeline.ucRefs τ sig) (W18 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V18 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V18 m c) (V19 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .host (hseg hostOps1_7 hostOps1_7_sub hostOps1_7_fresh (W9 m)),
    .host (hseg hostOps1_8 hostOps1_8_sub hostOps1_8_fresh (W10 m)),
    .host (hseg hostOps1_9 hostOps1_9_sub hostOps1_9_fresh (W11 m)),
    .host (hseg hostOps1_10 hostOps1_10_sub hostOps1_10_fresh (W12 m)),
    .host (hseg hostOps1_11 hostOps1_11_sub hostOps1_11_fresh (W13 m)),
    .host (hseg hostOps1_12 hostOps1_12_sub hostOps1_12_fresh (W14 m)),
    .host (hseg hostOps1_13 hostOps1_13_sub hostOps1_13_fresh (W15 m)),
    .host (hseg hostOps1_14 hostOps1_14_sub hostOps1_14_fresh (W16 m)),
    .host (hseg hostOps1_15 hostOps1_15_sub hostOps1_15_fresh (W17 m)),
    .region (reg1 m) ]

theorem main_run (c : Dev nD) : main (F := F) c = Pipeline.Seg.run (segs m) := (main_chain c).trans (by chain_rfl)

set_option backward.isDefEq.respectTransparency.types false in
set_option maxHeartbeats 4000000 in
/-- At the compiled mesh, from any memory with zero counters: every weakly fair execution of @main terminates, nothing
    faulting, and every final state holds every unscoped buffer at the last boundary's contents `W19`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h c => h c)

/-! ## The arguments end as launched -/

theorem W19_main_arg0 (c : Dev nD) : W19 m c (Proc.devRef .tc main_arg0) = m ((c : Thread nD τ).loc main_arg0) :=
  (W19_of_ne m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| ((W2_arr m c 4).trans (((dat0 (V1 m) c).arrAt_in 4 rfl _).trans (A_eq0 (V1 m) c 4))).trans <| (W1_of m c main_arg0 (by decide)).trans rfl
theorem W19_main_arg1 (c : Dev nD) : W19 m c (Proc.devRef .tc main_arg1) = m ((c : Thread nD τ).loc main_arg1) :=
  (W19_of_ne m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| ((W2_arr m c 5).trans (((dat0 (V1 m) c).arrAt_in 5 rfl _).trans (A_eq0 (V1 m) c 5))).trans <| (W1_of m c main_arg1 (by decide)).trans rfl
theorem W19_main_arg2 (c : Dev nD) : W19 m c (Proc.devRef .tc main_arg2) = m ((c : Thread nD τ).loc main_arg2) :=
  (W19_of_ne m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| ((W2_arr m c 1).trans (((dat0 (V1 m) c).arrAt_in 1 rfl _).trans (A_eq0 (V1 m) c 1))).trans <| (W1_of m c main_arg2 (by decide)).trans rfl
theorem W19_main_arg3 (c : Dev nD) : W19 m c (Proc.devRef .tc main_arg3) = m ((c : Thread nD τ).loc main_arg3) :=
  (W19_of_ne m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| ((W2_arr m c 2).trans (((dat0 (V1 m) c).arrAt_in 2 rfl _).trans (A_eq0 (V1 m) c 2))).trans <| (W1_of m c main_arg3 (by decide)).trans rfl
theorem W19_main_arg4 (c : Dev nD) : W19 m c (Proc.devRef .tc main_arg4) = m ((c : Thread nD τ).loc main_arg4) :=
  (W19_of_ne m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| ((W2_arr m c 0).trans (((dat0 (V1 m) c).arrAt_in 0 rfl _).trans (A_eq0 (V1 m) c 0))).trans <| (W1_of m c main_arg4 (by decide)).trans rfl
theorem W19_main_arg5 (c : Dev nD) : W19 m c (Proc.devRef .tc main_arg5) = m ((c : Thread nD τ).loc main_arg5) :=
  (W19_of_ne m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of_ne m c main_arg5 (by decide)).trans <| (W1_of m c main_arg5 (by decide)).trans rfl
theorem W19_main_arg6 (c : Dev nD) : W19 m c (Proc.devRef .tc main_arg6) = m ((c : Thread nD τ).loc main_arg6) :=
  (W19_of_ne m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of_ne m c main_arg6 (by decide)).trans <| (W1_of m c main_arg6 (by decide)).trans rfl

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W19_main_arg0 m c),
      (h c _ (mem_uc main_arg1 (by decide))).trans (W19_main_arg1 m c),
      (h c _ (mem_uc main_arg2 (by decide))).trans (W19_main_arg2 m c),
      (h c _ (mem_uc main_arg3 (by decide))).trans (W19_main_arg3 m c),
      (h c _ (mem_uc main_arg4 (by decide))).trans (W19_main_arg4 m c),
      (h c _ (mem_uc main_arg5 (by decide))).trans (W19_main_arg5 m c),
      (h c _ (mem_uc main_arg6 (by decide))).trans (W19_main_arg6 m c)⟩) (run_all m ρ)

end Cert.Kernel.Hand

end
-- ==== Proof.KI.Runs0.lean ====
import proofs.«165992_j40183714021526_2_alg».proof.Proof.Gen.KernelIdeal.Launch
import proofs.«165992_j40183714021526_2_alg».proof.Proof.Gen.KernelIdeal.Skeleton
import proofs.«165992_j40183714021526_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (the bounds kernel): what its runs share

The grid is 8 × 8: coordinate 0 picks a block of 512 rows of the second layer, coordinate 1 (`k`) a block of 512 of the
contracted index.  At `k = 0` the body clears its two accumulators; at every point it adds one tile's product to them;
at `k = 7` it turns the finished accumulators into the two bound columns and stores them. -/

/-- The body's first branch: `k = 0` (the scalar chain of the printed condition). -/
abbrev first0 (i : grid0.Coords) : Prop :=
  (Scalar.cmpi .ne (Scalar.extui (Scalar.cmpi .eq (BitVec.ofNat 32 (i 1).val) 0#32)) 0#32) = 1#1
/-- It holds at the points whose second coordinate is 0. -/
theorem hfirst0 : ∀ t : Fin cfg0.N, first0 (grid0.coords t) ↔ t.val % 8 = 0 :=
  (by decide +kernel : ∀ t : Fin grid0.N, first0 (grid0.coords t) ↔ t.val % 8 = 0)

/-- The body's second branch: `k = 7`. -/
abbrev last0 (i : grid0.Coords) : Prop := k0_cond2 i = 1#1
/-- It holds at the points whose second coordinate is 7. -/
theorem hlast0 : ∀ t : Fin cfg0.N, last0 (grid0.coords t) ↔ t.val % 8 = 7 :=
  (by decide +kernel : ∀ t : Fin grid0.N, last0 (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- Away from `k = 7` the two outputs are idle: nothing is stored into them and their blocks are not written back. -/
theorem idle0_6 : ∀ t : Fin cfg0.N, ¬last0 (grid0.coords t) → cfg0.idle 6 (grid0.coords t) = true := by decide +kernel
theorem idle0_7 : ∀ t : Fin cfg0.N, ¬last0 (grid0.coords t) → cfg0.idle 7 (grid0.coords t) = true := by decide +kernel
theorem noFlush0_6 : ∀ t : Fin cfg0.N, ¬last0 (grid0.coords t) → (cfg0.win 6).flush t = false := by decide +kernel
theorem noFlush0_7 : ∀ t : Fin cfg0.N, ¬last0 (grid0.coords t) → (cfg0.win 7).flush t = false := by decide +kernel
/-- At `k = 7` they are live. -/
theorem live0_6 : ∀ t : Fin cfg0.N, last0 (grid0.coords t) → cfg0.idle 6 (grid0.coords t) = false := by decide +kernel
theorem live0_7 : ∀ t : Fin cfg0.N, last0 (grid0.coords t) → cfg0.idle 7 (grid0.coords t) = false := by decide +kernel

/-! ## The memrefs the body is called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The slope accumulator (512 × 4096) and the intercept accumulator (512 × 1): whole scoped buffers of the kernel's own. -/
abbrev accS : Memref sig .tc .vmem S512x4096 .f32 := Memref.whole cc0_scratch0
abbrev accC : Memref sig .tc .vmem S512x1 .f32 := Memref.whole cc0_scratch1
/-- Views through which the accumulators' and the outputs' contents are stated. -/
abbrev VaccS : View sig .tc .vmem S512x4096 .f32 := accS.view
abbrev VaccC : View sig .tc .vmem S512x1 .f32 := accC.view
abbrev Vout6 : View sig .tc .vmem S512x1 .f32 := (Memref.whole cc0_stg6_0 : Memref sig .tc .vmem S512x1 .f32).view
abbrev Vout7 : View sig .tc .vmem S512x1 .f32 := (Memref.whole cc0_stg7_0 : Memref sig .tc .vmem S512x1 .f32).view

/-- The second kernel's staging buffers, each owned whole at some contents: scoped buffers this kernel never touches. -/
def restScoped (c : Dev nD) : sProp 𝕄 :=
  iprop((∃ d, owns (c : Thread nD τ) (Memref.whole cc1_stg0_0 : Memref sig .tc .vmem S512x1 .f32) fullShare d) ∗ (∃ d, owns (c : Thread nD τ) (Memref.whole cc1_stg0_1 : Memref sig .tc .vmem S512x1 .f32) fullShare d) ∗ (∃ d, owns (c : Thread nD τ) (Memref.whole cc1_stg1_0 : Memref sig .tc .vmem S512x1 .f32) fullShare d) ∗ (∃ d, owns (c : Thread nD τ) (Memref.whole cc1_stg1_1 : Memref sig .tc .vmem S512x1 .f32) fullShare d) ∗ (∃ d, owns (c : Thread nD τ) (Memref.whole cc1_stg2_0 : Memref sig .tc .vmem S512x512 .f32) fullShare d) ∗ (∃ d, owns (c : Thread nD τ) (Memref.whole cc1_stg2_1 : Memref sig .tc .vmem S512x512 .f32) fullShare d) ∗ (∃ d, owns (c : Thread nD τ) (Memref.whole cc1_stg3_0 : Memref sig .tc .vmem S512x512 .f32) fullShare d) ∗ (∃ d, owns (c : Thread nD τ) (Memref.whole cc1_stg3_1 : Memref sig .tc .vmem S512x512 .f32) fullShare d))

/-- The invariant of a kernel that keeps nothing between points, with this kernel's two accumulators as memrefs owned at
    some contents, then the other scoped buffers, then the generator register. -/
theorem PhiA0_eq (c : Dev nD) :
    (Pipeline.ΦA spec0 c : sProp 𝕄)
      = iprop(iprop((∃ d, owns (c : Thread nD τ) accS fullShare d) ∗ (∃ d, owns (c : Thread nD τ) accC fullShare d) ∗ restScoped c) ∗ (∃ r, prngReg c r)) := by
  unfold Pipeline.ΦA restScoped; rw [scopedRest0_eq]; simp only [accS, accC, owns_whole]; try rfl

end Cert.KernelIdeal.Hand

end
-- ==== Proof.KI.Run0A.lean ====
import proofs.«165992_j40183714021526_2_alg».proof.Proof.KI.Runs0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at `k = 0`: the accumulators are cleared, then one tile's product and one tile's weighted row sums are added; the outputs are left untouched.  On whole memrefs — the six inputs at their contents, the outputs at contents handed back as they were, the accumulators at anything — the body
    runs to a continuation that holds the inputs as they were, the outputs as they were, and each accumulator with the
    listed pieces written; the piece lists are what the symbolic run of the body's stores finds. -/
noncomputable def bodyRunA (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 : Vec F S1x4096 .f32) (x5 : Vec F S1x4096 .f32) :
    Σ' (LS0 : List (View.Piece (Elt F) S512x4096 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__bounds_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__bounds_kernel_eq_skeleton]; unfold cc0__bounds_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand

end
-- ==== Proof.KI.Run0B.lean ====
import proofs.«165992_j40183714021526_2_alg».proof.Proof.KI.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at `0 < k < 7`: one tile's product and one tile's weighted row sums are added to the accumulators; the outputs are left untouched.  On whole memrefs — the six inputs at their contents, the outputs at contents handed back as they were, the accumulators at what the point before left — the body
    runs to a continuation that holds the inputs as they were, the outputs as they were, and each accumulator with the
    listed pieces written; the piece lists are what the symbolic run of the body's stores finds. -/
noncomputable def bodyRunB (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 : Vec F S1x4096 .f32) (x5 : Vec F S1x4096 .f32) (xs0 : Vec F S512x4096 .f32) (xs1 : Vec F S512x1 .f32) :
    Σ' (LS0 : List (View.Piece (Elt F) S512x4096 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__bounds_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__bounds_kernel_eq_skeleton]; unfold cc0__bounds_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand

end
-- ==== Proof.KI.Run0C.lean ====
import proofs.«165992_j40183714021526_2_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at `k = 7`: the last tile is added, then four chunks of 128 rows each turn the accumulators into the two bound columns, stored into the outputs.  On whole memrefs — the six inputs at their contents, the outputs at anything, the accumulators at what the point before left — the body
    runs to a continuation that holds the inputs as they were, each output with the listed pieces written, and each accumulator with the
    listed pieces written; the piece lists are what the symbolic run of the body's stores finds. -/
noncomputable def bodyRunC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 : Vec F S1x4096 .f32) (x5 : Vec F S1x4096 .f32) (xs0 : Vec F S512x4096 .f32) (xs1 : Vec F S512x1 .f32) :
    Σ' (L6 : List (View.Piece (Elt F) S512x1 .f32)) (L7 : List (View.Piece (Elt F) S512x1 .f32)) (LS0 : List (View.Piece (Elt F) S512x4096 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__bounds_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__bounds_kernel_eq_skeleton]; unfold cc0__bounds_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Hand

end
-- ==== Proof.KI.Frame0.lean ====
import proofs.«165992_j40183714021526_2_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first kernel over a region entered at contents `V`: what its buffers hold point by point, and its body obligation -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Case A: the pieces stored into the slope accumulator tile it. -/
theorem coverA_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 x5 : Vec F S1x4096 .f32) (y : S512x4096.Idx) :
    ∃ pc ∈ (bodyRunA c i arg2 harg2 arg3 harg3 arg4 harg4 arg5 harg5 arg6 harg6 arg7 harg7 arg8 harg8 arg9 harg9 arg10 harg10 arg11 harg11 hc1 hc2 x0 x1 x2 x3 x4 x5).1, y ∈ pc.1.set :=
  View.cover_of_tiledL (bodyRunA c i arg2 harg2 arg3 harg3 arg4 harg4 arg5 harg5 arg6 harg6 arg7 harg7 arg8 harg8 arg9 harg9 arg10 harg10 arg11 harg11 hc1 hc2 x0 x1 x2 x3 x4 x5).1 S512x4096.size (by sl_kernel_rfl) y

/-- Case A: what the body leaves there, its pieces read back. -/
def leftA_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 x5 : Vec F S1x4096 .f32) : Vec F S512x4096 .f32 :=
  VaccS.read (Elt F) (VaccS.writes (Elt F) VaccS.junk (bodyRunA c i arg2 harg2 arg3 harg3 arg4 harg4 arg5 harg5 arg6 harg6 arg7 harg7 arg8 harg8 arg9 harg9 arg10 harg10 arg11 harg11 hc1 hc2 x0 x1 x2 x3 x4 x5).1)

/-- Case A: the pieces stored into the intercept accumulator tile it. -/
theorem coverA_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 x5 : Vec F S1x4096 .f32) (y : S512x1.Idx) :
    ∃ pc ∈ (bodyRunA c i arg2 harg2 arg3 harg3 arg4 harg4 arg5 harg5 arg6 harg6 arg7 harg7 arg8 harg8 arg9 harg9 arg10 harg10 arg11 harg11 hc1 hc2 x0 x1 x2 x3 x4 x5).2.1, y ∈ pc.1.set :=
  View.cover_of_tiledL (bodyRunA c i arg2 harg2 arg3 harg3 arg4 harg4 arg5 harg5 arg6 harg6 arg7 harg7 arg8 harg8 arg9 harg9 arg10 harg10 arg11 harg11 hc1 hc2 x0 x1 x2 x3 x4 x5).2.1 S512x1.size (by sl_kernel_rfl) y

/-- Case A: what the body leaves there, its pieces read back. -/
def leftA_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 x5 : Vec F S1x4096 .f32) : Vec F S512x1 .f32 :=
  VaccC.read (Elt F) (VaccC.writes (Elt F) VaccC.junk (bodyRunA c i arg2 harg2 arg3 harg3 arg4 harg4 arg5 harg5 arg6 harg6 arg7 harg7 arg8 harg8 arg9 harg9 arg10 harg10 arg11 harg11 hc1 hc2 x0 x1 x2 x3 x4 x5).2.1)

/-- Case B: the pieces stored into the slope accumulator tile it. -/
theorem coverB_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x4096.Idx) :
    ∃ pc ∈ (bodyRunB c i arg2 harg2 arg3 harg3 arg4 harg4 arg5 harg5 arg6 harg6 arg7 harg7 arg8 harg8 arg9 harg9 arg10 harg10 arg11 harg11 hc1 hc2 x0 x1 x2 x3 x4 x5 xs0 xs1).1, y ∈ pc.1.set :=
  View.cover_of_tiledL (bodyRunB c i arg2 harg2 arg3 harg3 arg4 harg4 arg5 harg5 arg6 harg6 arg7 harg7 arg8 harg8 arg9 harg9 arg10 harg10 arg11 harg11 hc1 hc2 x0 x1 x2 x3 x4 x5 xs0 xs1).1 S512x4096.size (by sl_kernel_rfl) y

/-- Case B: what the body leaves there, its pieces read back. -/
def leftB_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x4096 .f32 :=
  VaccS.read (Elt F) (VaccS.writes (Elt F) VaccS.junk (bodyRunB c i arg2 harg2 arg3 harg3 arg4 harg4 arg5 harg5 arg6 harg6 arg7 harg7 arg8 harg8 arg9 harg9 arg10 harg10 arg11 harg11 hc1 hc2 x0 x1 x2 x3 x4 x5 xs0 xs1).1)

/-- Case B: the pieces stored into the intercept accumulator tile it. -/
theorem coverB_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x1.Idx) :
    ∃ pc ∈ (bodyRunB c i arg2 harg2 arg3 harg3 arg4 harg4 arg5 harg5 arg6 harg6 arg7 harg7 arg8 harg8 arg9 harg9 arg10 harg10 arg11 harg11 hc1 hc2 x0 x1 x2 x3 x4 x5 xs0 xs1).2.1, y ∈ pc.1.set :=
  View.cover_of_tiledL (bodyRunB c i arg2 harg2 arg3 harg3 arg4 harg4 arg5 harg5 arg6 harg6 arg7 harg7 arg8 harg8 arg9 harg9 arg10 harg10 arg11 harg11 hc1 hc2 x0 x1 x2 x3 x4 x5 xs0 xs1).2.1 S512x1.size (by sl_kernel_rfl) y

/-- Case B: what the body leaves there, its pieces read back. -/
def leftB_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x1 .f32 :=
  VaccC.read (Elt F) (VaccC.writes (Elt F) VaccC.junk (bodyRunB c i arg2 harg2 arg3 harg3 arg4 harg4 arg5 harg5 arg6 harg6 arg7 harg7 arg8 harg8 arg9 harg9 arg10 harg10 arg11 harg11 hc1 hc2 x0 x1 x2 x3 x4 x5 xs0 xs1).2.1)

/-- Case C: the pieces stored into output 6 tile it. -/
theorem coverC_out6 (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x1.Idx) :
    ∃ pc ∈ (bodyRunC c i arg2 harg2 arg3 harg3 arg4 harg4 arg5 harg5 arg6 harg6 arg7 harg7 arg8 harg8 arg9 harg9 arg10 harg10 arg11 harg11 hc1 hc2 x0 x1 x2 x3 x4 x5 xs0 xs1).1, y ∈ pc.1.set :=
  View.cover_of_tiledL (bodyRunC c i arg2 harg2 arg3 harg3 arg4 harg4 arg5 harg5 arg6 harg6 arg7 harg7 arg8 harg8 arg9 harg9 arg10 harg10 arg11 harg11 hc1 hc2 x0 x1 x2 x3 x4 x5 xs0 xs1).1 S128x1.size (by sl_kernel_rfl) y

/-- Case C: what the body leaves there, its pieces read back. -/
def leftC_out6 (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x1 .f32 :=
  Vout6.read (Elt F) (Vout6.writes (Elt F) Vout6.junk (bodyRunC c i arg2 harg2 arg3 harg3 arg4 harg4 arg5 harg5 arg6 harg6 arg7 harg7 arg8 harg8 arg9 harg9 arg10 harg10 arg11 harg11 hc1 hc2 x0 x1 x2 x3 x4 x5 xs0 xs1).1)

/-- Case C: the pieces stored into output 7 tile it. -/
theorem coverC_out7 (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x1.Idx) :
    ∃ pc ∈ (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.1, y ∈ pc.1.set :=
  View.cover_of_tiledL (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.1 S128x1.size (by sl_kernel_rfl) y

/-- Case C: what the body leaves there, its pieces read back. -/
def leftC_out7 (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x1 .f32 :=
  Vout7.read (Elt F) (Vout7.writes (Elt F) Vout7.junk (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.1)

/-- Case C: the pieces stored into the slope accumulator tile it. -/
theorem coverC_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x4096.Idx) :
    ∃ pc ∈ (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.1, y ∈ pc.1.set :=
  View.cover_of_tiledL (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.1 S512x4096.size (by sl_kernel_rfl) y

/-- Case C: what the body leaves there, its pieces read back. -/
def leftC_accS (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x4096 .f32 :=
  VaccS.read (Elt F) (VaccS.writes (Elt F) VaccS.junk (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.1)

/-- Case C: the pieces stored into the intercept accumulator tile it. -/
theorem coverC_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) (y : S512x1.Idx) :
    ∃ pc ∈ (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.2.1 S512x1.size (by sl_kernel_rfl) y

/-- Case C: what the body leaves there, its pieces read back. -/
def leftC_accC (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) : Vec F S512x1 .f32 :=
  VaccC.read (Elt F) (VaccC.writes (Elt F) VaccC.junk (bodyRunC c i arg2 harg2 arg3 harg3 arg4 harg4 arg5 harg5 arg6 harg6 arg7 harg7 arg8 harg8 arg9 harg9 arg10 harg10 arg11 harg11 hc1 hc2 x0 x1 x2 x3 x4 x5 xs0 xs1).2.2.2.1)

/-! ## The accumulation -/

/-- What the two outputs' staging buffers and the two accumulators hold after the body at position `n`: at `k = 0` the
    accumulators restart from this point's tile; otherwise they continue from what position `n - 1` left; the outputs are
    stored at `k = 7` only (elsewhere a placeholder nothing consults: the windows are idle there). -/
def outsAt0 (c : Dev nD) : (n : ℕ) → n < cfg0.N → Vec F S512x1 .f32 × Vec F S512x1 .f32 × Vec F S512x4096 .f32 × Vec F S512x1 .f32
  | 0, hn => (Vout6.read (Elt F) Vout6.junk, Vout7.read (Elt F) Vout7.junk, leftA_accS c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) accS (Memref.isWhole_whole _) accC (Memref.isWhole_whole _) ((hfirst0 ⟨0, hn⟩).mpr (Nat.zero_mod _)) (fun h => by have h' := (hlast0 ⟨0, hn⟩).mp h; dsimp only at h'; omega) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), leftA_accC c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) accS (Memref.isWhole_whole _) accC (Memref.isWhole_whole _) ((hfirst0 ⟨0, hn⟩).mpr (Nat.zero_mod _)) (fun h => by have h' := (hlast0 ⟨0, hn⟩).mp h; dsimp only at h'; omega) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : (n + 1) % 8 = 0 then
      (Vout6.read (Elt F) Vout6.junk, Vout7.read (Elt F) Vout7.junk, leftA_accS c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) ((hfirst0 ⟨n + 1, hn⟩).mpr h1) (fun h => by have h' := (hlast0 ⟨n + 1, hn⟩).mp h; dsimp only at h'; omega) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), leftA_accC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) ((hfirst0 ⟨n + 1, hn⟩).mpr h1) (fun h => by have h' := (hlast0 ⟨n + 1, hn⟩).mp h; dsimp only at h'; omega) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else if h2 : (n + 1) % 8 = 7 then
      (leftC_out6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) ((hlast0 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2, leftC_out7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) ((hlast0 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2, leftC_accS c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) ((hlast0 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2, leftC_accC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) ((hlast0 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2)
    else
      (Vout6.read (Elt F) Vout6.junk, Vout7.read (Elt F) Vout7.junk, leftB_accS c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) (fun h => h2 ((hlast0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2, leftB_accC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accS (Memref.isWhole_whole _) accC (Memref.isWhole_whole _) (fun h => h1 ((hfirst0 ⟨n + 1, hn⟩).mp h)) (fun h => h2 ((hlast0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2)

theorem outsAt0_A (c : Dev nD) (t : Fin cfg0.N) (h1 : t.val % 8 = 0) (h2 : ¬t.val % 8 = 7) :
    outsAt0 V c t.val t.isLt = (Vout6.read (Elt F) Vout6.junk, Vout7.read (Elt F) Vout7.junk, leftA_accS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) ((hfirst0 t).mpr h1) (fun h => h2 ((hlast0 t).mp h)) (iblk0 V c 0 t) (iblk0 V c 1 t) (iblk0 V c 2 t) (iblk0 V c 3 t) (iblk0 V c 4 t) (iblk0 V c 5 t), leftA_accC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) ((hfirst0 t).mpr h1) (fun h => h2 ((hlast0 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h1).trans rfl

theorem outsAt0_B (c : Dev nD) (t : Fin cfg0.N) (h1 : ¬t.val % 8 = 0) (h2 : ¬t.val % 8 = 7) :
    outsAt0 V c t.val t.isLt = (Vout6.read (Elt F) Vout6.junk, Vout7.read (Elt F) Vout7.junk, leftB_accS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) (fun h => h2 ((hlast0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, leftB_accC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) (fun h => h2 ((hlast0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd (Nat.zero_mod _) h1
  | succ n => exact (dif_neg h1).trans ((dif_neg h2).trans rfl)

theorem outsAt0_C (c : Dev nD) (t : Fin cfg0.N) (h1 : ¬t.val % 8 = 0) (h2 : t.val % 8 = 7) :
    outsAt0 V c t.val t.isLt = (leftC_out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) ((hlast0 t).mpr h2) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, leftC_out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) ((hlast0 t).mpr h2) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, leftC_accS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) ((hlast0 t).mpr h2) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2, leftC_accC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) (fun h => h1 ((hfirst0 t).mp h)) ((hlast0 t).mpr h2) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd (Nat.zero_mod _) h1
  | succ n => exact (dif_neg h1).trans ((dif_pos h2).trans rfl)

/-- The region invariant before position `n`: before the first point every scoped buffer at anything; afterwards the two
    accumulators at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accS fullShare ((outsAt0 V c n hn).2.2.1) ∗ owns (c : Thread nD τ) accC fullShare ((outsAt0 V c n hn).2.2.2) ∗ restScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accS fullShare ((outsAt0 V c n hn).2.2.1) ∗ owns (c : Thread nD τ) accC fullShare ((outsAt0 V c n hn).2.2.2) ∗ restScoped c) ∗ (∃ r, prngReg c r)) := rfl

theorem PhiS_pos (c : Dev nD) (n : ℕ) (h : n ≤ cfg0.N) (hz : n ≠ 0) :
    PhiS V c n h = iprop(iprop(owns (c : Thread nD τ) accS fullShare ((outsAt0 V c (n - 1) (by omega)).2.2.1) ∗ owns (c : Thread nD τ) accC fullShare ((outsAt0 V c (n - 1) (by omega)).2.2.2) ∗ restScoped c) ∗ (∃ r, prngReg c r)) := by
  cases n with
  | zero => exact absurd rfl hz
  | succ n => rfl

/-! ## The proof data -/

/-- The first pipeline's proof data on core `c`: the arrays as the region finds them; after the body each input's buffer
    at its block, the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point.  The inputs' memrefs hold their blocks; the second grid coordinate says which case the point is
    in; the invariant hands the body the accumulators at what the point before left (at anything at the very first point)
    and takes them back at this point's contents; where the outputs are idle their buffers come back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  rw [show (dat0 V c).leavesExact 5 t = owns (c : Thread nD τ) (ms0_5 t) fullShare ((dat0 V c).after 5 t) from by
    unfold Dat.leavesExact; rw [live0_5 t], after0_5]
  by_cases h1 : t.val % 8 = 0
  · have h2 : ¬t.val % 8 = 7 := by omega
    rw [Dat.leavesExact_idle (dat0 V c) 6 t (idle0_6 t (fun h => h2 ((hlast0 t).mp h))) (noFlush0_6 t (fun h => h2 ((hlast0 t).mp h)))]
    rw [Dat.leavesExact_idle (dat0 V c) 7 t (idle0_7 t (fun h => h2 ((hlast0 t).mp h))) (noFlush0_7 t (fun h => h2 ((hlast0 t).mp h)))]
    rw [outsAt0_A V c t h1 h2]
    unfold leftA_accS leftA_accC; (try dsimp only)
    by_cases hz : t.val = 0
    ·
      rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRunA c (grid0.coords t) _ _ _ _ _ _ _ _ _ _ _ _ _ _ _ _ _ _ _ _ ((hfirst0 t).mpr h1) (fun h => h2 ((hlast0 t).mp h)) (iblk0 V c 0 t) (iblk0 V c 1 t) (iblk0 V c 2 t) (iblk0 V c 3 t) (iblk0 V c 4 t) (iblk0 V c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverA_accS c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverA_accC c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    ·
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRunA c (grid0.coords t) _ _ _ _ _ _ _ _ _ _ _ _ _ _ _ _ _ _ _ _ ((hfirst0 t).mpr h1) (fun h => h2 ((hlast0 t).mp h)) (iblk0 V c 0 t) (iblk0 V c 1 t) (iblk0 V c 2 t) (iblk0 V c 3 t) (iblk0 V c 4 t) (iblk0 V c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverA_accS c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverA_accC c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun h => h1 (by rw [h])
    by_cases h2 : t.val % 8 = 7
    · rw [show (dat0 V c).leavesExact 6 t = owns (c : Thread nD τ) (ms0_6 t) fullShare ((dat0 V c).after 6 t) from by
        unfold Dat.leavesExact; rw [live0_6 t ((hlast0 t).mpr h2)], after0_6]
      rw [show (dat0 V c).leavesExact 7 t = owns (c : Thread nD τ) (ms0_7 t) fullShare ((dat0 V c).after 7 t) from by
        unfold Dat.leavesExact; rw [live0_7 t ((hlast0 t).mpr h2)], after0_7]
      rw [outsAt0_C V c t h1 h2]
      unfold leftC_out6 leftC_out7 leftC_accS leftC_accC; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRunC c (grid0.coords t) _ _ _ _ _ _ _ _ _ _ _ _ _ _ _ _ _ _ _ _ (fun h => h1 ((hfirst0 t).mp h)) ((hlast0 t).mpr h2) (iblk0 V c 0 t) (iblk0 V c 1 t) (iblk0 V c 2 t) (iblk0 V c 3 t) (iblk0 V c 4 t) (iblk0 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverC_accS c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverC_accC c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC_out6 c _ _ _ _ _ _ _ _ _ _ _ _ _ _ _ _ _ _ _ _ _ _ _ _ _ _ _ _ _ _ _)
      · unfold owns; iexists _; isplitr
        swap; · iexact H7
        ipureintro; exact View.read_writes_of_cover _ _ _ _ _ (coverC_out7 c _ _ _ _ _ _ _ _ _ _ _ _ _ _ _ _ _ _ _ _ _ _ _ _ _ _ _ _ _ _ _)
    · rw [Dat.leavesExact_idle (dat0 V c) 6 t (idle0_6 t (fun h => h2 ((hlast0 t).mp h))) (noFlush0_6 t (fun h => h2 ((hlast0 t).mp h)))]
      rw [Dat.leavesExact_idle (dat0 V c) 7 t (idle0_7 t (fun h => h2 ((hlast0 t).mp h))) (noFlush0_7 t (fun h => h2 ((hlast0 t).mp h)))]
      rw [outsAt0_B V c t h1 h2]
      unfold leftB_accS leftB_accC; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRunB c (grid0.coords t) _ _ _ _ _ _ _ _ _ _ _ _ _ _ _ _ _ _ _ _ (fun h => h1 ((hfirst0 t).mp h)) (fun h => h2 ((hlast0 t).mp h)) (iblk0 V c 0 t) (iblk0 V c 1 t) (iblk0 V c 2 t) (iblk0 V c 3 t) (iblk0 V c 4 t) (iblk0 V c 5 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (coverB_accS c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverB_accC c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back at contents no longer named. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.KernelIdeal.Hand

end
-- ==== Proof.KI.Diag.lean ====
/-
  The second kernel region of @main (custom_call 1, the diagonal kernel, pipeline 1) as the class-A half of a
  frame certificate over several regions, for any float type `F`, at a parameter `V`: the TensorCore's buffer
  contents when the region is entered.

  The kernel has two input windows (0 and 1: columns of 4096 rows in blocks of 512 rows, indexed by the first
  grid coordinate only) and two output windows (2 and 3: 4096 × 4096 in blocks 512 × 512, indexed by both
  coordinates).  At a grid point the body loads the two column blocks whole, loads each output buffer whole
  (the values are not used) and stores one payload over the whole of each output buffer; the payloads read the
  grid coordinates.  So what each output buffer holds after the body is the canonical contents of one covering
  store, a function of the grid coordinates and the input blocks; each input buffer holds its window's block at
  every point, whether fetched there or not (the inputs are fetched only when the first coordinate moves).
-/
import proofs.«165992_j40183714021526_2_alg».proof.Proof.Gen.KernelIdeal.Launch
import proofs.«165992_j40183714021526_2_alg».proof.Proof.Gen.KernelIdeal.Skeleton
import proofs.«165992_j40183714021526_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved, so the block left by the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a column block: what each load of an input buffer reads. -/
abbrev r1_0 : Rect S512x1 := Rect.unit (s := S512x1) ![0, 0] S512x1.size inb_S512x1_S512x1_0_0
/-- The whole of a square block: what each store into an output buffer writes. -/
abbrev r1_1 : Rect S512x512 := Rect.unit (s := S512x512) ![0, 0] S512x512.size inb_S512x512_S512x512_0_0

/-! ## What the body leaves in each output window's buffer -/

/-- Window 2's staging buffer after the body at grid coordinates `i`, from the input windows' blocks: its one
    store, over the whole buffer, of the payload computed from the first column block. -/
def out1_2 (i : grid1.Coords) (x0 x1 : Vec F S512x1 .f32) : Vec F S512x512 .f32 :=
  View.canon [⟨r1_1, k1_pay2 i (View.ld x0 r1_0)⟩]

/-- Window 3's staging buffer after the body at grid coordinates `i`: its one store, over the whole buffer, of
    the payload computed from the second column block. -/
def out1_3 (i : grid1.Coords) (x0 x1 : Vec F S512x1 .f32) : Vec F S512x512 .f32 :=
  View.canon [⟨r1_1, k1_pay3 i (View.ld x1 r1_0)⟩]

/-- One store over the whole buffer tiles it, so it covers it. -/
theorem cover1_2 (p0 : Vec F S512x512 .f32) (y : S512x512.Idx) :
    ∃ pc ∈ ([⟨r1_1, p0⟩] : List (View.Piece (Elt F) S512x512 .f32)), y ∈ pc.1.set :=
  View.cover_of_tiled [⟨r1_1, p0⟩] S512x512.size (by rfl) y

/-! ## The body's triple -/

set_option maxHeartbeats 1000000 in
/-- The kernel body at grid coordinates `i` on whole staging memrefs, the inputs' at read contents `x0`, `x1` and
    the outputs' at anything, runs to the continuation holding the inputs' as they were and the outputs' at
    `out1_2`, `out1_3` of the inputs': the printed function is its skeleton, which is run operation by operation;
    after each output's store the buffer reads as the canonical contents of that store, which covers it. -/
theorem sound_kernel1 (c : Dev nD) (E : Set ℕ) (i : grid1.Coords)
    (arg2 : Memref sig .tc .vmem S512x1 .f32) (harg2 : arg2.IsWhole) (arg3 : Memref sig .tc .vmem S512x1 .f32) (harg3 : arg3.IsWhole)
    (arg4 : Memref sig .tc .vmem S512x512 .f32) (harg4 : arg4.IsWhole) (arg5 : Memref sig .tc .vmem S512x512 .f32) (harg5 : arg5.IsWhole)
    (x0 x1 : Vec F S512x1 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out1_2 i x0 x1) ∗ owns (c : Thread nD τ) arg5 fullShare (out1_3 i x0 x1)) -∗ K ⟨⟩))
      ⊢ wp frame (wpE (defs₀ (F := F)) Variants.none c none) E (cc1__diag_kernel i arg2 harg2 arg3 harg3 arg4 harg4 arg5 harg5) K := by
  simp only [cc1__diag_kernel_eq_skeleton]; unfold cc1__diag_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_2 _)

/-! ## The pipeline's proof data -/

/-- The proof data of pipeline 1 on core `c`: the arrays as the region finds them (`V`); after the body at point
    `t` each input's buffer at its block and each output's at `out1_W` of the point's coordinates and the input
    blocks; the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
    | ⟨3, _⟩ => out1_3 (grid1.coords t) (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]
theorem after1_3 (c : Dev nD) (t : Fin cfg1.N) :
    (dat1 V c).after 3 t = out1_3 (grid1.coords t) (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies at the point's
    coordinates; the invariant and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Segs.lean ====
import proofs.«165992_j40183714021526_2_alg».proof.Proof.KI.Frame0
import proofs.«165992_j40183714021526_2_alg».proof.Proof.KI.Diag
import proofs.«165992_j40183714021526_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: its nineteen segments from the launch to the return

One host stretch (a reshape of the second bias), the first kernel, sixteen host stretches (the relaxation of the bounds,
one stretch per outlined selection), the second kernel.  The buffer contents at each boundary are a fold from the launch
memory: a host stretch applies its operations; a kernel leaves its arrays at what its write-backs fold to and every
other buffer as entered. -/

/-- Core `c`'s buffers at launch. -/
abbrev W0 : Dev nD → Valuation τ sig (Elt F) := fun c b => m (c, b)
/-- After the first host stretch: the first kernel's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
theorem W3_of (c : Dev nD) (r : Ref sig .tc) (h : r ∉ hostOps1_W) : W3 m c r = W2 m c r :=
  StableHlo.after_of_writes_sub hostOps1 _ hostOps1_writes h
/-- After the host stretch `hostOps1_1`. -/
abbrev W4 : Dev nD → Valuation τ sig (Elt F) := fun c => StableHlo.after hostOps1_1 (W3 m c)
theorem W4_of (c : Dev nD) (r : Ref sig .tc) (h : r ∉ hostOps1_1_W) : W4 m c r = W3 m c r :=
  StableHlo.after_of_writes_sub hostOps1_1 _ hostOps1_1_writes h
/-- After the host stretch `hostOps1_2`. -/
abbrev W5 : Dev nD → Valuation τ sig (Elt F) := fun c => StableHlo.after hostOps1_2 (W4 m c)
theorem W5_of (c : Dev nD) (r : Ref sig .tc) (h : r ∉ hostOps1_2_W) : W5 m c r = W4 m c r :=
  StableHlo.after_of_writes_sub hostOps1_2 _ hostOps1_2_writes h
/-- After the host stretch `hostOps1_3`. -/
abbrev W6 : Dev nD → Valuation τ sig (Elt F) := fun c => StableHlo.after hostOps1_3 (W5 m c)
theorem W6_of (c : Dev nD) (r : Ref sig .tc) (h : r ∉ hostOps1_3_W) : W6 m c r = W5 m c r :=
  StableHlo.after_of_writes_sub hostOps1_3 _ hostOps1_3_writes h
/-- After the host stretch `hostOps1_4`. -/
abbrev W7 : Dev nD → Valuation τ sig (Elt F) := fun c => StableHlo.after hostOps1_4 (W6 m c)
theorem W7_of (c : Dev nD) (r : Ref sig .tc) (h : r ∉ hostOps1_4_W) : W7 m c r = W6 m c r :=
  StableHlo.after_of_writes_sub hostOps1_4 _ hostOps1_4_writes h
/-- After the host stretch `hostOps1_5`. -/
abbrev W8 : Dev nD → Valuation τ sig (Elt F) := fun c => StableHlo.after hostOps1_5 (W7 m c)
theorem W8_of (c : Dev nD) (r : Ref sig .tc) (h : r ∉ hostOps1_5_W) : W8 m c r = W7 m c r :=
  StableHlo.after_of_writes_sub hostOps1_5 _ hostOps1_5_writes h
/-- After the host stretch `hostOps1_6`. -/
abbrev W9 : Dev nD → Valuation τ sig (Elt F) := fun c => StableHlo.after hostOps1_6 (W8 m c)
theorem W9_of (c : Dev nD) (r : Ref sig .tc) (h : r ∉ hostOps1_6_W) : W9 m c r = W8 m c r :=
  StableHlo.after_of_writes_sub hostOps1_6 _ hostOps1_6_writes h
/-- After the host stretch `hostOps1_7`. -/
abbrev W10 : Dev nD → Valuation τ sig (Elt F) := fun c => StableHlo.after hostOps1_7 (W9 m c)
theorem W10_of (c : Dev nD) (r : Ref sig .tc) (h : r ∉ hostOps1_7_W) : W10 m c r = W9 m c r :=
  StableHlo.after_of_writes_sub hostOps1_7 _ hostOps1_7_writes h
/-- After the host stretch `hostOps1_8`. -/
abbrev W11 : Dev nD → Valuation τ sig (Elt F) := fun c => StableHlo.after hostOps1_8 (W10 m c)
theorem W11_of (c : Dev nD) (r : Ref sig .tc) (h : r ∉ hostOps1_8_W) : W11 m c r = W10 m c r :=
  StableHlo.after_of_writes_sub hostOps1_8 _ hostOps1_8_writes h
/-- After the host stretch `hostOps1_9`. -/
abbrev W12 : Dev nD → Valuation τ sig (Elt F) := fun c => StableHlo.after hostOps1_9 (W11 m c)
theorem W12_of (c : Dev nD) (r : Ref sig .tc) (h : r ∉ hostOps1_9_W) : W12 m c r = W11 m c r :=
  StableHlo.after_of_writes_sub hostOps1_9 _ hostOps1_9_writes h
/-- After the host stretch `hostOps1_10`. -/
abbrev W13 : Dev nD → Valuation τ sig (Elt F) := fun c => StableHlo.after hostOps1_10 (W12 m c)
theorem W13_of (c : Dev nD) (r : Ref sig .tc) (h : r ∉ hostOps1_10_W) : W13 m c r = W12 m c r :=
  StableHlo.after_of_writes_sub hostOps1_10 _ hostOps1_10_writes h
/-- After the host stretch `hostOps1_11`. -/
abbrev W14 : Dev nD → Valuation τ sig (Elt F) := fun c => StableHlo.after hostOps1_11 (W13 m c)
theorem W14_of (c : Dev nD) (r : Ref sig .tc) (h : r ∉ hostOps1_11_W) : W14 m c r = W13 m c r :=
  StableHlo.after_of_writes_sub hostOps1_11 _ hostOps1_11_writes h
/-- After the host stretch `hostOps1_12`. -/
abbrev W15 : Dev nD → Valuation τ sig (Elt F) := fun c => StableHlo.after hostOps1_12 (W14 m c)
theorem W15_of (c : Dev nD) (r : Ref sig .tc) (h : r ∉ hostOps1_12_W) : W15 m c r = W14 m c r :=
  StableHlo.after_of_writes_sub hostOps1_12 _ hostOps1_12_writes h
/-- After the host stretch `hostOps1_13`. -/
abbrev W16 : Dev nD → Valuation τ sig (Elt F) := fun c => StableHlo.after hostOps1_13 (W15 m c)
theorem W16_of (c : Dev nD) (r : Ref sig .tc) (h : r ∉ hostOps1_13_W) : W16 m c r = W15 m c r :=
  StableHlo.after_of_writes_sub hostOps1_13 _ hostOps1_13_writes h
/-- After the host stretch `hostOps1_14`. -/
abbrev W17 : Dev nD → Valuation τ sig (Elt F) := fun c => StableHlo.after hostOps1_14 (W16 m c)
theorem W17_of (c : Dev nD) (r : Ref sig .tc) (h : r ∉ hostOps1_14_W) : W17 m c r = W16 m c r :=
  StableHlo.after_of_writes_sub hostOps1_14 _ hostOps1_14_writes h
/-- After the host stretch `hostOps1_15`. -/
abbrev W18 : Dev nD → Valuation τ sig (Elt F) := fun c => StableHlo.after hostOps1_15 (W17 m c)
theorem W18_of (c : Dev nD) (r : Ref sig .tc) (h : r ∉ hostOps1_15_W) : W18 m c r = W17 m c r :=
  StableHlo.after_of_writes_sub hostOps1_15 _ hostOps1_15_writes h
abbrev V18 : (c : Dev nD) → (b : Ref sig .tc) → Buf (Elt F) ((c : Thread nD τ).loc b) := fun c b => W18 m c b
/-- At the second kernel's exit. -/
def W19 (c : Dev nD) : Valuation τ sig (Elt F) :=
  Pipeline.withArrays spec1 c (W18 m c) fun w => (dat1 (V18 m) c).arrAt w cfg1.N
theorem W19_arr (c : Dev nD) (w : Fin cfg1.W) :
    W19 m c (Proc.devRef .tc (Pipeline.arrRef spec1 w)) = (dat1 (V18 m) c).arrAt w cfg1.N := by
  unfold W19; exact Pipeline.withArrays_arr spec1 launch1.win.arr_inj c _ _ w
theorem W19_of_ne (c : Dev nD) (b : Ref sig .tc) (hb : ∀ w, Pipeline.arrRef spec1 w ≠ b) :
    W19 m c (Proc.devRef .tc b) = W18 m c (Proc.devRef .tc b) := by
  unfold W19; exact Pipeline.withArrays_of_ne spec1 c _ _ b hb
abbrev V19 : (c : Dev nD) → (b : Ref sig .tc) → Buf (Elt F) ((c : Thread nD τ).loc b) := fun c b => W19 m c b
theorem hF1 (c : Dev nD) (w : Fin cfg1.W) : (dat1 (V18 m) c).arrAt w cfg1.N = V19 m c (Pipeline.arrRef spec1 w) :=
  (W19_arr m c w).symm
theorem hrest1 (c : Dev nD) : ∀ b, b ∉ Finset.univ.image (Pipeline.arrRef spec1) → V19 m c b = V18 m c b :=
  fun b hb => W19_of_ne m c b fun w e => hb (Finset.mem_image.mpr ⟨w, Finset.mem_univ _, e⟩)
theorem W1_of (c : Dev nD) (r : Ref sig .tc) (h : r ∉ hostOps0_W) : W1 m c r = W0 m c r :=
  StableHlo.after_of_writes_sub hostOps0 _ hostOps0_writes h

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V18 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W19 m c) ∗ ∃ r, prngReg c r)

/-! ## The regions as segments -/

set_option backward.isDefEq.respectTransparency.types false in
/-- The first kernel's region over the thread state: entered from every unscoped buffer at `W1`, left at `W2`.  Its
    arrays are split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region over the thread state: entered from every unscoped buffer at `W18`, left at `W19`.  Its
    arrays are split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V18 m) c).loose
  hwaits := Pipeline.hwaits_of_owed_zero _ _ _ _ L lv 1 fun _ _ => rfl
  pre c := iprop(StableHlo.held (c : Thread nD τ) (Pipeline.ucRefs τ sig) (W18 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V18 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V18 m c) (V19 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .host (hseg hostOps1_7 hostOps1_7_sub hostOps1_7_fresh (W9 m)),
    .host (hseg hostOps1_8 hostOps1_8_sub hostOps1_8_fresh (W10 m)),
    .host (hseg hostOps1_9 hostOps1_9_sub hostOps1_9_fresh (W11 m)),
    .host (hseg hostOps1_10 hostOps1_10_sub hostOps1_10_fresh (W12 m)),
    .host (hseg hostOps1_11 hostOps1_11_sub hostOps1_11_fresh (W13 m)),
    .host (hseg hostOps1_12 hostOps1_12_sub hostOps1_12_fresh (W14 m)),
    .host (hseg hostOps1_13 hostOps1_13_sub hostOps1_13_fresh (W15 m)),
    .host (hseg hostOps1_14 hostOps1_14_sub hostOps1_14_fresh (W16 m)),
    .host (hseg hostOps1_15 hostOps1_15_sub hostOps1_15_fresh (W17 m)),
    .region (reg1 m) ]

theorem main_run (c : Dev nD) : main (F := F) c = Pipeline.Seg.run (segs m) := (main_chain c).trans (by chain_rfl)

set_option backward.isDefEq.respectTransparency.types false in
set_option maxHeartbeats 4000000 in
/-- At the compiled mesh, from any memory with zero counters: every weakly fair execution of @main terminates, nothing
    faulting, and every final state holds every unscoped buffer at the last boundary's contents `W19`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h c => h c)

/-! ## The arguments end as launched -/

theorem W19_main_arg0 (c : Dev nD) : W19 m c (Proc.devRef .tc main_arg0) = m ((c : Thread nD τ).loc main_arg0) :=
  (W19_of_ne m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| ((W2_arr m c 4).trans (((dat0 (V1 m) c).arrAt_in 4 rfl _).trans (A_eq0 (V1 m) c 4))).trans <| (W1_of m c main_arg0 (by decide)).trans rfl
theorem W19_main_arg1 (c : Dev nD) : W19 m c (Proc.devRef .tc main_arg1) = m ((c : Thread nD τ).loc main_arg1) :=
  (W19_of_ne m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| ((W2_arr m c 5).trans (((dat0 (V1 m) c).arrAt_in 5 rfl _).trans (A_eq0 (V1 m) c 5))).trans <| (W1_of m c main_arg1 (by decide)).trans rfl
theorem W19_main_arg2 (c : Dev nD) : W19 m c (Proc.devRef .tc main_arg2) = m ((c : Thread nD τ).loc main_arg2) :=
  (W19_of_ne m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| ((W2_arr m c 1).trans (((dat0 (V1 m) c).arrAt_in 1 rfl _).trans (A_eq0 (V1 m) c 1))).trans <| (W1_of m c main_arg2 (by decide)).trans rfl
theorem W19_main_arg3 (c : Dev nD) : W19 m c (Proc.devRef .tc main_arg3) = m ((c : Thread nD τ).loc main_arg3) :=
  (W19_of_ne m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| ((W2_arr m c 2).trans (((dat0 (V1 m) c).arrAt_in 2 rfl _).trans (A_eq0 (V1 m) c 2))).trans <| (W1_of m c main_arg3 (by decide)).trans rfl
theorem W19_main_arg4 (c : Dev nD) : W19 m c (Proc.devRef .tc main_arg4) = m ((c : Thread nD τ).loc main_arg4) :=
  (W19_of_ne m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| ((W2_arr m c 0).trans (((dat0 (V1 m) c).arrAt_in 0 rfl _).trans (A_eq0 (V1 m) c 0))).trans <| (W1_of m c main_arg4 (by decide)).trans rfl
theorem W19_main_arg5 (c : Dev nD) : W19 m c (Proc.devRef .tc main_arg5) = m ((c : Thread nD τ).loc main_arg5) :=
  (W19_of_ne m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of_ne m c main_arg5 (by decide)).trans <| (W1_of m c main_arg5 (by decide)).trans rfl
theorem W19_main_arg6 (c : Dev nD) : W19 m c (Proc.devRef .tc main_arg6) = m ((c : Thread nD τ).loc main_arg6) :=
  (W19_of_ne m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of_ne m c main_arg6 (by decide)).trans <| (W1_of m c main_arg6 (by decide)).trans rfl

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W19_main_arg0 m c),
      (h c _ (mem_uc main_arg1 (by decide))).trans (W19_main_arg1 m c),
      (h c _ (mem_uc main_arg2 (by decide))).trans (W19_main_arg2 m c),
      (h c _ (mem_uc main_arg3 (by decide))).trans (W19_main_arg3 m c),
      (h c _ (mem_uc main_arg4 (by decide))).trans (W19_main_arg4 m c),
      (h c _ (mem_uc main_arg5 (by decide))).trans (W19_main_arg5 m c),
      (h c _ (mem_uc main_arg6 (by decide))).trans (W19_main_arg6 m c)⟩) (run_all m ρ)

end Cert.KernelIdeal.Hand

end
-- ==== Proof.Relax.lean ====
/-
  The leaky-rectifier relaxation applied to one pair of pre-activation bounds, one scalar at a time, and the four
  result arrays it fills.

  For a neuron with pre-activation bounds `lb ≤ ub`, negative slope `ns = 0.01` (its single-precision word) and a mixing
  weight `α = 1 / (1 + exp (−a))`:
  * below zero (`ub ≤ 0`) both relaxation slopes are `ns`; above zero (`0 ≤ lb`) both are `1`;
  * crossing zero (neither), the upper line is the chord: slope `(ub − lb·ns) / (ub − lb)` (replaced by `0` where the
    quotient compares unequal to itself) and intercept `(1 − slope)·ub`; the lower slope mixes `1` and `ns` by `α`.
  The results are the diagonal matrices of the lower and upper slopes, a zero row, and the row of upper intercepts.

  Everything is stated through the float operations of an arbitrary instance, in the order the operations are applied,
  so that a program's element-by-element reading unfolds to these terms.
-/
import Idealize.ShloMosaic.PureOps.Vector
import Idealize.ShloMosaic.Lib.ValueIdx

noncomputable section

namespace DeepPoly.Relax

open Idealize.ShloMosaic Idealize.ShloMosaic.ValueIdx

variable {F : FTy → Type} [FloatOps F]

/-- The word of `1.0`. -/
def one : F .f32 := FloatOps.ofBits .f32 0x3F800000#32
/-- The word of `0.0`. -/
def zero : F .f32 := FloatOps.ofBits .f32 0x00000000#32
/-- The negative slope: the single-precision word nearest `0.01`. -/
def ns : F .f32 := FloatOps.ofBits .f32 0x3C23D70A#32
/-- `ns · 1`, as both programs form it. -/
def nsOne : F .f32 := FloatOps.mulf (ns (F := F)) one

/-- The mixing weight `1 / (1 + exp (−a))`. -/
def alpha (a : F .f32) : F .f32 :=
  FloatOps.hostDivf one (FloatOps.addf one (FloatOps.hostUnary .exp (FloatOps.hostNegf a)))

/-- The chord's slope before the guard: `(ub − lb·ns) / (ub − lb)`. -/
def chord (lb ub : F .f32) : F .f32 :=
  FloatOps.hostDivf (FloatOps.subf ub (FloatOps.mulf lb ns)) (FloatOps.subf ub lb)
/-- The chord's slope, `0` where the quotient is unequal to itself. -/
def slope (lb ub : F .f32) : F .f32 :=
  Scalar.select (FloatOps.cmpf .une (chord lb ub) (chord lb ub)) zero (chord lb ub)
/-- The chord's intercept `(1 − slope)·ub`. -/
def intercept (lb ub : F .f32) : F .f32 := FloatOps.mulf (FloatOps.subf one (slope lb ub)) ub

/-- `ub ≤ 0`. -/
def below (ub : F .f32) : BitVec 1 := FloatOps.cmpf .ole ub zero
/-- `0 ≤ lb`. -/
def above (lb : F .f32) : BitVec 1 := FloatOps.cmpf .oge lb zero
/-- Neither below nor above. -/
def crossing (lb ub : F .f32) : BitVec 1 := ~~~(IntOp.ori (below ub) (above lb))

/-- The slope of a neuron that does not cross zero: `1` above, `ns` below, `1` otherwise. -/
def steady (lb ub : F .f32) : F .f32 :=
  Scalar.select (above lb) one (Scalar.select (below ub) nsOne one)

/-- The upper relaxation's slope. -/
def uslope (lb ub : F .f32) : F .f32 := Scalar.select (crossing lb ub) (slope lb ub) (steady lb ub)
/-- The upper relaxation's intercept. -/
def uintercept (lb ub : F .f32) : F .f32 := Scalar.select (crossing lb ub) (intercept lb ub) zero
/-- The lower relaxation's slope: `α·v1 + (1 − α)·v2` with `v1 = 1`, `v2 = ns` where the neuron crosses zero. -/
def lslope (lb ub a : F .f32) : F .f32 :=
  FloatOps.addf
    (FloatOps.mulf (alpha a) (Scalar.select (crossing lb ub) one (steady lb ub)))
    (FloatOps.mulf (FloatOps.subf one (alpha a)) (Scalar.select (crossing lb ub) nsOne (steady lb ub)))

/-! ## The arrays -/

/-- A row `[1, 4096]` as a function of its free coordinate. -/
def row (x : FVec F ⟨2, ![1, 4096]⟩ .f32) : Fin 4096 → F .f32 := fun q => x (ix2 0 q)
/-- A matrix `[4096, 4096]` as a function of its two coordinates. -/
def mat (x : FVec F ⟨2, ![4096, 4096]⟩ .f32) : Fin 4096 → Fin 4096 → F .f32 := fun a b => x (ix2 a b)
/-- A vector `[4096]` as a function of its coordinate. -/
def vec (x : FVec F ⟨1, ![4096]⟩ .f32) : Fin 4096 → F .f32 := fun q => x (ix1 q)

/-- The diagonal matrix of a vector: `v a` at `(a, a)`, zero elsewhere. -/
def diag (v : Fin 4096 → F .f32) : FVec F ⟨2, ![4096, 4096]⟩ .f32 :=
  fun i => if (i 0).val = (i 1).val then v (i 0) else zero

theorem diag_ix2 (v : Fin 4096 → F .f32) (a b : Fin 4096) :
    diag v (ix2 a b) = if a.val = b.val then v a else zero := rfl

/-- First result: the diagonal matrix of lower slopes. -/
def outDiagL (low upp a : Fin 4096 → F .f32) : FVec F ⟨2, ![4096, 4096]⟩ .f32 :=
  diag fun r => lslope (low r) (upp r) (a r)
/-- Second result: the zero row of lower intercepts. -/
def outLint : FVec F ⟨2, ![1, 4096]⟩ .f32 := fun _ => zero
/-- Third result: the diagonal matrix of upper slopes. -/
def outDiagU (low upp : Fin 4096 → F .f32) : FVec F ⟨2, ![4096, 4096]⟩ .f32 :=
  diag fun r => uslope (low r) (upp r)
/-- Fourth result: the row of upper intercepts. -/
def outUint (low upp : Fin 4096 → F .f32) : FVec F ⟨2, ![1, 4096]⟩ .f32 :=
  fun i => uintercept (low (i 1)) (upp (i 1))

end DeepPoly.Relax

end
-- ==== Proof.KI.TailValue.lean ====
/-
  The host operations between the two kernels, read as values at the exact instance.

  After the first kernel has left the lower and upper pre-activation bounds as two columns of 4096 rows, @main
  computes, one vector operation at a time, the leaky-rectifier relaxation of every neuron: the mixing weight from
  the seventh argument, the chord's slope with its guard and its intercept, the two sign conditions and their
  combination, and from these by selections the lower slope, the upper slope and the upper intercept; it then
  lays the two slopes out as columns (the second kernel's operands), the intercept as a row, and a zero row.
  Every operation acts entry by entry, and the changes of shape between a column, a vector and a row of 4096 entries
  keep the row-major position, so entry `j` of each result is the scalar relaxation applied to entry `j` of the
  bounds.  The operations write only their own results, so the bounds and the arguments are left as they were.
-/
import proofs.«165992_j40183714021526_2_alg».proof.Proof.Gen.KernelIdeal.Launch
import proofs.«165992_j40183714021526_2_alg».proof.Proof.Gen.KernelIdeal.Regions
import proofs.«165992_j40183714021526_2_alg».proof.Proof.Relax
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.ValueIdx
open Idealize.ShloMosaic.StableHlo

/-- The buffers after the sixteen stretches of host operations that follow the first kernel, in order, from the
    buffers `Wx` the first kernel leaves. -/
abbrev tailW (Wx : Valuation τ sig (Elt Ideal)) : Valuation τ sig (Elt Ideal) :=
  StableHlo.after hostOps1_15 (StableHlo.after hostOps1_14 (StableHlo.after hostOps1_13 (StableHlo.after hostOps1_12
    (StableHlo.after hostOps1_11 (StableHlo.after hostOps1_10 (StableHlo.after hostOps1_9 (StableHlo.after hostOps1_8
      (StableHlo.after hostOps1_7 (StableHlo.after hostOps1_6 (StableHlo.after hostOps1_5 (StableHlo.after hostOps1_4
        (StableHlo.after hostOps1_3 (StableHlo.after hostOps1_2 (StableHlo.after hostOps1_1 (StableHlo.after hostOps1 Wx)))))))))))))))

variable (Wx : Valuation τ sig (Elt Ideal))

/-- Neuron `j`'s lower pre-activation bound: entry `j` of the first kernel's first result. -/
abbrev lbOf (j : Fin 4096) : Ideal .f32 := (Wx (Proc.devRef .tc main_v1_0) : S4096x1.Idx → Ideal .f32) (ix2 j 0)
/-- Neuron `j`'s upper pre-activation bound: entry `j` of the first kernel's second result. -/
abbrev ubOf (j : Fin 4096) : Ideal .f32 := (Wx (Proc.devRef .tc main_v1_1) : S4096x1.Idx → Ideal .f32) (ix2 j 0)
/-- Neuron `j`'s mixing parameter: entry `j` of the seventh argument. -/
abbrev aOf (j : Fin 4096) : Ideal .f32 := (Wx (Proc.devRef .tc main_arg6) : S4096.Idx → Ideal .f32) (ix1 j)

/-! ## Row-major positions of the three layouts of 4096 entries -/

/-- Entry `j` of a vector and entry `(j, 0)` of a column are at the same row-major position. -/
theorem rm_col (j : Fin 4096) : (S4096.rowMajor (ix1 j)).val = (S4096x1.rowMajor (ix2 j 0)).val := by
  rw [Shape.rowMajor_val_one, Shape.rowMajor_val_two]; show j.val = j.val * 1 + 0; omega

/-- Entry `j` of a vector and entry `(0, j)` of a row are at the same row-major position. -/
theorem rm_row (j : Fin 4096) : (S4096.rowMajor (ix1 j)).val = (S1x4096.rowMajor (ix2 0 j)).val := by
  rw [Shape.rowMajor_val_one, Shape.rowMajor_val_two]; show j.val = 0 * 4096 + j.val; omega

/-- The lower bound read through the change of shape from a column to a vector. -/
theorem lbOf_eq (j : Fin 4096) :
    lbOf Wx j = shapeCast S4096 (Wx (Proc.devRef .tc main_v1_0) : S4096x1.Idx → Ideal .f32) shapeCasts_S4096x1_S4096 (ix1 j) :=
  (shapeCast_apply _ _ (ix1 j) (ix2 j 0) (rm_col j).symm).symm

/-- The upper bound read through the change of shape from a column to a vector. -/
theorem ubOf_eq (j : Fin 4096) :
    ubOf Wx j = shapeCast S4096 (Wx (Proc.devRef .tc main_v1_1) : S4096x1.Idx → Ideal .f32) shapeCasts_S4096x1_S4096 (ix1 j) :=
  (shapeCast_apply _ _ (ix1 j) (ix2 j 0) (rm_col j).symm).symm

/-! ## The four results, entry by entry -/

/-- `%51`, the column of upper slopes (the second kernel's second operand). -/
theorem tail_v51 (j : Fin 4096) :
    (tailW Wx (Proc.devRef .tc main_v51) : S4096x1.Idx → Ideal .f32) (ix2 j 0)
      = DeepPoly.Relax.uslope (lbOf Wx j) (ubOf Wx j) := by
  rw [lbOf_eq, ubOf_eq]
  simp only [tailW, hostOps1, hostOps1_1, hostOps1_2, hostOps1_3, hostOps1_4, hostOps1_5, hostOps1_6, hostOps1_7, hostOps1_8,
    hostOps1_9, hostOps1_10, hostOps1_11, hostOps1_12, hostOps1_13, hostOps1_14, hostOps1_15]
  after_results_simp
  show shapeCast S4096x1 _ shapeCasts_S4096_S4096x1 (ix2 j 0) = _
  rw [shapeCast_apply _ _ (ix2 j 0) (ix1 j) (rm_col j)]
  rfl

/-- `%50`, the column of lower slopes (the second kernel's first operand). -/
theorem tail_v50 (j : Fin 4096) :
    (tailW Wx (Proc.devRef .tc main_v50) : S4096x1.Idx → Ideal .f32) (ix2 j 0)
      = DeepPoly.Relax.lslope (lbOf Wx j) (ubOf Wx j) (aOf Wx j) := by
  rw [lbOf_eq, ubOf_eq]
  simp only [tailW, hostOps1, hostOps1_1, hostOps1_2, hostOps1_3, hostOps1_4, hostOps1_5, hostOps1_6, hostOps1_7, hostOps1_8,
    hostOps1_9, hostOps1_10, hostOps1_11, hostOps1_12, hostOps1_13, hostOps1_14, hostOps1_15]
  after_results_simp
  show shapeCast S4096x1 _ shapeCasts_S4096_S4096x1 (ix2 j 0) = _
  rw [shapeCast_apply _ _ (ix2 j 0) (ix1 j) (rm_col j)]
  rfl

/-- `%49`, the row of upper intercepts. -/
theorem tail_v49 (j : Fin 4096) :
    (tailW Wx (Proc.devRef .tc main_v49) : S1x4096.Idx → Ideal .f32) (ix2 0 j)
      = DeepPoly.Relax.uintercept (lbOf Wx j) (ubOf Wx j) := by
  rw [lbOf_eq, ubOf_eq]
  simp only [tailW, hostOps1, hostOps1_1, hostOps1_2, hostOps1_3, hostOps1_4, hostOps1_5, hostOps1_6, hostOps1_7, hostOps1_8,
    hostOps1_9, hostOps1_10, hostOps1_11, hostOps1_12, hostOps1_13, hostOps1_14, hostOps1_15]
  after_results_simp
  show shapeCast S1x4096 _ shapeCasts_S4096_S1x4096 (ix2 0 j) = _
  rw [shapeCast_apply _ _ (ix2 0 j) (ix1 j) (rm_row j)]
  rfl

/-- `%48`, the zero row. -/
theorem tail_v48 (j : Fin 4096) :
    (tailW Wx (Proc.devRef .tc main_v48) : S1x4096.Idx → Ideal .f32) (ix2 0 j) = (DeepPoly.Relax.zero (F := Ideal) : Ideal .f32) := by
  simp only [tailW, hostOps1, hostOps1_1, hostOps1_2, hostOps1_3, hostOps1_4, hostOps1_5, hostOps1_6, hostOps1_7, hostOps1_8,
    hostOps1_9, hostOps1_10, hostOps1_11, hostOps1_12, hostOps1_13, hostOps1_14, hostOps1_15]
  after_results_simp
  rfl

/-! ## What the stretches leave alone -/

/-- A reference none of the sixteen stretches writes keeps its contents. -/
theorem tailW_keep (r : Ref sig .tc) (h0 : r ∉ hostOps1_W) (h1 : r ∉ hostOps1_1_W) (h2 : r ∉ hostOps1_2_W) (h3 : r ∉ hostOps1_3_W) (h4 : r ∉ hostOps1_4_W) (h5 : r ∉ hostOps1_5_W) (h6 : r ∉ hostOps1_6_W) (h7 : r ∉ hostOps1_7_W) (h8 : r ∉ hostOps1_8_W) (h9 : r ∉ hostOps1_9_W) (h10 : r ∉ hostOps1_10_W) (h11 : r ∉ hostOps1_11_W) (h12 : r ∉ hostOps1_12_W) (h13 : r ∉ hostOps1_13_W) (h14 : r ∉ hostOps1_14_W) (h15 : r ∉ hostOps1_15_W) :
    tailW Wx (Proc.devRef .tc r) = Wx (Proc.devRef .tc r) := by
  show StableHlo.after hostOps1_15 _ (Proc.devRef .tc r) = _
  rw [after_of_writes_sub hostOps1_15 _ hostOps1_15_writes h15,
    after_of_writes_sub hostOps1_14 _ hostOps1_14_writes h14,
    after_of_writes_sub hostOps1_13 _ hostOps1_13_writes h13,
    after_of_writes_sub hostOps1_12 _ hostOps1_12_writes h12,
    after_of_writes_sub hostOps1_11 _ hostOps1_11_writes h11,
    after_of_writes_sub hostOps1_10 _ hostOps1_10_writes h10,
    after_of_writes_sub hostOps1_9 _ hostOps1_9_writes h9,
    after_of_writes_sub hostOps1_8 _ hostOps1_8_writes h8,
    after_of_writes_sub hostOps1_7 _ hostOps1_7_writes h7,
    after_of_writes_sub hostOps1_6 _ hostOps1_6_writes h6,
    after_of_writes_sub hostOps1_5 _ hostOps1_5_writes h5,
    after_of_writes_sub hostOps1_4 _ hostOps1_4_writes h4,
    after_of_writes_sub hostOps1_3 _ hostOps1_3_writes h3,
    after_of_writes_sub hostOps1_2 _ hostOps1_2_writes h2,
    after_of_writes_sub hostOps1_1 _ hostOps1_1_writes h1,
    after_of_writes_sub hostOps1 _ hostOps1_writes h0]

theorem tailW_main_v1_0 : tailW Wx (Proc.devRef .tc main_v1_0) = Wx (Proc.devRef .tc main_v1_0) :=
  tailW_keep Wx main_v1_0 (by decide) (by decide) (by decide) (by decide) (by decide) (by decide) (by decide) (by decide) (by decide) (by decide) (by decide) (by decide) (by decide) (by decide) (by decide) (by decide)
theorem tailW_main_v1_1 : tailW Wx (Proc.devRef .tc main_v1_1) = Wx (Proc.devRef .tc main_v1_1) :=
  tailW_keep Wx main_v1_1 (by decide) (by decide) (by decide) (by decide) (by decide) (by decide) (by decide) (by decide) (by decide) (by decide) (by decide) (by decide) (by decide) (by decide) (by decide) (by decide)
theorem tailW_main_arg0 : tailW Wx (Proc.devRef .tc main_arg0) = Wx (Proc.devRef .tc main_arg0) :=
  tailW_keep Wx main_arg0 (by decide) (by decide) (by decide) (by decide) (by decide) (by decide) (by decide) (by decide) (by decide) (by decide) (by decide) (by decide) (by decide) (by decide) (by decide) (by decide)
theorem tailW_main_arg1 : tailW Wx (Proc.devRef .tc main_arg1) = Wx (Proc.devRef .tc main_arg1) :=
  tailW_keep Wx main_arg1 (by decide) (by decide) (by decide) (by decide) (by decide) (by decide) (by decide) (by decide) (by decide) (by decide) (by decide) (by decide) (by decide) (by decide) (by decide) (by decide)
theorem tailW_main_arg2 : tailW Wx (Proc.devRef .tc main_arg2) = Wx (Proc.devRef .tc main_arg2) :=
  tailW_keep Wx main_arg2 (by decide) (by decide) (by decide) (by decide) (by decide) (by decide) (by decide) (by decide) (by decide) (by decide) (by decide) (by decide) (by decide) (by decide) (by decide) (by decide)
theorem tailW_main_arg3 : tailW Wx (Proc.devRef .tc main_arg3) = Wx (Proc.devRef .tc main_arg3) :=
  tailW_keep Wx main_arg3 (by decide) (by decide) (by decide) (by decide) (by decide) (by decide) (by decide) (by decide) (by decide) (by decide) (by decide) (by decide) (by decide) (by decide) (by decide) (by decide)
theorem tailW_main_arg4 : tailW Wx (Proc.devRef .tc main_arg4) = Wx (Proc.devRef .tc main_arg4) :=
  tailW_keep Wx main_arg4 (by decide) (by decide) (by decide) (by decide) (by decide) (by decide) (by decide) (by decide) (by decide) (by decide) (by decide) (by decide) (by decide) (by decide) (by decide) (by decide)
theorem tailW_main_arg5 : tailW Wx (Proc.devRef .tc main_arg5) = Wx (Proc.devRef .tc main_arg5) :=
  tailW_keep Wx main_arg5 (by decide) (by decide) (by decide) (by decide) (by decide) (by decide) (by decide) (by decide) (by decide) (by decide) (by decide) (by decide) (by decide) (by decide) (by decide) (by decide)
theorem tailW_main_arg6 : tailW Wx (Proc.devRef .tc main_arg6) = Wx (Proc.devRef .tc main_arg6) :=
  tailW_keep Wx main_arg6 (by decide) (by decide) (by decide) (by decide) (by decide) (by decide) (by decide) (by decide) (by decide) (by decide) (by decide) (by decide) (by decide) (by decide) (by decide) (by decide)

end Cert.KernelIdeal.Hand

end
-- ==== Proof.Bounds.lean ====
/-
  The interval bounds of a two-layer affine map, as the two programs arrange them, on the extended reals.

  Inputs: an input box `lb0 ≤ x ≤ ub0` (vectors over `Q`), a first layer `W1 : K → Q`, `b1 : K`, and a second
  layer `W2 : I → K`, `b2 : I`.  The composed map has slope `S = W2 · W1` and intercept `c = W2 · b1 + b2`;
  the lower bound of row `r` over the box takes `lb0` where `S r q` is positive and `ub0` where it is negative,
  the upper bound the other way round.

  One arrangement (`lowK`, `uppK`) forms `S` once and removes the negative part algebraically:
  `∑ S·ub0 − ∑ max(S,0)·(ub0 − lb0) + c`.  The other (`lowR`, `uppR`) splits every matrix into its positive and
  negative parts `pos x = if 0 < x then x else 0`, `neg x = if x < 0 then x else 0` before each product.
-/
import Mathlib.Data.EReal.Basic
import Mathlib.Data.EReal.Operations
import Mathlib.Data.EReal.Inv
import Mathlib.Algebra.BigOperators.Group.Finset.Basic

noncomputable section

namespace DeepPoly

open scoped BigOperators

/-- The positive part, as a selection. -/
def pos (x : EReal) : EReal := if 0 < x then x else 0
/-- The negative part, as a selection. -/
def neg (x : EReal) : EReal := if x < 0 then x else 0

variable {I K Q : Type} [Fintype K] [Fintype Q]
variable (lb0 ub0 : Q → EReal) (W1 : K → Q → EReal) (b1 : K → EReal) (W2 : I → K → EReal) (b2 : I → EReal)

/-- The composed slope, formed once. -/
def prodK (r : I) (q : Q) : EReal := ∑ k, W2 r k * W1 k q
/-- The composed intercept, formed once. -/
def biasK (r : I) : EReal := (∑ k, W2 r k * b1 k) + b2 r
/-- Lower bound: `∑ S·ub0 − ∑ max(S,0)·(ub0 − lb0) + c`. -/
def lowK (r : I) : EReal :=
  ((∑ q, prodK W1 W2 r q * ub0 q) - (∑ q, max (prodK W1 W2 r q) 0 * (ub0 q - lb0 q))) + biasK b1 W2 b2 r
/-- Upper bound: `∑ S·lb0 + ∑ max(S,0)·(ub0 − lb0) + c`. -/
def uppK (r : I) : EReal :=
  ((∑ q, prodK W1 W2 r q * lb0 q) + (∑ q, max (prodK W1 W2 r q) 0 * (ub0 q - lb0 q))) + biasK b1 W2 b2 r

/-- The composed slope from the second layer's positive and negative parts. -/
def prodR (r : I) (q : Q) : EReal := (∑ k, pos (W2 r k) * W1 k q) + (∑ k, neg (W2 r k) * W1 k q)
/-- The composed intercept from the second layer's positive and negative parts. -/
def biasR (r : I) : EReal := ((∑ k, b1 k * pos (W2 r k)) + (∑ k, b1 k * neg (W2 r k))) + b2 r
/-- Lower bound: `lb0` against the slope's positive part, `ub0` against its negative part. -/
def lowR (r : I) : EReal :=
  ((∑ q, lb0 q * pos (prodR W1 W2 r q)) + (∑ q, ub0 q * neg (prodR W1 W2 r q))) + biasR b1 W2 b2 r
/-- Upper bound: `ub0` against the slope's positive part, `lb0` against its negative part. -/
def uppR (r : I) : EReal :=
  ((∑ q, ub0 q * pos (prodR W1 W2 r q)) + (∑ q, lb0 q * neg (prodR W1 W2 r q))) + biasR b1 W2 b2 r

end DeepPoly

end
-- ==== Proof.Results.lean ====
/-
  The four result arrays as functions of the seven argument arrays, at the exact extended reals, in the two
  arrangements of the bounds (Bounds.lean) followed by the relaxation (Relax.lean).

  The arguments, in order: the input box's lower and upper rows `lb0`, `ub0` `[1, 4096]`; the first layer's matrix `W1`
  `[4096, 4096]` and bias row `b1`; the second layer's matrix `W2` and bias row `b2`; the raw mixing weights `[4096]`.
-/
import proofs.«165992_j40183714021526_2_alg».proof.Proof.Bounds
import proofs.«165992_j40183714021526_2_alg».proof.Proof.Relax
import Idealize.ShloMosaic.PureOps.Ideal

noncomputable section

namespace DeepPoly

open Idealize.ShloMosaic DeepPoly.Relax

section
variable (a0 a1 : FVec Ideal ⟨2, ![1, 4096]⟩ .f32) (a2 : FVec Ideal ⟨2, ![4096, 4096]⟩ .f32)
  (a3 : FVec Ideal ⟨2, ![1, 4096]⟩ .f32) (a4 : FVec Ideal ⟨2, ![4096, 4096]⟩ .f32) (a5 : FVec Ideal ⟨2, ![1, 4096]⟩ .f32)

/-- Pre-activation lower bounds, the slope formed once. -/
def lowKof : Fin 4096 → Ideal .f32 := lowK (row a0) (row a1) (mat a2) (row a3) (mat a4) (row a5)
/-- Pre-activation upper bounds, the slope formed once. -/
def uppKof : Fin 4096 → Ideal .f32 := uppK (row a0) (row a1) (mat a2) (row a3) (mat a4) (row a5)
/-- Pre-activation lower bounds, every matrix split into positive and negative parts. -/
def lowRof : Fin 4096 → Ideal .f32 := lowR (row a0) (row a1) (mat a2) (row a3) (mat a4) (row a5)
/-- Pre-activation upper bounds, every matrix split into positive and negative parts. -/
def uppRof : Fin 4096 → Ideal .f32 := uppR (row a0) (row a1) (mat a2) (row a3) (mat a4) (row a5)
end

end DeepPoly

end
-- ==== Proof.KI.KernelSpec.lean ====
/-
  The kernel program's four results at the exact extended reals, from what its two kernels leave.

  The first kernel leaves the lower and upper pre-activation bounds as two columns; the host operations after it
  apply the leaky-rectifier relaxation entry by entry and lay the two slopes out as columns, the upper intercepts as a
  row, beside a zero row; the second kernel writes each slope column along the diagonal of a square matrix that is zero
  elsewhere. So, given the two columns of bounds and the two diagonals, the four results are the relaxation's four
  arrays of those bounds and of the raw mixing weights, and no argument array is written.
-/
import proofs.«165992_j40183714021526_2_alg».proof.Proof.KI.Segs
import proofs.«165992_j40183714021526_2_alg».proof.Proof.KI.TailValue
import proofs.«165992_j40183714021526_2_alg».proof.Proof.Relax
import proofs.«165992_j40183714021526_2_alg».proof.Proof.Results

noncomputable section

namespace Cert.KernelIdeal.Hand

open Cert.KernelIdeal Cert.KernelIdeal.Gen
open Idealize.ShloMosaic Idealize.ShloMosaic.TcCoe Idealize.ShloMosaic.ValueIdx Idealize.SL.Sem
open DeepPoly

variable (m : (ℓ : Loc nD τ sig) → Buf (Elt Ideal) ℓ)

/-! ## The relaxation's inputs after the first kernel -/

/-- The lower bound the host operations read is the first kernel's first column. -/
theorem lbOf_low (hlow : ∀ c : Dev nD, (dat0 (V1 m) c).arrAt 6 cfg0.N = fun i : S4096x1.Idx => lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) (c : Dev nD) (j : Fin 4096) :
    lbOf (W2 m c) j = lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j :=
  (congrFun (W2_arr m c 6) (ix2 j 0)).trans (congrFun (hlow c) (ix2 j 0))

/-- The upper bound the host operations read is the first kernel's second column. -/
theorem ubOf_upp (hupp : ∀ c : Dev nD, (dat0 (V1 m) c).arrAt 7 cfg0.N = fun i : S4096x1.Idx => uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) (c : Dev nD) (j : Fin 4096) :
    ubOf (W2 m c) j = uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j :=
  (congrFun (W2_arr m c 7) (ix2 j 0)).trans (congrFun (hupp c) (ix2 j 0))

/-- The raw mixing weight the host operations read is the seventh argument's entry. -/
theorem aOf_arg (c : Dev nD) (j : Fin 4096) : aOf (W2 m c) j = Relax.vec (m ((c : Thread nD τ).loc main_arg6)) j :=
  congrFun ((W2_of_ne m c main_arg6 (by decide)).trans (W1_of m c main_arg6 (by decide))) (ix1 j)

/-! ## The four results -/

/-- The first result: the diagonal matrix of lower slopes. -/
theorem v52_0_eq (hlow : ∀ c : Dev nD, (dat0 (V1 m) c).arrAt 6 cfg0.N = fun i : S4096x1.Idx => lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) (hupp : ∀ c : Dev nD, (dat0 (V1 m) c).arrAt 7 cfg0.N = fun i : S4096x1.Idx => uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0))
    (hd2 : ∀ c : Dev nD, (dat1 (V18 m) c).arrAt 2 cfg1.N = fun i : S4096x4096.Idx => if (i 0).val = (i 1).val then (V18 m c main_v50 : S4096x1.Idx → Ideal .f32) (ix2 (i 0) 0) else (FloatOps.ofBits (F := Ideal) .f32 0x00000000#32 : Ideal .f32)) (c : Dev nD) :
    W19 m c (Proc.devRef .tc main_v52_0) = Relax.outDiagL (lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Relax.vec (m ((c : Thread nD τ).loc main_arg6))) := by
  refine (W19_arr m c 2).trans ((hd2 c).trans ?_)
  funext i
  obtain ⟨a, b, rfl⟩ : ∃ (a b : Fin 4096), i = ix2 a b := ⟨i 0, i 1, eq_ix2 i⟩
  have hj : (V18 m c main_v50 : S4096x1.Idx → Ideal .f32) (ix2 a 0)
      = Relax.lslope (lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) a) (uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) a) (Relax.vec (m ((c : Thread nD τ).loc main_arg6)) a) :=
    (tail_v50 (W2 m c) a).trans (by rw [lbOf_low m hlow c a, ubOf_upp m hupp c a, aOf_arg m c a])
  show (if a.val = b.val then (V18 m c main_v50 : S4096x1.Idx → Ideal .f32) (ix2 a 0) else _) = _
  rw [hj]
  rfl

/-- The third result: the diagonal matrix of upper slopes. -/
theorem v52_1_eq (hlow : ∀ c : Dev nD, (dat0 (V1 m) c).arrAt 6 cfg0.N = fun i : S4096x1.Idx => lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) (hupp : ∀ c : Dev nD, (dat0 (V1 m) c).arrAt 7 cfg0.N = fun i : S4096x1.Idx => uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0))
    (hd3 : ∀ c : Dev nD, (dat1 (V18 m) c).arrAt 3 cfg1.N = fun i : S4096x4096.Idx => if (i 0).val = (i 1).val then (V18 m c main_v51 : S4096x1.Idx → Ideal .f32) (ix2 (i 0) 0) else (FloatOps.ofBits (F := Ideal) .f32 0x00000000#32 : Ideal .f32)) (c : Dev nD) :
    W19 m c (Proc.devRef .tc main_v52_1) = Relax.outDiagU (lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W19_arr m c 3).trans ((hd3 c).trans ?_)
  funext i
  obtain ⟨a, b, rfl⟩ : ∃ (a b : Fin 4096), i = ix2 a b := ⟨i 0, i 1, eq_ix2 i⟩
  have hj : (V18 m c main_v51 : S4096x1.Idx → Ideal .f32) (ix2 a 0)
      = Relax.uslope (lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) a) (uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) a) :=
    (tail_v51 (W2 m c) a).trans (by rw [lbOf_low m hlow c a, ubOf_upp m hupp c a])
  show (if a.val = b.val then (V18 m c main_v51 : S4096x1.Idx → Ideal .f32) (ix2 a 0) else _) = _
  rw [hj]
  rfl

/-- The fourth result: the row of upper intercepts. -/
theorem v49_eq (hlow : ∀ c : Dev nD, (dat0 (V1 m) c).arrAt 6 cfg0.N = fun i : S4096x1.Idx => lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) (hupp : ∀ c : Dev nD, (dat0 (V1 m) c).arrAt 7 cfg0.N = fun i : S4096x1.Idx => uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) (c : Dev nD) :
    W19 m c (Proc.devRef .tc main_v49) = Relax.outUint (lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W19_of_ne m c main_v49 (by decide)).trans ?_
  funext i
  obtain ⟨u, q, rfl⟩ : ∃ (u : Fin 1) (q : Fin 4096), i = ix2 u q := ⟨i 0, i 1, eq_ix2 i⟩
  obtain rfl : u = 0 := Subsingleton.elim _ _
  refine (tail_v49 (W2 m c) q).trans ?_
  rw [lbOf_low m hlow c q, ubOf_upp m hupp c q]
  rfl

/-- The second result: the zero row. -/
theorem v48_eq (c : Dev nD) : W19 m c (Proc.devRef .tc main_v48) = Relax.outLint (F := Ideal) := by
  refine (W19_of_ne m c main_v48 (by decide)).trans ?_
  funext i
  obtain ⟨u, q, rfl⟩ : ∃ (u : Fin 1) (q : Fin 4096), i = ix2 u q := ⟨i 0, i 1, eq_ix2 i⟩
  obtain rfl : u = 0 := Subsingleton.elim _ _
  exact tail_v48 (W2 m c) q

/-- At the compiled mesh, from any memory with zero counters, at the exact extended reals: every weakly fair execution
    of @main terminates with the four results the relaxation of the bounds the first kernel leaves, and the arguments
    unchanged. -/
theorem run_spec (ρ : Dev nD → PrngReg) (hlow : ∀ c : Dev nD, (dat0 (V1 m) c).arrAt 6 cfg0.N = fun i : S4096x1.Idx => lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) (hupp : ∀ c : Dev nD, (dat0 (V1 m) c).arrAt 7 cfg0.N = fun i : S4096x1.Idx => uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0))
    (hd2 : ∀ c : Dev nD, (dat1 (V18 m) c).arrAt 2 cfg1.N = fun i : S4096x4096.Idx => if (i 0).val = (i 1).val then (V18 m c main_v50 : S4096x1.Idx → Ideal .f32) (ix2 (i 0) 0) else (FloatOps.ofBits (F := Ideal) .f32 0x00000000#32 : Ideal .f32))
    (hd3 : ∀ c : Dev nD, (dat1 (V18 m) c).arrAt 3 cfg1.N = fun i : S4096x4096.Idx => if (i 0).val = (i 1).val then (V18 m c main_v51 : S4096x1.Idx → Ideal .f32) (ix2 (i 0) 0) else (FloatOps.ofBits (F := Ideal) .f32 0x00000000#32 : Ideal .f32)) :
    θ_run (defs (F := Ideal)) (onTc (τ := τ) (main (F := Ideal))) ⟨m, fun _ => 0, ρ⟩ fun r => ∀ c : Dev nD,
      r.2.mem ((c.tc : Thread nD τ).loc main_v52_0) = Relax.outDiagL (lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Relax.vec (m ((c : Thread nD τ).loc main_arg6)))
      ∧ r.2.mem ((c.tc : Thread nD τ).loc main_v48) = Relax.outLint (F := Ideal)
      ∧ r.2.mem ((c.tc : Thread nD τ).loc main_v52_1) = Relax.outDiagU (lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c.tc : Thread nD τ).loc main_v49) = Relax.outUint (lowKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (uppKof (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c _ (mem_uc main_v52_0 (by decide))).trans (v52_0_eq m hlow hupp hd2 c),
      (h c _ (mem_uc main_v48 (by decide))).trans (v48_eq m c),
      (h c _ (mem_uc main_v52_1 (by decide))).trans (v52_1_eq m hlow hupp hd3 c),
      (h c _ (mem_uc main_v49 (by decide))).trans (v49_eq m hlow hupp c),
      (h c _ (mem_uc main_arg0 (by decide))).trans (W19_main_arg0 m c),
      (h c _ (mem_uc main_arg1 (by decide))).trans (W19_main_arg1 m c),
      (h c _ (mem_uc main_arg2 (by decide))).trans (W19_main_arg2 m c),
      (h c _ (mem_uc main_arg3 (by decide))).trans (W19_main_arg3 m c),
      (h c _ (mem_uc main_arg4 (by decide))).trans (W19_main_arg4 m c),
      (h c _ (mem_uc main_arg5 (by decide))).trans (W19_main_arg5 m c),
      (h c _ (mem_uc main_arg6 (by decide))).trans (W19_main_arg6 m c)⟩)
    (run_all m ρ)

end Cert.KernelIdeal.Hand

end
-- ==== Proof.KI.DiagValue.lean ====
/-
  The value of the diagonal kernel's region at the exact instance: what each output block holds, entry by entry.

  At grid coordinates `(i, j)` the body forms, for the entry `(a, b)` of a 512 × 512 block, the row number
  `i·512 + a` and the column number `j·512 + b` as 32-bit words, compares them, and selects the entry `a` of the
  column block where they are equal and the constant zero elsewhere.  All numbers involved are below 4096, so the
  word arithmetic does not wrap and the comparison of words is the comparison of the natural numbers.
-/
import proofs.«165992_j40183714021526_2_alg».proof.Proof.KI.Diag
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal.Gen
open Idealize.ShloMosaic Idealize.ShloMosaic.ValueIdx

/-- The offsets of a whole-buffer rectangle of rank 2 are zero. -/
theorem off2_zero : (![0, 0] : Fin 2 → Nat) = fun _ => 0 := by
  funext a; fin_cases a <;> rfl

/-- Words below 4096 formed as `p·512 + a` are equal exactly when the numbers are. -/
theorem word_eq_iff (p q : Fin 8) (a b : Fin 512) :
    (BitVec.ofNat 32 p.val * 512#32 + BitVec.ofNat 32 a.val = BitVec.ofNat 32 q.val * 512#32 + BitVec.ofNat 32 b.val)
      ↔ p.val * 512 + a.val = q.val * 512 + b.val := by
  have hp := p.isLt; have hq := q.isLt; have ha := a.isLt; have hb := b.isLt
  rw [← BitVec.toNat_inj]
  simp only [BitVec.toNat_add, BitVec.toNat_mul, BitVec.toNat_ofNat, Nat.reducePow, Nat.reduceMod]
  omega

/-- The comparison mask at an entry: `1` exactly on the global diagonal. -/
theorem k1_pay1_apply (i : grid1.Coords) (a b : Fin 512) :
    k1_pay1 i (ix2 a b) = if (i 0).val * 512 + a.val = (i 1).val * 512 + b.val then 1#1 else 0#1 := by
  unfold k1_pay1
  show IntOp.cmpi .eq
      (IntOp.addi (Scalar.muli (BitVec.ofNat 32 (i 0).val) 512#32) (iota .tc S512x512 32 [0] iota_S512x512_d0_w32 (ix2 a b)))
      (IntOp.addi (Scalar.muli (BitVec.ofNat 32 (i 1).val) 512#32) (iota .tc S512x512 32 [1] iota_S512x512_d1_w32 (ix2 a b))) = _
  rw [iota_single_apply, iota_single_apply]
  show IntOp.cmpi .eq (BitVec.ofNat 32 (i 0).val * 512#32 + BitVec.ofNat 32 a.val)
      (BitVec.ofNat 32 (i 1).val * 512#32 + BitVec.ofNat 32 b.val) = _
  unfold IntOp.cmpi
  by_cases h : (i 0).val * 512 + a.val = (i 1).val * 512 + b.val
  · rw [if_pos h, (word_eq_iff (i 0) (i 1) a b).2 h]; simp
  · rw [if_neg h]
    have hne := mt (word_eq_iff (i 0) (i 1) a b).1 h
    rw [beq_eq_false_iff_ne.2 hne]; rfl

/-- Output window 2's block at an entry: the first column block's entry on the global diagonal, zero off it. -/
theorem out1_2_apply (i : grid1.Coords) (x0 x1 : Vec Ideal S512x1 .f32) (a b : Fin 512) :
    out1_2 (F := Ideal) i x0 x1 (ix2 a b)
      = if (i 0).val * 512 + a.val = (i 1).val * 512 + b.val then x0 (ix2 a 0) else (FloatOps.ofBits (F := Ideal) .f32 0x00000000#32 : Ideal .f32) := by
  unfold out1_2
  rw [View.canon_unit_zero off2_zero, View.ld_unit_zero off2_zero]
  unfold k1_pay2
  show Scalar.select (k1_pay1 i (ix2 a b))
      (broadcastTo S512x512 (shapeCast S512x1 (shapeCast S512x1 x0 shapeCasts_S512x1_S512x1) shapeCasts_S512x1_S512x1) broadcasts_S512x1_S512x512 (ix2 a b))
      (FloatOps.ofBits (F := Ideal) .f32 0x00000000#32 : Ideal .f32) = _
  rw [k1_pay1_apply, shapeCast_self, shapeCast_self,
    broadcastTo_apply _ _ (ix2 a b) (ix2 a 0) (by intro d; fin_cases d <;> rfl)]
  by_cases h : (i 0).val * 512 + a.val = (i 1).val * 512 + b.val
  · rw [if_pos h, if_pos h, select_one]
  · rw [if_neg h, if_neg h, select_zero]

/-- Output window 3's block at an entry: the same with the second column block. -/
theorem out1_3_apply (i : grid1.Coords) (x0 x1 : Vec Ideal S512x1 .f32) (a b : Fin 512) :
    out1_3 (F := Ideal) i x0 x1 (ix2 a b)
      = if (i 0).val * 512 + a.val = (i 1).val * 512 + b.val then x1 (ix2 a 0) else (FloatOps.ofBits (F := Ideal) .f32 0x00000000#32 : Ideal .f32) := by
  unfold out1_3
  rw [View.canon_unit_zero off2_zero, View.ld_unit_zero off2_zero]
  unfold k1_pay3
  show Scalar.select (k1_pay1 i (ix2 a b))
      (broadcastTo S512x512 (shapeCast S512x1 (shapeCast S512x1 x1 shapeCasts_S512x1_S512x1) shapeCasts_S512x1_S512x1) broadcasts_S512x1_S512x512 (ix2 a b))
      (FloatOps.ofBits (F := Ideal) .f32 0x00000000#32 : Ideal .f32) = _
  rw [k1_pay1_apply, shapeCast_self, shapeCast_self,
    broadcastTo_apply _ _ (ix2 a b) (ix2 a 0) (by intro d; fin_cases d <;> rfl)]
  by_cases h : (i 0).val * 512 + a.val = (i 1).val * 512 + b.val
  · rw [if_pos h, if_pos h, select_one]
  · rw [if_neg h, if_neg h, select_zero]

end Cert.KernelIdeal.Hand

end
-- ==== Proof.KI.DiagFinal.lean ====
/-
  The diagonal kernel's two result arrays in closed form at the exact instance.

  Point `t` of the 8 × 8 grid has coordinates `(t / 8, t % 8)`.  There each input window's block is rows
  `512·(t / 8) …` of its column, and each output window's block is rows `512·(t / 8) …`, columns `512·(t % 8) …` of its
  matrix.  The body leaves, at entry `(a, b)` of the block, the column's entry `a` where the global row and column
  numbers agree and zero elsewhere; that is the entry of the diagonal matrix of the column at the block's position.
  Every point writes both blocks back and the 64 blocks tile the 4096 × 4096 arrays, so each array ends as the
  diagonal matrix of its operand column.
-/
import proofs.«165992_j40183714021526_2_alg».proof.Proof.KI.Diag
import proofs.«165992_j40183714021526_2_alg».proof.Proof.KI.DiagValue
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The grid: block indices and coordinates in closed form -/

/-- The four windows' block indices over the grid. -/
theorem idx_facts1 : ∀ t : Fin cfg1.N,
    (win1_0.index t 0 = t.val / 8 ∧ win1_0.index t 1 = 0) ∧ (win1_1.index t 0 = t.val / 8 ∧ win1_1.index t 1 = 0)
    ∧ (win1_2.index t 0 = t.val / 8 ∧ win1_2.index t 1 = t.val % 8)
    ∧ (win1_3.index t 0 = t.val / 8 ∧ win1_3.index t 1 = t.val % 8) :=
  (by decide +kernel : ∀ t : Fin grid1.N, _)

/-- A point's grid coordinates. -/
theorem coords1 : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)

/-! ## The input blocks as entries of the operand columns -/

/-- Entry `a` of input window 0's block at point `t` is entry `512·(t / 8) + a` of its column. -/
theorem blk1_0_apply (c : Dev nD) (t : Fin cfg1.N) (a : Fin 512) (j : S4096x1.Idx)
    (h0 : (j 0).val = 512 * (t.val / 8) + a.val) :
    (iblk1 V c 0 t : Vec Ideal S512x1 .f32) (ix2 a 0) = V c main_v50 j := by
  unfold iblk1
  rw [View.read_apply]
  show V c main_v50 _ = V c main_v50 j
  congr 1
  funext d
  apply Fin.ext
  have hi := (idx_facts1 t).1
  have hj1 : (j 1).val = 0 := by have := idx2_lt1 j; omega
  match d with
  | ⟨0, _⟩ => show win1_0.index t 0 * 512 + 1 * a.val = (j 0).val; rw [hi.1, h0]; omega
  | ⟨1, _⟩ => show win1_0.index t 1 * 1 + 1 * (0 : Fin 1).val = (j 1).val; rw [hi.2, hj1]; rfl

/-- Entry `a` of input window 1's block at point `t` is entry `512·(t / 8) + a` of its column. -/
theorem blk1_1_apply (c : Dev nD) (t : Fin cfg1.N) (a : Fin 512) (j : S4096x1.Idx)
    (h0 : (j 0).val = 512 * (t.val / 8) + a.val) :
    (iblk1 V c 1 t : Vec Ideal S512x1 .f32) (ix2 a 0) = V c main_v51 j := by
  unfold iblk1
  rw [View.read_apply]
  show V c main_v51 _ = V c main_v51 j
  congr 1
  funext d
  apply Fin.ext
  have hi := (idx_facts1 t).2.1
  have hj1 : (j 1).val = 0 := by have := idx2_lt1 j; omega
  match d with
  | ⟨0, _⟩ => show win1_1.index t 0 * 512 + 1 * a.val = (j 0).val; rw [hi.1, h0]; omega
  | ⟨1, _⟩ => show win1_1.index t 1 * 1 + 1 * (0 : Fin 1).val = (j 1).val; rw [hi.2, hj1]; rfl

/-! ## The result arrays -/

/-- An index of the array is in point `t`'s block of window 2 iff each coordinate is in the block's range on its axis. -/
theorem mem_blk1_2 (t : Fin cfg1.N) (i : S4096x4096.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v52_0).slice (win1_2.rect t)).set ↔ _
  rw [View.set_slice_whole, Rect.mem_set_unit]
  exact Iff.rfl

/-- Output window 2's array after the region: the first operand column on the diagonal, zero elsewhere. Every point writes its
    block back, block `(t / 8, t % 8)` of that matrix, and the 64 blocks tile the array. -/
theorem final1_2 (c : Dev nD) :
    (dat1 V c).arrAt 2 cfg1.N = fun i : S4096x4096.Idx =>
      if (i 0).val = (i 1).val then (V c main_v50 : S4096x1.Idx → Ideal .f32) (ix2 (i 0) 0)
      else (FloatOps.ofBits (F := Ideal) .f32 0x00000000#32 : Ideal .f32) := by
  refine (dat1 V c).arrAt_eq_of_cover 2 _ (fun t hf => ?_) (fun i => ?_)
  · show (cfg1.win 2).cut (grid1.coords t) ((dat1 V c).after 2 t) = _
    rw [after1_2]
    funext y
    obtain ⟨a, b, rfl⟩ : ∃ (a b : Fin 512), y = ix2 a b := ⟨y 0, y 1, eq_ix2 y⟩
    rw [View.read_apply]
    have hi := (idx_facts1 t).2.2.1
    have hc := coords1 t
    have e0 : ((((cfg1.win 2).blk t).view.emb (ix2 a b)) 0).val = 512 * (t.val / 8) + a.val := by
      show win1_2.index t 0 * 512 + 1 * a.val = _; rw [hi.1]; omega
    have e1 : ((((cfg1.win 2).blk t).view.emb (ix2 a b)) 1).val = 512 * (t.val % 8) + b.val := by
      show win1_2.index t 1 * 512 + 1 * b.val = _; rw [hi.2]; omega
    show out1_2 (grid1.coords t) (iblk1 V c 0 t) (iblk1 V c 1 t) (ix2 a b)
      = if ((((cfg1.win 2).blk t).view.emb (ix2 a b)) 0).val = ((((cfg1.win 2).blk t).view.emb (ix2 a b)) 1).val
        then (V c main_v50 : S4096x1.Idx → Ideal .f32) (ix2 ((((cfg1.win 2).blk t).view.emb (ix2 a b)) 0) 0)
        else (FloatOps.ofBits (F := Ideal) .f32 0x00000000#32 : Ideal .f32)
    rw [out1_2_apply]
    by_cases h : ((((cfg1.win 2).blk t).view.emb (ix2 a b)) 0).val = ((((cfg1.win 2).blk t).view.emb (ix2 a b)) 1).val
    · rw [if_pos h, if_pos (by rw [hc.1, hc.2]; omega)]
      exact blk1_0_apply V c t a _ e0
    · rw [if_neg h, if_neg (by rw [hc.1, hc.2]; omega)]
  · have hi0 : (i 0).val < 4096 := idx2_lt0 i
    have hi1 : (i 1).val < 4096 := idx2_lt1 i
    have hlt : (i 0).val / 512 * 8 + (i 1).val / 512 < cfg1.N := by rw [show cfg1.N = 64 from N_1]; omega
    refine ⟨⟨(i 0).val / 512 * 8 + (i 1).val / 512, hlt⟩, flush1_2 _, ?_⟩
    rw [mem_blk1_2]
    have hi := (idx_facts1 ⟨(i 0).val / 512 * 8 + (i 1).val / 512, hlt⟩).2.2.1
    intro a
    match a with
    | ⟨0, _⟩ => show win1_2.index _ 0 * 512 ≤ (i 0).val ∧ (i 0).val < win1_2.index _ 0 * 512 + 512
                rw [hi.1]; dsimp only; omega
    | ⟨1, _⟩ => show win1_2.index _ 1 * 512 ≤ (i 1).val ∧ (i 1).val < win1_2.index _ 1 * 512 + 512
                rw [hi.2]; dsimp only; omega

/-- An index of the array is in point `t`'s block of window 3 iff each coordinate is in the block's range on its axis. -/
theorem mem_blk1_3 (t : Fin cfg1.N) (i : S4096x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v52_1).slice (win1_3.rect t)).set ↔ _
  rw [View.set_slice_whole, Rect.mem_set_unit]
  exact Iff.rfl

/-- Output window 3's array after the region: the second operand column on the diagonal, zero elsewhere. Every point writes its
    block back, block `(t / 8, t % 8)` of that matrix, and the 64 blocks tile the array. -/
theorem final1_3 (c : Dev nD) :
    (dat1 V c).arrAt 3 cfg1.N = fun i : S4096x4096.Idx =>
      if (i 0).val = (i 1).val then (V c main_v51 : S4096x1.Idx → Ideal .f32) (ix2 (i 0) 0)
      else (FloatOps.ofBits (F := Ideal) .f32 0x00000000#32 : Ideal .f32) := by
  refine (dat1 V c).arrAt_eq_of_cover 3 _ (fun t hf => ?_) (fun i => ?_)
  · show (cfg1.win 3).cut (grid1.coords t) ((dat1 V c).after 3 t) = _
    rw [after1_3]
    funext y
    obtain ⟨a, b, rfl⟩ : ∃ (a b : Fin 512), y = ix2 a b := ⟨y 0, y 1, eq_ix2 y⟩
    rw [View.read_apply]
    have hi := (idx_facts1 t).2.2.2
    have hc := coords1 t
    have e0 : ((((cfg1.win 3).blk t).view.emb (ix2 a b)) 0).val = 512 * (t.val / 8) + a.val := by
      show win1_3.index t 0 * 512 + 1 * a.val = _; rw [hi.1]; omega
    have e1 : ((((cfg1.win 3).blk t).view.emb (ix2 a b)) 1).val = 512 * (t.val % 8) + b.val := by
      show win1_3.index t 1 * 512 + 1 * b.val = _; rw [hi.2]; omega
    show out1_3 (grid1.coords t) (iblk1 V c 0 t) (iblk1 V c 1 t) (ix2 a b)
      = if ((((cfg1.win 3).blk t).view.emb (ix2 a b)) 0).val = ((((cfg1.win 3).blk t).view.emb (ix2 a b)) 1).val
        then (V c main_v51 : S4096x1.Idx → Ideal .f32) (ix2 ((((cfg1.win 3).blk t).view.emb (ix2 a b)) 0) 0)
        else (FloatOps.ofBits (F := Ideal) .f32 0x00000000#32 : Ideal .f32)
    rw [out1_3_apply]
    by_cases h : ((((cfg1.win 3).blk t).view.emb (ix2 a b)) 0).val = ((((cfg1.win 3).blk t).view.emb (ix2 a b)) 1).val
    · rw [if_pos h, if_pos (by rw [hc.1, hc.2]; omega)]
      exact blk1_1_apply V c t a _ e0
    · rw [if_neg h, if_neg (by rw [hc.1, hc.2]; omega)]
  · have hi0 : (i 0).val < 4096 := idx2_lt0 i
    have hi1 : (i 1).val < 4096 := idx2_lt1 i
    have hlt : (i 0).val / 512 * 8 + (i 1).val / 512 < cfg1.N := by rw [show cfg1.N = 64 from N_1]; omega
    refine ⟨⟨(i 0).val / 512 * 8 + (i 1).val / 512, hlt⟩, flush1_3 _, ?_⟩
    rw [mem_blk1_3]
    have hi := (idx_facts1 ⟨(i 0).val / 512 * 8 + (i 1).val / 512, hlt⟩).2.2.2
    intro a
    match a with
    | ⟨0, _⟩ => show win1_3.index _ 0 * 512 ≤ (i 0).val ∧ (i 0).val < win1_3.index _ 0 * 512 + 512
                rw [hi.1]; dsimp only; omega
    | ⟨1, _⟩ => show win1_3.index _ 1 * 512 ≤ (i 1).val ∧ (i 1).val < win1_3.index _ 1 * 512 + 512
                rw [hi.2]; dsimp only; omega

end Cert.KernelIdeal.Hand

end
-- ==== Proof.KI.Pieces.lean ====
import proofs.«165992_j40183714021526_2_alg».proof.Proof.KI.Frame0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the first kernel's stores leave in the accumulators, case by case -/

theorem hz2 : (![0, 0] : Fin 2 → Nat) = fun _ => 0 := funext fun a => by fin_cases a <;> rfl

/-- Case A: the slope accumulator ends at its one covering store's payload. -/
theorem leftA_accS_eq (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 x5 : Vec F S1x4096 .f32) :
    leftA_accS c i arg2 harg2 arg3 harg3 arg4 harg4 arg5 harg5 arg6 harg6 arg7 harg7 arg8 harg8 arg9 harg9 arg10 harg10 arg11 harg11 hc1 hc2 x0 x1 x2 x3 x4 x5 = k0_pay3 x0 x1 k0_pay1 := by
  unfold leftA_accS
  rw [View.read_writes_eq_canon _ _ _ (coverA_accS c i arg2 harg2 arg3 harg3 arg4 harg4 arg5 harg5 arg6 harg6 arg7 harg7 arg8 harg8 arg9 harg9 arg10 harg10 arg11 harg11 hc1 hc2 x0 x1 x2 x3 x4 x5)]
  unfold bodyRunA
  dsimp only
  sl_unfold_words
  rw [View.canon_cons_unit_zero (S := S512x4096) hz2, View.readCov_unit_zero (S := S512x4096) _ hz2]
  simp only [View.readAt_eq_ld, harg2.read_unread, harg3.read_unread, harg4.read_unread, harg5.read_unread, harg6.read_unread, harg7.read_unread, harg10.read_unread, harg11.read_unread, View.ld_unit_zero (S := S512x512) hz2, View.ld_unit_zero (S := S512x4096) hz2, View.ld_unit_zero (S := S1x512) hz2, View.ld_unit_zero (S := S1x4096) hz2, View.ld_unit_zero (S := S512x1) hz2]

/-- Case A: the intercept accumulator ends at its one covering store's payload. -/
theorem leftA_accC_eq (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : first0 i) (hc2 : ¬last0 i)
    (x0 : Vec F S512x512 .f32) (x1 : Vec F S512x4096 .f32) (x2 : Vec F S1x512 .f32) (x3 : Vec F S512x1 .f32) (x4 x5 : Vec F S1x4096 .f32) :
    leftA_accC c i arg2 harg2 arg3 harg3 arg4 harg4 arg5 harg5 arg6 harg6 arg7 harg7 arg8 harg8 arg9 harg9 arg10 harg10 arg11 harg11 hc1 hc2 x0 x1 x2 x3 x4 x5 = k0_pay4 x0 x2 k0_pay2 := by
  unfold leftA_accC
  rw [View.read_writes_eq_canon _ _ _ (coverA_accC c i arg2 harg2 arg3 harg3 arg4 harg4 arg5 harg5 arg6 harg6 arg7 harg7 arg8 harg8 arg9 harg9 arg10 harg10 arg11 harg11 hc1 hc2 x0 x1 x2 x3 x4 x5)]
  unfold bodyRunA
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread, harg7.read_unread, harg10.read_unread, harg11.read_unread, View.ld_unit_zero (S := S512x512) hz2, View.ld_unit_zero (S := S512x4096) hz2, View.ld_unit_zero (S := S1x512) hz2, View.ld_unit_zero (S := S1x4096) hz2, View.ld_unit_zero (S := S512x1) hz2]

/-- Case B: the slope accumulator ends at its one covering store's payload. -/
theorem leftB_accS_eq (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) :
    leftB_accS c i arg2 harg2 arg3 harg3 arg4 harg4 arg5 harg5 arg6 harg6 arg7 harg7 arg8 harg8 arg9 harg9 arg10 harg10 arg11 harg11 hc1 hc2 x0 x1 x2 x3 x4 x5 xs0 xs1 = k0_pay3 x0 x1 xs0 := by
  unfold leftB_accS
  rw [View.read_writes_eq_canon _ _ _ (coverB_accS c i arg2 harg2 arg3 harg3 arg4 harg4 arg5 harg5 arg6 harg6 arg7 harg7 arg8 harg8 arg9 harg9 arg10 harg10 arg11 harg11 hc1 hc2 x0 x1 x2 x3 x4 x5 xs0 xs1)]
  unfold bodyRunB
  dsimp only
  sl_unfold_words
  first
    | rw [View.canon_unit_zero hz2]
    | rw [View.canon_cons_unit_zero (S := S512x4096) hz2]
  simp only [View.readAt_eq_ld, harg2.read_unread, harg3.read_unread, harg4.read_unread, harg5.read_unread, harg6.read_unread, harg7.read_unread, harg10.read_unread, harg11.read_unread, View.ld_unit_zero (S := S512x512) hz2, View.ld_unit_zero (S := S512x4096) hz2, View.ld_unit_zero (S := S1x512) hz2, View.ld_unit_zero (S := S1x4096) hz2, View.ld_unit_zero (S := S512x1) hz2]

/-- Case B: the intercept accumulator ends at its one covering store's payload. -/
theorem leftB_accC_eq (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : ¬last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) :
    leftB_accC c i arg2 harg2 arg3 harg3 arg4 harg4 arg5 harg5 arg6 harg6 arg7 harg7 arg8 harg8 arg9 harg9 arg10 harg10 arg11 harg11 hc1 hc2 x0 x1 x2 x3 x4 x5 xs0 xs1 = k0_pay4 x0 x2 xs1 := by
  unfold leftB_accC
  rw [View.read_writes_eq_canon _ _ _ (coverB_accC c i arg2 harg2 arg3 harg3 arg4 harg4 arg5 harg5 arg6 harg6 arg7 harg7 arg8 harg8 arg9 harg9 arg10 harg10 arg11 harg11 hc1 hc2 x0 x1 x2 x3 x4 x5 xs0 xs1)]
  unfold bodyRunB
  dsimp only
  sl_unfold_words
  first
    | rw [View.canon_unit_zero hz2]
    | rw [View.canon_cons_unit_zero (S := S512x1) hz2]
  simp only [View.readAt_eq_ld, harg2.read_unread, harg3.read_unread, harg4.read_unread, harg5.read_unread, harg6.read_unread, harg7.read_unread, harg10.read_unread, harg11.read_unread, View.ld_unit_zero (S := S512x512) hz2, View.ld_unit_zero (S := S512x4096) hz2, View.ld_unit_zero (S := S1x512) hz2, View.ld_unit_zero (S := S1x4096) hz2, View.ld_unit_zero (S := S512x1) hz2]

/-- Case C: the slope accumulator ends at its one covering store's payload. -/
theorem leftC_accS_eq (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) :
    leftC_accS c i arg2 harg2 arg3 harg3 arg4 harg4 arg5 harg5 arg6 harg6 arg7 harg7 arg8 harg8 arg9 harg9 arg10 harg10 arg11 harg11 hc1 hc2 x0 x1 x2 x3 x4 x5 xs0 xs1 = k0_pay3 x0 x1 xs0 := by
  unfold leftC_accS
  rw [View.read_writes_eq_canon _ _ _ (coverC_accS c i arg2 harg2 arg3 harg3 arg4 harg4 arg5 harg5 arg6 harg6 arg7 harg7 arg8 harg8 arg9 harg9 arg10 harg10 arg11 harg11 hc1 hc2 x0 x1 x2 x3 x4 x5 xs0 xs1)]
  unfold bodyRunC
  dsimp only
  sl_unfold_words
  first
    | rw [View.canon_unit_zero hz2]
    | rw [View.canon_cons_unit_zero (S := S512x4096) hz2]
  simp only [View.readAt_eq_ld, harg2.read_unread, harg3.read_unread, harg4.read_unread, harg5.read_unread, harg6.read_unread, harg7.read_unread, harg10.read_unread, harg11.read_unread, View.ld_unit_zero (S := S512x512) hz2, View.ld_unit_zero (S := S512x4096) hz2, View.ld_unit_zero (S := S1x512) hz2, View.ld_unit_zero (S := S1x4096) hz2, View.ld_unit_zero (S := S512x1) hz2]

/-- Case C: the intercept accumulator ends at its one covering store's payload. -/
theorem leftC_accC_eq (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec F S512x512 .f32) (x1 : Vec F S512x4096 .f32) (x2 : Vec F S1x512 .f32) (x3 : Vec F S512x1 .f32) (x4 x5 : Vec F S1x4096 .f32) (xs0 : Vec F S512x4096 .f32) (xs1 : Vec F S512x1 .f32) :
    leftC_accC c i arg2 harg2 arg3 harg3 arg4 harg4 arg5 harg5 arg6 harg6 arg7 harg7 arg8 harg8 arg9 harg9 arg10 harg10 arg11 harg11 hc1 hc2 x0 x1 x2 x3 x4 x5 xs0 xs1 = k0_pay4 x0 x2 xs1 := by
  unfold leftC_accC
  rw [View.read_writes_eq_canon _ _ _ (coverC_accC c i arg2 harg2 arg3 harg3 arg4 harg4 arg5 harg5 arg6 harg6 arg7 harg7 arg8 harg8 arg9 harg9 arg10 harg10 arg11 harg11 hc1 hc2 x0 x1 x2 x3 x4 x5 xs0 xs1)]
  unfold bodyRunC
  dsimp only
  sl_unfold_words
  first
    | rw [View.canon_unit_zero hz2]
    | rw [View.canon_cons_unit_zero (S := S512x1) hz2]
  simp only [View.readAt_eq_ld, harg2.read_unread, harg3.read_unread, harg4.read_unread, harg5.read_unread, harg6.read_unread, harg7.read_unread, harg10.read_unread, harg11.read_unread, View.ld_unit_zero (S := S512x512) hz2, View.ld_unit_zero (S := S512x4096) hz2, View.ld_unit_zero (S := S1x512) hz2, View.ld_unit_zero (S := S1x4096) hz2, View.ld_unit_zero (S := S512x1) hz2]

end Cert.KernelIdeal.Hand

end
-- ==== Proof.KI.Blk0.lean ====
import proofs.«165992_j40183714021526_2_alg».proof.Proof.KI.Frame0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! # The first kernel's input blocks as entries of the arrays

Point `t` of the 8 × 8 grid has row block `t / 8` and contraction block `t % 8`.  The second layer's tile there is rows
`512·(t/8) …`, columns `512·(t%8) …` of its matrix; the first layer's tile is rows `512·(t%8) …` of its matrix, all 4096
columns; the first bias' tile is entries `512·(t%8) …`; the second bias' tile is entries `512·(t/8) …`; the two rows of
the input box are taken whole. -/

/-- The block indices over the grid. -/
theorem idx_facts0 : ∀ t : Fin cfg0.N,
    (win0_0.index t 0 = t.val / 8 ∧ win0_0.index t 1 = t.val % 8) ∧ (win0_1.index t 0 = t.val % 8 ∧ win0_1.index t 1 = 0)
    ∧ (win0_2.index t 0 = 0 ∧ win0_2.index t 1 = t.val % 8) ∧ (win0_3.index t 0 = t.val / 8 ∧ win0_3.index t 1 = 0)
    ∧ (win0_4.index t 0 = 0 ∧ win0_4.index t 1 = 0) ∧ (win0_5.index t 0 = 0 ∧ win0_5.index t 1 = 0)
    ∧ (win0_6.index t 0 = t.val / 8 ∧ win0_6.index t 1 = 0) ∧ (win0_7.index t 0 = t.val / 8 ∧ win0_7.index t 1 = 0) :=
  (by decide +kernel : ∀ t : Fin grid0.N, _)

theorem blk0_apply (c : Dev nD) (t : Fin cfg0.N) (a κ : Fin 512) (j : S4096x4096.Idx)
    (h0 : (j 0).val = 512 * (t.val / 8) + a.val) (h1 : (j 1).val = 512 * (t.val % 8) + κ.val) :
    (iblk0 V c 0 t : Vec F S512x512 .f32) (ix2 a κ) = V c main_arg4 j := by
  unfold iblk0
  rw [View.read_apply]
  show V c main_arg4 _ = V c main_arg4 j
  congr 1
  funext d
  apply Fin.ext
  have hi := (idx_facts0 t).1
  match d with
  | ⟨0, _⟩ => show win0_0.index t 0 * 512 + 1 * a.val = (j 0).val; rw [hi.1, h0]; omega
  | ⟨1, _⟩ => show win0_0.index t 1 * 512 + 1 * κ.val = (j 1).val; rw [hi.2, h1]; omega

theorem blk1_apply (c : Dev nD) (t : Fin cfg0.N) (κ : Fin 512) (q : Fin 4096) (j : S4096x4096.Idx)
    (h0 : (j 0).val = 512 * (t.val % 8) + κ.val) (h1 : (j 1).val = q.val) :
    (iblk0 V c 1 t : Vec F S512x4096 .f32) (ix2 κ q) = V c main_arg2 j := by
  unfold iblk0
  rw [View.read_apply]
  show V c main_arg2 _ = V c main_arg2 j
  congr 1
  funext d
  apply Fin.ext
  have hi := (idx_facts0 t).2.1
  match d with
  | ⟨0, _⟩ => show win0_1.index t 0 * 512 + 1 * κ.val = (j 0).val; rw [hi.1, h0]; omega
  | ⟨1, _⟩ => show win0_1.index t 1 * 4096 + 1 * q.val = (j 1).val; rw [hi.2, h1]; omega

theorem blk2_apply (c : Dev nD) (t : Fin cfg0.N) (κ : Fin 512) (j : S1x4096.Idx)
    (h1 : (j 1).val = 512 * (t.val % 8) + κ.val) :
    (iblk0 V c 2 t : Vec F S1x512 .f32) (ix2 0 κ) = V c main_arg3 j := by
  unfold iblk0
  rw [View.read_apply]
  show V c main_arg3 _ = V c main_arg3 j
  congr 1
  funext d
  apply Fin.ext
  have hi := (idx_facts0 t).2.2.1
  have hj0 : (j 0).val = 0 := by have := idx2_lt0 j; omega
  match d with
  | ⟨0, _⟩ => show win0_2.index t 0 * 1 + 1 * (0 : Fin 1).val = (j 0).val; rw [hi.1, hj0]; rfl
  | ⟨1, _⟩ => show win0_2.index t 1 * 512 + 1 * κ.val = (j 1).val; rw [hi.2, h1]; omega

theorem blk3_apply (c : Dev nD) (t : Fin cfg0.N) (a : Fin 512) (j : S4096x1.Idx)
    (h0 : (j 0).val = 512 * (t.val / 8) + a.val) :
    (iblk0 V c 3 t : Vec F S512x1 .f32) (ix2 a 0) = V c main_v0 j := by
  unfold iblk0
  rw [View.read_apply]
  show V c main_v0 _ = V c main_v0 j
  congr 1
  funext d
  apply Fin.ext
  have hi := (idx_facts0 t).2.2.2.1
  have hj1 : (j 1).val = 0 := by have := idx2_lt1 j; omega
  match d with
  | ⟨0, _⟩ => show win0_3.index t 0 * 512 + 1 * a.val = (j 0).val; rw [hi.1, h0]; omega
  | ⟨1, _⟩ => show win0_3.index t 1 * 1 + 1 * (0 : Fin 1).val = (j 1).val; rw [hi.2, hj1]; rfl

theorem blk4_apply (c : Dev nD) (t : Fin cfg0.N) (q : Fin 4096) :
    (iblk0 V c 4 t : Vec F S1x4096 .f32) (ix2 0 q) = V c main_arg0 (ix2 0 q) := by
  unfold iblk0
  rw [View.read_apply]
  show V c main_arg0 _ = V c main_arg0 (ix2 0 q)
  congr 1
  funext d
  apply Fin.ext
  have hi := (idx_facts0 t).2.2.2.2.1
  match d with
  | ⟨0, _⟩ => show win0_4.index t 0 * 1 + 1 * (0 : Fin 1).val = 0; rw [hi.1]; rfl
  | ⟨1, _⟩ => show win0_4.index t 1 * 4096 + 1 * q.val = q.val; rw [hi.2]; omega

theorem blk5_apply (c : Dev nD) (t : Fin cfg0.N) (q : Fin 4096) :
    (iblk0 V c 5 t : Vec F S1x4096 .f32) (ix2 0 q) = V c main_arg1 (ix2 0 q) := by
  unfold iblk0
  rw [View.read_apply]
  show V c main_arg1 _ = V c main_arg1 (ix2 0 q)
  congr 1
  funext d
  apply Fin.ext
  have hi := (idx_facts0 t).2.2.2.2.2.1
  match d with
  | ⟨0, _⟩ => show win0_5.index t 0 * 1 + 1 * (0 : Fin 1).val = 0; rw [hi.1]; rfl
  | ⟨1, _⟩ => show win0_5.index t 1 * 4096 + 1 * q.val = q.val; rw [hi.2]; omega

end Cert.KernelIdeal.Hand

end
-- ==== Proof.KI.PayValue.lean ====
/-
  The values the first kernel's stores write, read at one index at the exact instance (every float an
  extended real, every operation the textbook one). Each payload of the generated skeleton is a pure term of
  the vectors the body loaded; here each is evaluated at an index given by its coordinates: the elementwise
  operations read through, a row broadcast over the sublanes reads the row, a lane sum reshaped to a column
  is the finite sum over the lanes, and the matrix unit's product into a zero accumulator is the finite sum
  over the contracted axis.
-/
import proofs.«165992_j40183714021526_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## Shared steps -/

/-- A vector `[a]` cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the lanes of an `[a, b]` vector, at row `i`, is the finite sum of that row. -/
theorem laneSum_apply {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ q : Fin b, src (ix2 i q) := by
  refine (Ideal.multiReduction_add_single src 0x00000000#32 h (.inl rfl) rfl (ix1 i)).trans ?_
  refine Finset.sum_congr rfl fun q _ => congrArg src (funext fun c => Fin.ext ?_)
  match c with
  | ⟨0, _⟩ => rfl
  | ⟨1, _⟩ => rfl

/-- The lane sum reshaped to a column `[a, 1]`, read at `(i, u)`. -/
theorem colSum_apply {a b : ℕ} (src : FVec Ideal ⟨2, ![a, b]⟩ .f32)
    (h : (⟨2, ![a, b]⟩ : Shape).Reduces [1] ⟨1, ![a]⟩) (hc : (⟨1, ![a]⟩ : Shape).ShapeCasts ⟨2, ![a, 1]⟩)
    (i : Fin a) (u : Fin 1) :
    shapeCast ⟨2, ![a, 1]⟩ (multiReduction .add [1] ⟨1, ![a]⟩ src 0x00000000#32 h (.inl rfl) rfl) hc (ix2 i u)
      = ∑ q : Fin b, src (ix2 i q) :=
  (shapeCast_a_a1_apply _ hc i u).trans (laneSum_apply src h i)

/-! ## The matrix product: the contraction's operand indices -/

/-- The product's left operand is read at the output's row; -/
theorem mm_lhs_0 (i : S512x4096.Idx) (k : dot_S512x512_S512x4096_S512x4096_1_0_0_1_n_n.contr.Idx) :
    (dot_S512x512_S512x4096_S512x4096_1_0_0_1_n_n.lhsIdx i k 0).val = (i 0).val := by
  unfold DotDims.lhsIdx
  rw [dif_neg (show ¬(0 : Fin S512x512.rank) ∈ dot_S512x512_S512x4096_S512x4096_1_0_0_1_n_n.lhsBatch by decide),
    dif_pos (show (0 : Fin S512x512.rank) ∈ dot_S512x512_S512x4096_S512x4096_1_0_0_1_n_n.lhsNonContracting by decide)]
  rfl

/-- and at the contracted coordinate on its second axis. -/
theorem mm_lhs_1 (i : S512x4096.Idx) (k : dot_S512x512_S512x4096_S512x4096_1_0_0_1_n_n.contr.Idx) :
    (dot_S512x512_S512x4096_S512x4096_1_0_0_1_n_n.lhsIdx i k 1).val = (k ⟨0, by decide⟩).val :=
  dot_S512x512_S512x4096_S512x4096_1_0_0_1_n_n.lhsIdx_val_of_single rfl i k

/-- The right operand is read at the contracted coordinate on its first axis -/
theorem mm_rhs_0 (i : S512x4096.Idx) (k : dot_S512x512_S512x4096_S512x4096_1_0_0_1_n_n.contr.Idx) :
    (dot_S512x512_S512x4096_S512x4096_1_0_0_1_n_n.rhsIdx i k 0).val = (k ⟨0, by decide⟩).val :=
  dot_S512x512_S512x4096_S512x4096_1_0_0_1_n_n.rhsIdx_val_of_single rfl i k

/-- and at the output's column. -/
theorem mm_rhs_1 (i : S512x4096.Idx) (k : dot_S512x512_S512x4096_S512x4096_1_0_0_1_n_n.contr.Idx) :
    (dot_S512x512_S512x4096_S512x4096_1_0_0_1_n_n.rhsIdx i k 1).val = (i 1).val := by
  unfold DotDims.rhsIdx
  rw [dif_neg (show ¬(1 : Fin S512x4096.rank) ∈ dot_S512x512_S512x4096_S512x4096_1_0_0_1_n_n.rhsBatch by decide),
    dif_pos (show (1 : Fin S512x4096.rank) ∈ dot_S512x512_S512x4096_S512x4096_1_0_0_1_n_n.rhsNonContracting by decide)]
  rfl

/-- The `[512, 512] × [512, 4096]` product into the zero accumulator, at `(a, q)`: the sum over the contracted axis. -/
theorem matmul_zero_apply (x0 : FVec Ideal S512x512 .f32) (x1 : FVec Ideal S512x4096 .f32) (a : Fin 512) (q : Fin 4096) :
    matmul dot_S512x512_S512x4096_S512x4096_1_0_0_1_n_n (some .fp32) x0 x1 (constant S512x4096 .f32 0x00000000#32) (ix2 a q)
      = ∑ κ : Fin 512, x0 (ix2 a κ) * x1 (ix2 κ q) := by
  simp only [matmul]
  rw [Ideal.matmul_constant_zero_apply,
    ← Equiv.sum_comp (contrEquiv1 dot_S512x512_S512x4096_S512x4096_1_0_0_1_n_n 512 rfl rfl).symm]
  refine Finset.sum_congr rfl fun κ _ => ?_
  have hk := contrEquiv1_symm_val dot_S512x512_S512x4096_S512x4096_1_0_0_1_n_n 512 rfl rfl κ
  have el : dot_S512x512_S512x4096_S512x4096_1_0_0_1_n_n.lhsIdx (ix2 a q)
      ((contrEquiv1 dot_S512x512_S512x4096_S512x4096_1_0_0_1_n_n 512 rfl rfl).symm κ) = ix2 a κ :=
    funext fun c => Fin.ext (by
      match c with
      | ⟨0, _⟩ => exact mm_lhs_0 _ _
      | ⟨1, _⟩ => exact (mm_lhs_1 _ _).trans hk)
  have er : dot_S512x512_S512x4096_S512x4096_1_0_0_1_n_n.rhsIdx (ix2 a q)
      ((contrEquiv1 dot_S512x512_S512x4096_S512x4096_1_0_0_1_n_n 512 rfl rfl).symm κ) = ix2 κ q :=
    funext fun c => Fin.ext (by
      match c with
      | ⟨0, _⟩ => exact (mm_rhs_0 _ _).trans hk
      | ⟨1, _⟩ => exact mm_rhs_1 _ _)
  rw [el, er]

/-! ## The accumulation phase -/

/-- The first store of a row block's accumulator: zero. -/
theorem pay1_apply (a : Fin 512) (q : Fin 4096) : k0_pay1 (F := Ideal) (ix2 a q) = 0 := by
  unfold k0_pay1
  simp only [shapeCast_self, broadcast_apply]
  exact Ideal.ofBits_zero_f32

/-- The first store of a row block's column accumulator: zero. -/
theorem pay2_apply (a : Fin 512) : k0_pay2 (F := Ideal) (ix2 a 0) = 0 := by
  unfold k0_pay2
  simp only [shapeCast_self, broadcast_apply]
  exact Ideal.ofBits_zero_f32

/-- One accumulation step: the accumulator plus the block product. -/
theorem pay3_apply (x0 : Vec Ideal S512x512 .f32) (x1 acc : Vec Ideal S512x4096 .f32) (a : Fin 512) (q : Fin 4096) :
    k0_pay3 x0 x1 acc (ix2 a q) = acc (ix2 a q) + ∑ κ : Fin 512, x0 (ix2 a κ) * x1 (ix2 κ q) := by
  unfold k0_pay3
  simp only [shapeCast_self]
  rw [addf_apply, matmul_zero_apply]

/-- One step of the column accumulator: plus the row of the block against the broadcast row vector. -/
theorem pay4_apply (x0 : Vec Ideal S512x512 .f32) (x2 : Vec Ideal S1x512 .f32) (acc : Vec Ideal S512x1 .f32) (a : Fin 512) :
    k0_pay4 x0 x2 acc (ix2 a 0) = acc (ix2 a 0) + ∑ κ : Fin 512, x0 (ix2 a κ) * x2 (ix2 0 κ) := by
  unfold k0_pay4
  simp only [shapeCast_self]
  rw [addf_apply, colSum_apply]
  refine congrArg (acc (ix2 a 0) + ·) (Finset.sum_congr rfl fun κ _ => ?_)
  rw [mulf_apply, broadcastTo_1b_ab_apply]

/-! ## The bound phase: shared readings -/

/-- The positive part of a vector, as the body writes it, read at an index. -/
theorem relu_apply {s : Shape} (v : FVec Ideal s .f32) (i : s.Idx) :
    maximumf v (broadcast s (Scalar.ofBits .f32 0x00000000#32)) i = max (v i) 0 := by
  rw [maximumf_apply, broadcast_apply]
  exact congrArg (max (v i)) Ideal.ofBits_zero_f32

/-- A block times a row broadcast over its sublanes, summed over the lanes into a column, read at `(a, 0)`. -/
theorem rowDot_apply (v : FVec Ideal S128x4096 .f32) (w : FVec Ideal S1x4096 .f32) (a : Fin 128) (u : Fin 1) :
    shapeCast S128x1 (multiReduction .add [1] S128 (mulf v (broadcastTo S128x4096 w broadcasts_S1x4096_S128x4096))
        0x00000000#32 reduces_S128x4096_S128 (.inl rfl) rfl) shapeCasts_S128_S128x1 (ix2 a u)
      = ∑ q : Fin 4096, v (ix2 a q) * w (ix2 0 q) := by
  rw [colSum_apply]
  refine Finset.sum_congr rfl fun q _ => ?_
  rw [mulf_apply, broadcastTo_1b_ab_apply]

/-! ## The bound phase: the first row block of a step -/

/-- The width of the interval. -/
theorem pay7_apply (v24 v25 : Vec Ideal S1x4096 .f32) (q : Fin 4096) :
    k0_pay7 v24 v25 (ix2 0 q) = v25 (ix2 0 q) - v24 (ix2 0 q) := by
  unfold k0_pay7
  rw [subf_apply]

/-- The positive part of the block times the width. -/
theorem pay8_apply (v24 v25 : Vec Ideal S1x4096 .f32) (v30 : Vec Ideal S128x4096 .f32) (a : Fin 128) (q : Fin 4096) :
    k0_pay8 v24 v25 v30 (ix2 a q) = max (v30 (ix2 a q)) 0 * (v25 (ix2 0 q) - v24 (ix2 0 q)) := by
  unfold k0_pay8
  rw [mulf_apply, relu_apply, broadcastTo_1b_ab_apply, pay7_apply]

/-- The two column terms added. -/
theorem pay9_apply (v36 v38 : Vec Ideal S128x1 .f32) (a : Fin 128) :
    k0_pay9 v36 v38 (ix2 a 0) = v36 (ix2 a 0) + v38 (ix2 a 0) := by
  unfold k0_pay9
  simp only [shapeCast_self]
  rw [addf_apply]

/-- The first stored column of the block. -/
theorem pay10_apply (v24 v25 : Vec Ideal S1x4096 .f32) (v30 : Vec Ideal S128x4096 .f32) (v36 v38 : Vec Ideal S128x1 .f32)
    (a : Fin 128) :
    k0_pay10 v24 v25 v30 v36 v38 (ix2 a 0)
      = ((∑ q : Fin 4096, v30 (ix2 a q) * v25 (ix2 0 q))
          - (∑ q : Fin 4096, max (v30 (ix2 a q)) 0 * (v25 (ix2 0 q) - v24 (ix2 0 q))))
        + (v36 (ix2 a 0) + v38 (ix2 a 0)) := by
  unfold k0_pay10
  rw [addf_apply, subf_apply, rowDot_apply, colSum_apply, pay9_apply]
  simp only [pay8_apply]

/-- The second stored column of the block. -/
theorem pay11_apply (v24 v25 : Vec Ideal S1x4096 .f32) (v30 : Vec Ideal S128x4096 .f32) (v36 v38 : Vec Ideal S128x1 .f32)
    (a : Fin 128) :
    k0_pay11 v24 v25 v30 v36 v38 (ix2 a 0)
      = ((∑ q : Fin 4096, v30 (ix2 a q) * v24 (ix2 0 q))
          + (∑ q : Fin 4096, max (v30 (ix2 a q)) 0 * (v25 (ix2 0 q) - v24 (ix2 0 q))))
        + (v36 (ix2 a 0) + v38 (ix2 a 0)) := by
  unfold k0_pay11
  rw [addf_apply, addf_apply, rowDot_apply, colSum_apply, pay9_apply]
  simp only [pay8_apply]

/-! ## The bound phase: the later row blocks of a step (the width already formed) -/

/-- The positive part of the block times the width. -/
theorem pay12_apply (v26 : FVec Ideal S1x4096 .f32) (v64 : Vec Ideal S128x4096 .f32) (a : Fin 128) (q : Fin 4096) :
    k0_pay12 v26 v64 (ix2 a q) = max (v64 (ix2 a q)) 0 * v26 (ix2 0 q) := by
  unfold k0_pay12
  rw [mulf_apply, relu_apply, broadcastTo_1b_ab_apply]

/-- The two column terms added. -/
theorem pay13_apply (v70 v72 : Vec Ideal S128x1 .f32) (a : Fin 128) :
    k0_pay13 v70 v72 (ix2 a 0) = v70 (ix2 a 0) + v72 (ix2 a 0) := by
  unfold k0_pay13
  simp only [shapeCast_self]
  rw [addf_apply]

/-- The first stored column of the block. -/
theorem pay14_apply (v25 : Vec Ideal S1x4096 .f32) (v26 : FVec Ideal S1x4096 .f32) (v64 : Vec Ideal S128x4096 .f32)
    (v70 v72 : Vec Ideal S128x1 .f32) (a : Fin 128) :
    k0_pay14 v25 v26 v64 v70 v72 (ix2 a 0)
      = ((∑ q : Fin 4096, v64 (ix2 a q) * v25 (ix2 0 q)) - (∑ q : Fin 4096, max (v64 (ix2 a q)) 0 * v26 (ix2 0 q)))
        + (v70 (ix2 a 0) + v72 (ix2 a 0)) := by
  unfold k0_pay14
  rw [addf_apply, subf_apply, rowDot_apply, colSum_apply, pay13_apply]
  simp only [pay12_apply]

/-- The second stored column of the block. -/
theorem pay15_apply (v24 : Vec Ideal S1x4096 .f32) (v26 : FVec Ideal S1x4096 .f32) (v64 : Vec Ideal S128x4096 .f32)
    (v70 v72 : Vec Ideal S128x1 .f32) (a : Fin 128) :
    k0_pay15 v24 v26 v64 v70 v72 (ix2 a 0)
      = ((∑ q : Fin 4096, v64 (ix2 a q) * v24 (ix2 0 q)) + (∑ q : Fin 4096, max (v64 (ix2 a q)) 0 * v26 (ix2 0 q)))
        + (v70 (ix2 a 0) + v72 (ix2 a 0)) := by
  unfold k0_pay15
  rw [addf_apply, addf_apply, rowDot_apply, colSum_apply, pay13_apply]
  simp only [pay12_apply]

/-- The positive part of the next block times the width, carried to the next part. -/
theorem pay16_apply (v26 : FVec Ideal S1x4096 .f32) (v98 : Vec Ideal S128x4096 .f32) (a : Fin 128) (q : Fin 4096) :
    k0_pay16 v26 v98 (ix2 a q) = max (v98 (ix2 a q)) 0 * v26 (ix2 0 q) := by
  unfold k0_pay16
  rw [mulf_apply, relu_apply, broadcastTo_1b_ab_apply]

/-- The two column terms added. -/
theorem pay17_apply (v104 v106 : Vec Ideal S128x1 .f32) (a : Fin 128) :
    k0_pay17 v104 v106 (ix2 a 0) = v104 (ix2 a 0) + v106 (ix2 a 0) := by
  unfold k0_pay17
  simp only [shapeCast_self]
  rw [addf_apply]

/-- The first stored column of the block, over a carried product. -/
theorem pay18_apply (v25 : Vec Ideal S1x4096 .f32) (v98 : Vec Ideal S128x4096 .f32) (v102 : FVec Ideal S128x4096 .f32)
    (v104 v106 : Vec Ideal S128x1 .f32) (a : Fin 128) :
    k0_pay18 v25 v98 v102 v104 v106 (ix2 a 0)
      = ((∑ q : Fin 4096, v98 (ix2 a q) * v25 (ix2 0 q)) - (∑ q : Fin 4096, v102 (ix2 a q)))
        + (v104 (ix2 a 0) + v106 (ix2 a 0)) := by
  unfold k0_pay18
  rw [addf_apply, subf_apply, rowDot_apply, colSum_apply, pay17_apply]

/-- The second stored column of the block, over a carried product. -/
theorem pay19_apply (v24 : Vec Ideal S1x4096 .f32) (v98 : Vec Ideal S128x4096 .f32) (v102 : FVec Ideal S128x4096 .f32)
    (v104 v106 : Vec Ideal S128x1 .f32) (a : Fin 128) :
    k0_pay19 v24 v98 v102 v104 v106 (ix2 a 0)
      = ((∑ q : Fin 4096, v98 (ix2 a q) * v24 (ix2 0 q)) + (∑ q : Fin 4096, v102 (ix2 a q)))
        + (v104 (ix2 a 0) + v106 (ix2 a 0)) := by
  unfold k0_pay19
  rw [addf_apply, addf_apply, rowDot_apply, colSum_apply, pay17_apply]

/-- The positive part of the last block times the width. -/
theorem pay20_apply (v26 : FVec Ideal S1x4096 .f32) (v132 : Vec Ideal S128x4096 .f32) (a : Fin 128) (q : Fin 4096) :
    k0_pay20 v26 v132 (ix2 a q) = max (v132 (ix2 a q)) 0 * v26 (ix2 0 q) := by
  unfold k0_pay20
  rw [mulf_apply, relu_apply, broadcastTo_1b_ab_apply]

/-- The two column terms added. -/
theorem pay21_apply (v138 v140 : Vec Ideal S128x1 .f32) (a : Fin 128) :
    k0_pay21 v138 v140 (ix2 a 0) = v138 (ix2 a 0) + v140 (ix2 a 0) := by
  unfold k0_pay21
  simp only [shapeCast_self]
  rw [addf_apply]

/-- The difference of the two lane sums of the last block. -/
theorem pay22_apply (v25 : Vec Ideal S1x4096 .f32) (v26 : FVec Ideal S1x4096 .f32) (v132 : Vec Ideal S128x4096 .f32)
    (a : Fin 128) :
    k0_pay22 v25 v26 v132 (ix2 a 0)
      = (∑ q : Fin 4096, v132 (ix2 a q) * v25 (ix2 0 q)) - (∑ q : Fin 4096, max (v132 (ix2 a q)) 0 * v26 (ix2 0 q)) := by
  unfold k0_pay22
  rw [subf_apply, rowDot_apply, colSum_apply]
  simp only [pay20_apply]

/-! ## The bound phase: the last stores -/

/-- The first stored column of the last block. -/
theorem pay5_apply (v142 v149 : FVec Ideal S128x1 .f32) (a : Fin 128) :
    k0_pay5 v142 v149 (ix2 a 0) = v149 (ix2 a 0) + v142 (ix2 a 0) := by
  unfold k0_pay5
  rw [addf_apply]

/-- The second stored column of the last block. -/
theorem pay6_apply (v24 : Vec Ideal S1x4096 .f32) (v132 : Vec Ideal S128x4096 .f32) (v136 : FVec Ideal S128x4096 .f32)
    (v142 : FVec Ideal S128x1 .f32) (a : Fin 128) :
    k0_pay6 v24 v132 v136 v142 (ix2 a 0)
      = ((∑ q : Fin 4096, v132 (ix2 a q) * v24 (ix2 0 q)) + (∑ q : Fin 4096, v136 (ix2 a q))) + v142 (ix2 a 0) := by
  unfold k0_pay6
  rw [addf_apply, addf_apply, rowDot_apply, colSum_apply]

end Cert.KernelIdeal.Hand
-- ==== Proof.KI.Acc0.lean ====
import proofs.«165992_j40183714021526_2_alg».proof.Proof.KI.Pieces
import proofs.«165992_j40183714021526_2_alg».proof.Proof.KI.Blk0
import proofs.«165992_j40183714021526_2_alg».proof.Proof.KI.PayValue
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Finset

variable (V : (c : Dev nD) → (b : Ref sig .tc) → Buf (Elt Ideal) ((c : Thread nD τ).loc b))

/-! # The accumulators in closed form, on the exact extended reals

After the point with row block `t / 8` and contraction block `k = t % 8`, the slope accumulator holds at `(a, q)` the
partial contraction `∑_{j < 512·(k+1)} W2(512·(t/8) + a, j) · W1(j, q)` and the intercept accumulator holds at `a` the
partial sum `∑_{j < 512·(k+1)} W2(512·(t/8) + a, j) · b1(j)`: the `k = 0` point starts both from zero, every later
point adds its tile.  Only associativity of the sum is used. -/

/-- Entry `(r, j)` of the second layer's matrix (zero outside the array: never consulted). -/
def w2 (c : Dev nD) (r j : ℕ) : EReal :=
  if h : r < 4096 ∧ j < 4096 then (V c main_arg4 : S4096x4096.Idx → EReal) (ix2 ⟨r, h.1⟩ ⟨j, h.2⟩) else 0
/-- Entry `(j, q)` of the first layer's matrix. -/
def w1 (c : Dev nD) (j q : ℕ) : EReal :=
  if h : j < 4096 ∧ q < 4096 then (V c main_arg2 : S4096x4096.Idx → EReal) (ix2 ⟨j, h.1⟩ ⟨q, h.2⟩) else 0
/-- Entry `j` of the first layer's bias. -/
def bias1 (c : Dev nD) (j : ℕ) : EReal :=
  if h : j < 4096 then (V c main_arg3 : S1x4096.Idx → EReal) (ix2 0 ⟨j, h⟩) else 0

/-- The point's tiles with their literal vector types. -/
abbrev tW2 (c : Dev nD) (t : Fin cfg0.N) : Vec Ideal S512x512 .f32 := iblk0 V c 0 t
abbrev tW1 (c : Dev nD) (t : Fin cfg0.N) : Vec Ideal S512x4096 .f32 := iblk0 V c 1 t
abbrev tB1 (c : Dev nD) (t : Fin cfg0.N) : Vec Ideal S1x512 .f32 := iblk0 V c 2 t

theorem tile_slope (c : Dev nD) (t : Fin cfg0.N) (a : Fin 512) (q : Fin 4096) :
    (∑ κ : Fin 512, tW2 V c t (ix2 a κ) * tW1 V c t (ix2 κ q))
      = ∑ x ∈ range 512, w2 V c (512 * (t.val / 8) + a.val) (t.val % 8 * 512 + x) * w1 V c (t.val % 8 * 512 + x) q.val := by
  have hN : t.val < 64 := lt_of_lt_of_eq t.isLt (show cfg0.N = 64 from N_0)
  rw [Finset.sum_range]
  refine Finset.sum_congr rfl fun κ _ => ?_
  have hr : 512 * (t.val / 8) + a.val < 4096 := by have := a.isLt; omega
  have hj : t.val % 8 * 512 + κ.val < 4096 := by have := κ.isLt; omega
  rw [w2, w1, dif_pos ⟨hr, hj⟩, dif_pos ⟨hj, q.isLt⟩]
  dsimp only [tW2, tW1]
  rw [blk0_apply V c t a κ (ix2 ⟨_, hr⟩ ⟨_, hj⟩) rfl (by show t.val % 8 * 512 + κ.val = _; omega),
    blk1_apply V c t κ q (ix2 ⟨_, hj⟩ ⟨q.val, q.isLt⟩) (by show t.val % 8 * 512 + κ.val = _; omega) rfl]

theorem tile_bias (c : Dev nD) (t : Fin cfg0.N) (a : Fin 512) :
    (∑ κ : Fin 512, tW2 V c t (ix2 a κ) * tB1 V c t (ix2 0 κ))
      = ∑ x ∈ range 512, w2 V c (512 * (t.val / 8) + a.val) (t.val % 8 * 512 + x) * bias1 V c (t.val % 8 * 512 + x) := by
  have hN : t.val < 64 := lt_of_lt_of_eq t.isLt (show cfg0.N = 64 from N_0)
  rw [Finset.sum_range]
  refine Finset.sum_congr rfl fun κ _ => ?_
  have hr : 512 * (t.val / 8) + a.val < 4096 := by have := a.isLt; omega
  have hj : t.val % 8 * 512 + κ.val < 4096 := by have := κ.isLt; omega
  rw [w2, bias1, dif_pos ⟨hr, hj⟩, dif_pos hj]
  dsimp only [tW2, tB1]
  rw [blk0_apply V c t a κ (ix2 ⟨_, hr⟩ ⟨_, hj⟩) rfl (by show t.val % 8 * 512 + κ.val = _; omega),
    blk2_apply V c t κ (ix2 0 ⟨_, hj⟩) (by show t.val % 8 * 512 + κ.val = _; omega)]

/-- The slope accumulator after position `n`. -/
theorem accS_eq (c : Dev nD) : ∀ (n : ℕ) (hn : n < cfg0.N) (a : Fin 512) (q : Fin 4096),
    (outsAt0 V c n hn).2.2.1 (ix2 a q)
      = ∑ j ∈ range ((n % 8 + 1) * 512), w2 V c (512 * (n / 8) + a.val) j * w1 V c j q.val
  | 0, hn, a, q => by
    rw [outsAt0_A V c ⟨0, hn⟩ (Nat.zero_mod _) (by dsimp only; decide)]
    dsimp only
    rw [leftA_accS_eq, pay3_apply, pay1_apply, zero_add, tile_slope V c ⟨0, hn⟩ a q]
    simp only [Nat.zero_mod, Nat.zero_mul, Nat.zero_add, Nat.zero_div, Nat.mul_zero, Nat.one_mul]
  | n + 1, hn, a, q => by
    have hN : n + 1 < 64 := lt_of_lt_of_eq hn (show cfg0.N = 64 from N_0)
    by_cases h1 : (n + 1) % 8 = 0
    · rw [outsAt0_A V c ⟨n + 1, hn⟩ h1 (by dsimp only; omega)]
      dsimp only
      rw [leftA_accS_eq, pay3_apply, pay1_apply, zero_add, tile_slope V c ⟨n + 1, hn⟩ a q]
      dsimp only
      rw [h1]
      simp only [Nat.zero_mul, Nat.zero_add, Nat.one_mul]
    · have hprev := accS_eq c n (Nat.lt_of_succ_lt hn) a q
      have hd : (n + 1) / 8 = n / 8 := by omega
      have hm : (n + 1) % 8 = n % 8 + 1 := by omega
      have hstep : (outsAt0 V c (n + 1) hn).2.2.1 (ix2 a q)
          = (outsAt0 V c n (Nat.lt_of_succ_lt hn)).2.2.1 (ix2 a q)
            + ∑ κ : Fin 512, tW2 V c ⟨n + 1, hn⟩ (ix2 a κ) * tW1 V c ⟨n + 1, hn⟩ (ix2 κ q) := by
        by_cases h2 : (n + 1) % 8 = 7
        · rw [outsAt0_C V c ⟨n + 1, hn⟩ h1 h2]
          dsimp only
          rw [leftC_accS_eq, pay3_apply]; rfl
        · rw [outsAt0_B V c ⟨n + 1, hn⟩ h1 h2]
          dsimp only
          rw [leftB_accS_eq, pay3_apply]; rfl
      rw [hstep, hprev, tile_slope V c ⟨n + 1, hn⟩ a q]
      dsimp only
      rw [hd, hm, show (n % 8 + 1 + 1) * 512 = (n % 8 + 1) * 512 + 512 from by ring, Finset.sum_range_add]

/-- The intercept accumulator after position `n`. -/
theorem accC_eq (c : Dev nD) : ∀ (n : ℕ) (hn : n < cfg0.N) (a : Fin 512),
    (outsAt0 V c n hn).2.2.2 (ix2 a 0)
      = ∑ j ∈ range ((n % 8 + 1) * 512), w2 V c (512 * (n / 8) + a.val) j * bias1 V c j
  | 0, hn, a => by
    rw [outsAt0_A V c ⟨0, hn⟩ (Nat.zero_mod _) (by dsimp only; decide)]
    dsimp only
    rw [leftA_accC_eq, pay4_apply, pay2_apply, zero_add, tile_bias V c ⟨0, hn⟩ a]
    simp only [Nat.zero_mod, Nat.zero_mul, Nat.zero_add, Nat.zero_div, Nat.mul_zero, Nat.one_mul]
  | n + 1, hn, a => by
    have hN : n + 1 < 64 := lt_of_lt_of_eq hn (show cfg0.N = 64 from N_0)
    by_cases h1 : (n + 1) % 8 = 0
    · rw [outsAt0_A V c ⟨n + 1, hn⟩ h1 (by dsimp only; omega)]
      dsimp only
      rw [leftA_accC_eq, pay4_apply, pay2_apply, zero_add, tile_bias V c ⟨n + 1, hn⟩ a]
      dsimp only
      rw [h1]
      simp only [Nat.zero_mul, Nat.zero_add, Nat.one_mul]
    · have hprev := accC_eq c n (Nat.lt_of_succ_lt hn) a
      have hd : (n + 1) / 8 = n / 8 := by omega
      have hm : (n + 1) % 8 = n % 8 + 1 := by omega
      have hstep : (outsAt0 V c (n + 1) hn).2.2.2 (ix2 a 0)
          = (outsAt0 V c n (Nat.lt_of_succ_lt hn)).2.2.2 (ix2 a 0)
            + ∑ κ : Fin 512, tW2 V c ⟨n + 1, hn⟩ (ix2 a κ) * tB1 V c ⟨n + 1, hn⟩ (ix2 0 κ) := by
        by_cases h2 : (n + 1) % 8 = 7
        · rw [outsAt0_C V c ⟨n + 1, hn⟩ h1 h2]
          dsimp only
          rw [leftC_accC_eq, pay4_apply]; rfl
        · rw [outsAt0_B V c ⟨n + 1, hn⟩ h1 h2]
          dsimp only
          rw [leftB_accC_eq, pay4_apply]; rfl
      rw [hstep, hprev, tile_bias V c ⟨n + 1, hn⟩ a]
      dsimp only
      rw [hd, hm, show (n % 8 + 1 + 1) * 512 = (n % 8 + 1) * 512 + 512 from by ring, Finset.sum_range_add]

end Cert.KernelIdeal.Hand

end
-- ==== Proof.KI.Final0.lean ====
import proofs.«165992_j40183714021526_2_alg».proof.Proof.KI.Blk0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! # The first kernel's two result columns from what its `k = 7` points store -/

/-- An index of the array is in point `t`'s block of window 6 iff each coordinate is in the block's range on its axis. -/
theorem mem_blk6 (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v1_0).slice (win0_6.rect t)).set ↔ _
  rw [View.set_slice_whole, Rect.mem_set_unit]
  exact Iff.rfl

/-- If at every `k = 7` point the staging buffer of window 6 holds rows `512·(t/8) …` of one column `G`, the array ends at `G`:
    the eight write-backs tile it. -/
theorem final6 (c : Dev nD) (G : S4096x1.Idx → Elt F .f32)
    (hG : ∀ (t : Fin cfg0.N), t.val % 8 = 7 → ∀ (a : Fin 512) (j : S4096x1.Idx), (j 0).val = 512 * (t.val / 8) + a.val →
      (outsAt0 V c t.val t.isLt).1 (ix2 a 0) = G j) :
    (dat0 V c).arrAt 6 cfg0.N = G := by
  refine (dat0 V c).arrAt_eq_of_cover 6 G (fun t hf => ?_) (fun i => ?_)
  · have h7 : t.val % 8 = 7 := (flush0_6 t).mp hf
    show (cfg0.win 6).cut (grid0.coords t) ((dat0 V c).after 6 t) = _
    rw [after0_6]
    funext y
    obtain ⟨a, b, rfl⟩ : ∃ (a : Fin 512) (b : Fin 1), y = ix2 a b := ⟨y 0, y 1, eq_ix2 y⟩
    obtain rfl : b = 0 := Subsingleton.elim _ _
    rw [View.read_apply]
    refine hG t h7 a _ ?_
    have hi := (idx_facts0 t).2.2.2.2.2.2.1
    show win0_6.index t 0 * 512 + 1 * a.val = _
    rw [hi.1]; omega
  · have hi0 : (i 0).val < 4096 := idx2_lt0 i
    have hi1 : (i 1).val < 1 := idx2_lt1 i
    have hlt : (i 0).val / 512 * 8 + 7 < cfg0.N := by rw [show cfg0.N = 64 from N_0]; omega
    refine ⟨⟨(i 0).val / 512 * 8 + 7, hlt⟩, (flush0_6 _).mpr (by dsimp only; omega), ?_⟩
    rw [mem_blk6]
    have hi := (idx_facts0 ⟨(i 0).val / 512 * 8 + 7, hlt⟩).2.2.2.2.2.2.1
    intro a
    match a with
    | ⟨0, _⟩ => show win0_6.index _ 0 * 512 ≤ (i 0).val ∧ (i 0).val < win0_6.index _ 0 * 512 + 512
                rw [hi.1]; dsimp only; omega
    | ⟨1, _⟩ => show win0_6.index _ 1 * 1 ≤ (i 1).val ∧ (i 1).val < win0_6.index _ 1 * 1 + 1
                rw [hi.2]; omega

/-- An index of the array is in point `t`'s block of window 7 iff each coordinate is in the block's range on its axis. -/
theorem mem_blk7 (t : Fin cfg0.N) (i : S4096x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v1_1).slice (win0_7.rect t)).set ↔ _
  rw [View.set_slice_whole, Rect.mem_set_unit]
  exact Iff.rfl

/-- If at every `k = 7` point the staging buffer of window 7 holds rows `512·(t/8) …` of one column `G`, the array ends at `G`:
    the eight write-backs tile it. -/
theorem final7 (c : Dev nD) (G : S4096x1.Idx → Elt F .f32)
    (hG : ∀ (t : Fin cfg0.N), t.val % 8 = 7 → ∀ (a : Fin 512) (j : S4096x1.Idx), (j 0).val = 512 * (t.val / 8) + a.val →
      (outsAt0 V c t.val t.isLt).2.1 (ix2 a 0) = G j) :
    (dat0 V c).arrAt 7 cfg0.N = G := by
  refine (dat0 V c).arrAt_eq_of_cover 7 G (fun t hf => ?_) (fun i => ?_)
  · have h7 : t.val % 8 = 7 := (flush0_7 t).mp hf
    show (cfg0.win 7).cut (grid0.coords t) ((dat0 V c).after 7 t) = _
    rw [after0_7]
    funext y
    obtain ⟨a, b, rfl⟩ : ∃ (a : Fin 512) (b : Fin 1), y = ix2 a b := ⟨y 0, y 1, eq_ix2 y⟩
    obtain rfl : b = 0 := Subsingleton.elim _ _
    rw [View.read_apply]
    refine hG t h7 a _ ?_
    have hi := (idx_facts0 t).2.2.2.2.2.2.2
    show win0_7.index t 0 * 512 + 1 * a.val = _
    rw [hi.1]; omega
  · have hi0 : (i 0).val < 4096 := idx2_lt0 i
    have hi1 : (i 1).val < 1 := idx2_lt1 i
    have hlt : (i 0).val / 512 * 8 + 7 < cfg0.N := by rw [show cfg0.N = 64 from N_0]; omega
    refine ⟨⟨(i 0).val / 512 * 8 + 7, hlt⟩, (flush0_7 _).mpr (by dsimp only; omega), ?_⟩
    rw [mem_blk7]
    have hi := (idx_facts0 ⟨(i 0).val / 512 * 8 + 7, hlt⟩).2.2.2.2.2.2.2
    intro a
    match a with
    | ⟨0, _⟩ => show win0_7.index _ 0 * 512 ≤ (i 0).val ∧ (i 0).val < win0_7.index _ 0 * 512 + 512
                rw [hi.1]; dsimp only; omega
    | ⟨1, _⟩ => show win0_7.index _ 1 * 1 ≤ (i 1).val ∧ (i 1).val < win0_7.index _ 1 * 1 + 1
                rw [hi.2]; omega

end Cert.KernelIdeal.Hand

end
-- ==== Proof.KI.Out0.lean ====
/-
  The first kernel's two output columns after a last-step point, read at one row at the exact instance. At
  such a point the body first adds the last tile to the two accumulators, then turns them, 128 rows at a time,
  into the interval bounds of each row's affine form over the box between the lower and the upper row vector:
  with `S` the updated slope block, `C` the updated intercept column and `b` the second bias' tile, row `r` of
  the first output is `∑ S·u − ∑ S⁺·(u − l) + (C + b)` and of the second `∑ S·l + ∑ S⁺·(u − l) + (C + b)`, the sums
  over the 4096 lanes. Each of the four row chunks' stores writes the chunk of that one function of the row, so
  the stores, which tile the column, leave it.
-/
import proofs.«165992_j40183714021526_2_alg».proof.Proof.KI.Pieces
import proofs.«165992_j40183714021526_2_alg».proof.Proof.KI.PayValue
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Rows of a stored block read back -/

/-- A load of `k` rows from row `o` of a buffer that one covering store filled with `X` reads `X` at those rows. -/
theorem readCov_rows_apply {sig : RefSig} {κ : Kind} {sp : Space} {n m k : ℕ} {e : EltTy} {Val : EltTy → Type}
    [∀ e, Nonempty (Val e)] (v : View sig κ sp ⟨2, ![n, m]⟩ e) (X : (⟨2, ![n, m]⟩ : Shape).Idx → Val e) (o : ℕ)
    (hok : o + k ≤ n)
    (inb0 : ∀ a, (![0, 0] : Fin 2 → ℕ) a + (![n, m] : Fin 2 → ℕ) a ≤ (⟨2, ![n, m]⟩ : Shape).size a)
    (inb : ∀ a, (![o, 0] : Fin 2 → ℕ) a + (![k, m] : Fin 2 → ℕ) a ≤ (⟨2, ![n, m]⟩ : Shape).size a)
    (a : Fin k) (q : Fin m) :
    v.readCov [(⟨Rect.unit ![0, 0] ![n, m] inb0, X⟩ : View.Piece Val ⟨2, ![n, m]⟩ e)]
        (Rect.unit (s := ⟨2, ![n, m]⟩) (![o, 0] : Fin 2 → ℕ) (![k, m] : Fin 2 → ℕ) inb).toLoadRect
        (ix2 a q : (⟨2, ![k, m]⟩ : Shape).Idx)
      = X (ix2 ⟨o + a.val, Nat.lt_of_lt_of_le (Nat.add_lt_add_left a.isLt o) hok⟩ q) := by
  rw [View.readCov_eq_canon']
  refine (congrFun (View.canon_unit_zero hz2 inb0 X) _).trans (congrArg X (funext fun c => Fin.ext ?_))
  match c with
  | ⟨0, _⟩ => show o + 1 * a.val = o + a.val; omega
  | ⟨1, _⟩ => show 0 + 1 * q.val = q.val; omega

/-- A load of `k` rows from row `o` of contents `X` reads `X` at those rows. -/
theorem ld_rows_apply {n m k : ℕ} {e : EltTy} {Val : EltTy → Type} (X : (⟨2, ![n, m]⟩ : Shape).Idx → Val e) (o : ℕ)
    (hok : o + k ≤ n)
    (inb : ∀ a, (![o, 0] : Fin 2 → ℕ) a + (![k, m] : Fin 2 → ℕ) a ≤ (⟨2, ![n, m]⟩ : Shape).size a)
    (a : Fin k) (q : Fin m) :
    View.ld X (Rect.unit (s := ⟨2, ![n, m]⟩) (![o, 0] : Fin 2 → ℕ) (![k, m] : Fin 2 → ℕ) inb)
        (ix2 a q : (⟨2, ![k, m]⟩ : Shape).Idx)
      = X (ix2 ⟨o + a.val, Nat.lt_of_lt_of_le (Nat.add_lt_add_left a.isLt o) hok⟩ q) := by
  refine congrArg X (funext fun c => Fin.ext ?_)
  match c with
  | ⟨0, _⟩ => show o + 1 * a.val = o + a.val; omega
  | ⟨1, _⟩ => show 0 + 1 * q.val = q.val; omega

/-- The row of the column that local row `a` of the chunk from row `o` is. -/
theorem emb_rows_row {n m k : ℕ} (o : ℕ) (hok : o + k ≤ n)
    (inb : ∀ a, (![o, 0] : Fin 2 → ℕ) a + (![k, m] : Fin 2 → ℕ) a ≤ (⟨2, ![n, m]⟩ : Shape).size a)
    (a : Fin k) (q : Fin m) :
    ((Rect.unit (s := ⟨2, ![n, m]⟩) ![o, 0] ![k, m] inb).emb (ix2 a q) 0 : Fin n)
      = ⟨o + a.val, Nat.lt_of_lt_of_le (Nat.add_lt_add_left a.isLt o) hok⟩ :=
  Fin.ext (by show o + 1 * a.val = o + a.val; omega)

/-- `k` rows from row `o` lie inside `n` rows when `o + k ≤ n`. -/
theorem inb_rows {n m k o : ℕ} (h : o + k ≤ n) :
    ∀ a, (![o, 0] : Fin 2 → ℕ) a + (![k, m] : Fin 2 → ℕ) a ≤ (⟨2, ![n, m]⟩ : Shape).size a :=
  Rect.inb₂ (show o + k ≤ n from h) (show 0 + m ≤ m from Nat.le_of_eq (Nat.zero_add m))

/-! ## The two bounds of a row -/

/-- The lower bound of row `r`: `∑ S·u − ∑ S⁺·(u − l) + (C + b)`. -/
def lowerRow (S : FVec Ideal S512x4096 .f32) (C b : FVec Ideal S512x1 .f32) (l u : FVec Ideal S1x4096 .f32)
    (r : Fin 512) : EReal :=
  ((∑ q : Fin 4096, S (ix2 r q) * u (ix2 0 q)) - (∑ q : Fin 4096, max (S (ix2 r q)) 0 * (u (ix2 0 q) - l (ix2 0 q))))
    + (C (ix2 r 0) + b (ix2 r 0))

/-- The upper bound of row `r`: `∑ S·l + ∑ S⁺·(u − l) + (C + b)`. -/
def upperRow (S : FVec Ideal S512x4096 .f32) (C b : FVec Ideal S512x1 .f32) (l u : FVec Ideal S1x4096 .f32)
    (r : Fin 512) : EReal :=
  ((∑ q : Fin 4096, S (ix2 r q) * l (ix2 0 q)) + (∑ q : Fin 4096, max (S (ix2 r q)) 0 * (u (ix2 0 q) - l (ix2 0 q))))
    + (C (ix2 r 0) + b (ix2 r 0))

/-! ## Each chunk's payloads as the bounds of its rows

The three vectors a chunk loads — its rows of the slope block, of the intercept column and of the bias — enter
each payload only through their values at the local row: wherever those are the whole arrays' values at row
`r`, the payload at the local row is the bound of row `r`. -/

section RowForms

variable (S : FVec Ideal S512x4096 .f32) (C b : FVec Ideal S512x1 .f32) (l u : FVec Ideal S1x4096 .f32)
  (vS : Vec Ideal S128x4096 .f32) (vC vb : Vec Ideal S128x1 .f32) {r : Fin 512} (a : Fin 128)
  (hS : ∀ q : Fin 4096, vS (ix2 a q) = S (ix2 r q)) (hC : vC (ix2 a 0) = C (ix2 r 0)) (hb : vb (ix2 a 0) = b (ix2 r 0))

include hS hC hb

theorem lower_pay10 : k0_pay10 (F := Ideal) l u vS vC vb (ix2 a 0) = lowerRow S C b l u r := by
  rw [pay10_apply]; simp only [hS, hC, hb]; rfl

theorem upper_pay11 : k0_pay11 (F := Ideal) l u vS vC vb (ix2 a 0) = upperRow S C b l u r := by
  rw [pay11_apply]; simp only [hS, hC, hb]; rfl

theorem lower_pay14 : k0_pay14 (F := Ideal) u (k0_pay7 (F := Ideal) l u) vS vC vb (ix2 a 0) = lowerRow S C b l u r := by
  rw [pay14_apply]; simp only [pay7_apply, hS, hC, hb]; rfl

theorem upper_pay15 : k0_pay15 (F := Ideal) l (k0_pay7 (F := Ideal) l u) vS vC vb (ix2 a 0) = upperRow S C b l u r := by
  rw [pay15_apply]; simp only [pay7_apply, hS, hC, hb]; rfl

theorem lower_pay18 :
    k0_pay18 (F := Ideal) u vS (k0_pay16 (F := Ideal) (k0_pay7 (F := Ideal) l u) vS) vC vb (ix2 a 0)
      = lowerRow S C b l u r := by
  rw [pay18_apply]; simp only [pay16_apply, pay7_apply, hS, hC, hb]; rfl

theorem upper_pay19 :
    k0_pay19 (F := Ideal) l vS (k0_pay16 (F := Ideal) (k0_pay7 (F := Ideal) l u) vS) vC vb (ix2 a 0)
      = upperRow S C b l u r := by
  rw [pay19_apply]; simp only [pay16_apply, pay7_apply, hS, hC, hb]; rfl

theorem lower_pay5 :
    k0_pay5 (F := Ideal) (k0_pay21 (F := Ideal) vC vb) (k0_pay22 (F := Ideal) u (k0_pay7 (F := Ideal) l u) vS) (ix2 a 0)
      = lowerRow S C b l u r := by
  rw [pay5_apply, pay22_apply, pay21_apply]; simp only [pay20_apply, pay7_apply, hS, hC, hb]; rfl

theorem upper_pay6 :
    k0_pay6 (F := Ideal) l vS (k0_pay20 (F := Ideal) (k0_pay7 (F := Ideal) l u) vS) (k0_pay21 (F := Ideal) vC vb) (ix2 a 0)
      = upperRow S C b l u r := by
  rw [pay6_apply, pay21_apply]; simp only [pay20_apply, pay7_apply, hS, hC, hb]; rfl

end RowForms

/-! ## Each chunk's store writes its rows of the bound -/

section Chunks

variable {sig : RefSig} {κ : Kind} {sp : Space}
  (v10 : View sig κ sp S512x4096 .f32) (v11 : View sig κ sp S512x1 .f32)
  (S : FVec Ideal S512x4096 .f32) (C b : FVec Ideal S512x1 .f32) (l u : FVec Ideal S1x4096 .f32)
  (o : ℕ) (hok : o + 128 ≤ 512)

/-- The first chunk's lower store. -/
theorem chunk_pay10 (x : (⟨2, ![128, 1]⟩ : Shape).Idx) :
    k0_pay10 (F := Ideal) l u
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect)
        (v11.readCov (Val := Elt Ideal) [⟨(Rect.unit (s := S512x1) (![0, 0] : Fin 2 → ℕ) (![512, 1] : Fin 2 → ℕ) (inb_rows (Nat.le_refl 512))), C⟩] (Rect.unit (s := S512x1) (![o, 0] : Fin 2 → ℕ) (![128, 1] : Fin 2 → ℕ) (inb_rows hok)).toLoadRect)
        (View.ld b (Rect.unit (s := S512x1) (![o, 0] : Fin 2 → ℕ) (![128, 1] : Fin 2 → ℕ) (inb_rows hok))) x
      = lowerRow S C b l u ((Rect.unit (s := S512x1) (![o, 0] : Fin 2 → ℕ) (![128, 1] : Fin 2 → ℕ) (inb_rows hok)).emb x 0) := by
  obtain ⟨a, w, rfl⟩ : ∃ (a : Fin 128) (w : Fin 1), x = ix2 a w := ⟨x 0, x 1, eq_ix2 x⟩
  obtain rfl : w = 0 := Subsingleton.elim _ _
  have h1 := fun q : Fin 4096 =>
    readCov_rows_apply (Val := Elt Ideal) v10 S o hok (inb_rows (Nat.le_refl 512)) (inb_rows hok) a q
  have h2 := readCov_rows_apply (Val := Elt Ideal) v11 C o hok (inb_rows (Nat.le_refl 512)) (inb_rows hok) a 0
  have h3 := ld_rows_apply (Val := Elt Ideal) (e := .f32) b o hok (inb_rows hok) a 0
  have h4 := emb_rows_row (m := 1) o hok (inb_rows hok) a (0 : Fin 1)
  exact (lower_pay10 S C b l u _ _ _ a h1 h2 h3).trans (congrArg (lowerRow S C b l u) h4.symm)

/-- The first chunk's upper store. -/
theorem chunk_pay11 (x : (⟨2, ![128, 1]⟩ : Shape).Idx) :
    k0_pay11 (F := Ideal) l u
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect)
        (v11.readCov (Val := Elt Ideal) [⟨(Rect.unit (s := S512x1) (![0, 0] : Fin 2 → ℕ) (![512, 1] : Fin 2 → ℕ) (inb_rows (Nat.le_refl 512))), C⟩] (Rect.unit (s := S512x1) (![o, 0] : Fin 2 → ℕ) (![128, 1] : Fin 2 → ℕ) (inb_rows hok)).toLoadRect)
        (View.ld b (Rect.unit (s := S512x1) (![o, 0] : Fin 2 → ℕ) (![128, 1] : Fin 2 → ℕ) (inb_rows hok))) x
      = upperRow S C b l u ((Rect.unit (s := S512x1) (![o, 0] : Fin 2 → ℕ) (![128, 1] : Fin 2 → ℕ) (inb_rows hok)).emb x 0) := by
  obtain ⟨a, w, rfl⟩ : ∃ (a : Fin 128) (w : Fin 1), x = ix2 a w := ⟨x 0, x 1, eq_ix2 x⟩
  obtain rfl : w = 0 := Subsingleton.elim _ _
  have h1 := fun q : Fin 4096 =>
    readCov_rows_apply (Val := Elt Ideal) v10 S o hok (inb_rows (Nat.le_refl 512)) (inb_rows hok) a q
  have h2 := readCov_rows_apply (Val := Elt Ideal) v11 C o hok (inb_rows (Nat.le_refl 512)) (inb_rows hok) a 0
  have h3 := ld_rows_apply (Val := Elt Ideal) (e := .f32) b o hok (inb_rows hok) a 0
  have h4 := emb_rows_row (m := 1) o hok (inb_rows hok) a (0 : Fin 1)
  exact (upper_pay11 S C b l u _ _ _ a h1 h2 h3).trans (congrArg (upperRow S C b l u) h4.symm)

/-- The second chunk's lower store. -/
theorem chunk_pay14 (x : (⟨2, ![128, 1]⟩ : Shape).Idx) :
    k0_pay14 (F := Ideal) u (k0_pay7 (F := Ideal) l u)
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect)
        (v11.readCov (Val := Elt Ideal) [⟨(Rect.unit (s := S512x1) (![0, 0] : Fin 2 → ℕ) (![512, 1] : Fin 2 → ℕ) (inb_rows (Nat.le_refl 512))), C⟩] (Rect.unit (s := S512x1) (![o, 0] : Fin 2 → ℕ) (![128, 1] : Fin 2 → ℕ) (inb_rows hok)).toLoadRect)
        (View.ld b (Rect.unit (s := S512x1) (![o, 0] : Fin 2 → ℕ) (![128, 1] : Fin 2 → ℕ) (inb_rows hok))) x
      = lowerRow S C b l u ((Rect.unit (s := S512x1) (![o, 0] : Fin 2 → ℕ) (![128, 1] : Fin 2 → ℕ) (inb_rows hok)).emb x 0) := by
  obtain ⟨a, w, rfl⟩ : ∃ (a : Fin 128) (w : Fin 1), x = ix2 a w := ⟨x 0, x 1, eq_ix2 x⟩
  obtain rfl : w = 0 := Subsingleton.elim _ _
  have h1 := fun q : Fin 4096 =>
    readCov_rows_apply (Val := Elt Ideal) v10 S o hok (inb_rows (Nat.le_refl 512)) (inb_rows hok) a q
  have h2 := readCov_rows_apply (Val := Elt Ideal) v11 C o hok (inb_rows (Nat.le_refl 512)) (inb_rows hok) a 0
  have h3 := ld_rows_apply (Val := Elt Ideal) (e := .f32) b o hok (inb_rows hok) a 0
  have h4 := emb_rows_row (m := 1) o hok (inb_rows hok) a (0 : Fin 1)
  exact (lower_pay14 S C b l u _ _ _ a h1 h2 h3).trans (congrArg (lowerRow S C b l u) h4.symm)

/-- The second chunk's upper store. -/
theorem chunk_pay15 (x : (⟨2, ![128, 1]⟩ : Shape).Idx) :
    k0_pay15 (F := Ideal) l (k0_pay7 (F := Ideal) l u)
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect)
        (v11.readCov (Val := Elt Ideal) [⟨(Rect.unit (s := S512x1) (![0, 0] : Fin 2 → ℕ) (![512, 1] : Fin 2 → ℕ) (inb_rows (Nat.le_refl 512))), C⟩] (Rect.unit (s := S512x1) (![o, 0] : Fin 2 → ℕ) (![128, 1] : Fin 2 → ℕ) (inb_rows hok)).toLoadRect)
        (View.ld b (Rect.unit (s := S512x1) (![o, 0] : Fin 2 → ℕ) (![128, 1] : Fin 2 → ℕ) (inb_rows hok))) x
      = upperRow S C b l u ((Rect.unit (s := S512x1) (![o, 0] : Fin 2 → ℕ) (![128, 1] : Fin 2 → ℕ) (inb_rows hok)).emb x 0) := by
  obtain ⟨a, w, rfl⟩ : ∃ (a : Fin 128) (w : Fin 1), x = ix2 a w := ⟨x 0, x 1, eq_ix2 x⟩
  obtain rfl : w = 0 := Subsingleton.elim _ _
  have h1 := fun q : Fin 4096 =>
    readCov_rows_apply (Val := Elt Ideal) v10 S o hok (inb_rows (Nat.le_refl 512)) (inb_rows hok) a q
  have h2 := readCov_rows_apply (Val := Elt Ideal) v11 C o hok (inb_rows (Nat.le_refl 512)) (inb_rows hok) a 0
  have h3 := ld_rows_apply (Val := Elt Ideal) (e := .f32) b o hok (inb_rows hok) a 0
  have h4 := emb_rows_row (m := 1) o hok (inb_rows hok) a (0 : Fin 1)
  exact (upper_pay15 S C b l u _ _ _ a h1 h2 h3).trans (congrArg (upperRow S C b l u) h4.symm)

/-- The third chunk's lower store. -/
theorem chunk_pay18 (x : (⟨2, ![128, 1]⟩ : Shape).Idx) :
    k0_pay18 (F := Ideal) u
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect) (k0_pay16 (F := Ideal) (k0_pay7 (F := Ideal) l u)
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect))
        (v11.readCov (Val := Elt Ideal) [⟨(Rect.unit (s := S512x1) (![0, 0] : Fin 2 → ℕ) (![512, 1] : Fin 2 → ℕ) (inb_rows (Nat.le_refl 512))), C⟩] (Rect.unit (s := S512x1) (![o, 0] : Fin 2 → ℕ) (![128, 1] : Fin 2 → ℕ) (inb_rows hok)).toLoadRect)
        (View.ld b (Rect.unit (s := S512x1) (![o, 0] : Fin 2 → ℕ) (![128, 1] : Fin 2 → ℕ) (inb_rows hok))) x
      = lowerRow S C b l u ((Rect.unit (s := S512x1) (![o, 0] : Fin 2 → ℕ) (![128, 1] : Fin 2 → ℕ) (inb_rows hok)).emb x 0) := by
  obtain ⟨a, w, rfl⟩ : ∃ (a : Fin 128) (w : Fin 1), x = ix2 a w := ⟨x 0, x 1, eq_ix2 x⟩
  obtain rfl : w = 0 := Subsingleton.elim _ _
  have h1 := fun q : Fin 4096 =>
    readCov_rows_apply (Val := Elt Ideal) v10 S o hok (inb_rows (Nat.le_refl 512)) (inb_rows hok) a q
  have h2 := readCov_rows_apply (Val := Elt Ideal) v11 C o hok (inb_rows (Nat.le_refl 512)) (inb_rows hok) a 0
  have h3 := ld_rows_apply (Val := Elt Ideal) (e := .f32) b o hok (inb_rows hok) a 0
  have h4 := emb_rows_row (m := 1) o hok (inb_rows hok) a (0 : Fin 1)
  exact (lower_pay18 S C b l u _ _ _ a h1 h2 h3).trans (congrArg (lowerRow S C b l u) h4.symm)

/-- The third chunk's upper store. -/
theorem chunk_pay19 (x : (⟨2, ![128, 1]⟩ : Shape).Idx) :
    k0_pay19 (F := Ideal) l
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect) (k0_pay16 (F := Ideal) (k0_pay7 (F := Ideal) l u)
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect))
        (v11.readCov (Val := Elt Ideal) [⟨(Rect.unit (s := S512x1) (![0, 0] : Fin 2 → ℕ) (![512, 1] : Fin 2 → ℕ) (inb_rows (Nat.le_refl 512))), C⟩] (Rect.unit (s := S512x1) (![o, 0] : Fin 2 → ℕ) (![128, 1] : Fin 2 → ℕ) (inb_rows hok)).toLoadRect)
        (View.ld b (Rect.unit (s := S512x1) (![o, 0] : Fin 2 → ℕ) (![128, 1] : Fin 2 → ℕ) (inb_rows hok))) x
      = upperRow S C b l u ((Rect.unit (s := S512x1) (![o, 0] : Fin 2 → ℕ) (![128, 1] : Fin 2 → ℕ) (inb_rows hok)).emb x 0) := by
  obtain ⟨a, w, rfl⟩ : ∃ (a : Fin 128) (w : Fin 1), x = ix2 a w := ⟨x 0, x 1, eq_ix2 x⟩
  obtain rfl : w = 0 := Subsingleton.elim _ _
  have h1 := fun q : Fin 4096 =>
    readCov_rows_apply (Val := Elt Ideal) v10 S o hok (inb_rows (Nat.le_refl 512)) (inb_rows hok) a q
  have h2 := readCov_rows_apply (Val := Elt Ideal) v11 C o hok (inb_rows (Nat.le_refl 512)) (inb_rows hok) a 0
  have h3 := ld_rows_apply (Val := Elt Ideal) (e := .f32) b o hok (inb_rows hok) a 0
  have h4 := emb_rows_row (m := 1) o hok (inb_rows hok) a (0 : Fin 1)
  exact (upper_pay19 S C b l u _ _ _ a h1 h2 h3).trans (congrArg (upperRow S C b l u) h4.symm)

/-- The last chunk's lower store. -/
theorem chunk_pay5 (x : (⟨2, ![128, 1]⟩ : Shape).Idx) :
    k0_pay5 (F := Ideal) (k0_pay21 (F := Ideal)
        (v11.readCov (Val := Elt Ideal) [⟨(Rect.unit (s := S512x1) (![0, 0] : Fin 2 → ℕ) (![512, 1] : Fin 2 → ℕ) (inb_rows (Nat.le_refl 512))), C⟩] (Rect.unit (s := S512x1) (![o, 0] : Fin 2 → ℕ) (![128, 1] : Fin 2 → ℕ) (inb_rows hok)).toLoadRect)
        (View.ld b (Rect.unit (s := S512x1) (![o, 0] : Fin 2 → ℕ) (![128, 1] : Fin 2 → ℕ) (inb_rows hok)))) (k0_pay22 (F := Ideal) u (k0_pay7 (F := Ideal) l u)
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect)) x
      = lowerRow S C b l u ((Rect.unit (s := S512x1) (![o, 0] : Fin 2 → ℕ) (![128, 1] : Fin 2 → ℕ) (inb_rows hok)).emb x 0) := by
  obtain ⟨a, w, rfl⟩ : ∃ (a : Fin 128) (w : Fin 1), x = ix2 a w := ⟨x 0, x 1, eq_ix2 x⟩
  obtain rfl : w = 0 := Subsingleton.elim _ _
  have h1 := fun q : Fin 4096 =>
    readCov_rows_apply (Val := Elt Ideal) v10 S o hok (inb_rows (Nat.le_refl 512)) (inb_rows hok) a q
  have h2 := readCov_rows_apply (Val := Elt Ideal) v11 C o hok (inb_rows (Nat.le_refl 512)) (inb_rows hok) a 0
  have h3 := ld_rows_apply (Val := Elt Ideal) (e := .f32) b o hok (inb_rows hok) a 0
  have h4 := emb_rows_row (m := 1) o hok (inb_rows hok) a (0 : Fin 1)
  exact (lower_pay5 S C b l u _ _ _ a h1 h2 h3).trans (congrArg (lowerRow S C b l u) h4.symm)

/-- The last chunk's upper store. -/
theorem chunk_pay6 (x : (⟨2, ![128, 1]⟩ : Shape).Idx) :
    k0_pay6 (F := Ideal) l
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect) (k0_pay20 (F := Ideal) (k0_pay7 (F := Ideal) l u)
        (v10.readCov (Val := Elt Ideal) [⟨(Rect.unit (s := S512x4096) (![0, 0] : Fin 2 → ℕ) (![512, 4096] : Fin 2 → ℕ) (inb_rows (Nat.le_refl 512))), S⟩] (Rect.unit (s := S512x4096) (![o, 0] : Fin 2 → ℕ) (![128, 4096] : Fin 2 → ℕ) (inb_rows hok)).toLoadRect)) (k0_pay21 (F := Ideal)
        (v11.readCov (Val := Elt Ideal) [⟨(Rect.unit (s := S512x1) (![0, 0] : Fin 2 → ℕ) (![512, 1] : Fin 2 → ℕ) (inb_rows (Nat.le_refl 512))), C⟩] (Rect.unit (s := S512x1) (![o, 0] : Fin 2 → ℕ) (![128, 1] : Fin 2 → ℕ) (inb_rows hok)).toLoadRect)
        (View.ld b (Rect.unit (s := S512x1) (![o, 0] : Fin 2 → ℕ) (![128, 1] : Fin 2 → ℕ) (inb_rows hok)))) x
      = upperRow S C b l u ((Rect.unit (s := S512x1) (![o, 0] : Fin 2 → ℕ) (![128, 1] : Fin 2 → ℕ) (inb_rows hok)).emb x 0) := by
  obtain ⟨a, w, rfl⟩ : ∃ (a : Fin 128) (w : Fin 1), x = ix2 a w := ⟨x 0, x 1, eq_ix2 x⟩
  obtain rfl : w = 0 := Subsingleton.elim _ _
  have h1 := fun q : Fin 4096 =>
    readCov_rows_apply (Val := Elt Ideal) v10 S o hok (inb_rows (Nat.le_refl 512)) (inb_rows hok) a q
  have h2 := readCov_rows_apply (Val := Elt Ideal) v11 C o hok (inb_rows (Nat.le_refl 512)) (inb_rows hok) a 0
  have h3 := ld_rows_apply (Val := Elt Ideal) (e := .f32) b o hok (inb_rows hok) a 0
  have h4 := emb_rows_row (m := 1) o hok (inb_rows hok) a (0 : Fin 1)
  exact (upper_pay6 S C b l u _ _ _ a h1 h2 h3).trans (congrArg (upperRow S C b l u) h4.symm)

end Chunks

/-! ## The two output columns at a last-step point -/

/-- The first output column: each row's lower bound, from the two accumulators as this point's update leaves them. -/
theorem leftC_out6_apply (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec Ideal S512x512 .f32) (x1 : Vec Ideal S512x4096 .f32) (x2 : Vec Ideal S1x512 .f32) (x3 : Vec Ideal S512x1 .f32) (x4 x5 : Vec Ideal S1x4096 .f32) (xs0 : Vec Ideal S512x4096 .f32) (xs1 : Vec Ideal S512x1 .f32) (a' : Fin 512) :
    leftC_out6 (F := Ideal) c i arg2 harg2 arg3 harg3 arg4 harg4 arg5 harg5 arg6 harg6 arg7 harg7 arg8 harg8 arg9 harg9 arg10 harg10 arg11 harg11 hc1 hc2 x0 x1 x2 x3 x4 x5 xs0 xs1 (ix2 a' 0)
      = ((∑ q : Fin 4096, k0_pay3 x0 x1 xs0 (ix2 a' q) * x5 (ix2 0 q)) - (∑ q : Fin 4096, max (k0_pay3 x0 x1 xs0 (ix2 a' q)) 0 * (x5 (ix2 0 q) - x4 (ix2 0 q))))
        + (k0_pay4 x0 x2 xs1 (ix2 a' 0) + x3 (ix2 a' 0)) := by
  unfold leftC_out6
  rw [View.read_writes_eq_canon _ _ _ (coverC_out6 c i arg2 harg2 arg3 harg3 arg4 harg4 arg5 harg5 arg6 harg6 arg7 harg7 arg8 harg8 arg9 harg9 arg10 harg10 arg11 harg11 hc1 hc2 x0 x1 x2 x3 x4 x5 xs0 xs1)]
  refine (View.canon_apply_of_pieces
    (fun y : S512x1.Idx => lowerRow (k0_pay3 x0 x1 xs0) (k0_pay4 x0 x2 xs1) x3 x4 x5 (y 0)) _ ?_ (ix2 a' 0)
    (coverC_out6 c i arg2 harg2 arg3 harg3 arg4 harg4 arg5 harg5 arg6 harg6 arg7 harg7 arg8 harg8 arg9 harg9 arg10 harg10 arg11 harg11 hc1 hc2 x0 x1 x2 x3 x4 x5 xs0 xs1 (ix2 a' 0))).trans rfl
  unfold bodyRunC
  dsimp only
  sl_unfold_words
  simp only [View.readAt_eq_ld, harg2.read_unread, harg3.read_unread, harg4.read_unread, harg5.read_unread, harg6.read_unread, harg7.read_unread, harg10.read_unread, harg11.read_unread, View.ld_unit_zero (S := S512x512) hz2, View.ld_unit_zero (S := S512x4096) hz2, View.ld_unit_zero (S := S1x512) hz2, View.ld_unit_zero (S := S1x4096) hz2, View.ld_unit_zero (S := S512x1) hz2]
  intro p hp x
  simp only [List.mem_cons, List.mem_singleton, List.not_mem_nil, or_false] at hp
  rcases hp with rfl | rfl | rfl | rfl
  · exact chunk_pay5 arg10.view arg11.view _ _ x3 x4 x5 384 (by omega) x
  · exact chunk_pay18 arg10.view arg11.view _ _ x3 x4 x5 256 (by omega) x
  · exact chunk_pay14 arg10.view arg11.view _ _ x3 x4 x5 128 (by omega) x
  · exact chunk_pay10 arg10.view arg11.view _ _ x3 x4 x5 0 (by omega) x

/-- The second output column: each row's upper bound. -/
theorem leftC_out7_apply (c : Dev nD) (i : grid0.Coords) (arg2 : Memref sig .tc .vmem S512x512 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x4096 .f32) (harg10 : arg10.IsWhole) (arg11 : Memref sig .tc .vmem S512x1 .f32) (harg11 : arg11.IsWhole) (hc1 : ¬first0 i) (hc2 : last0 i)
    (x0 : Vec Ideal S512x512 .f32) (x1 : Vec Ideal S512x4096 .f32) (x2 : Vec Ideal S1x512 .f32) (x3 : Vec Ideal S512x1 .f32) (x4 x5 : Vec Ideal S1x4096 .f32) (xs0 : Vec Ideal S512x4096 .f32) (xs1 : Vec Ideal S512x1 .f32) (a' : Fin 512) :
    leftC_out7 (F := Ideal) c i arg2 harg2 arg3 harg3 arg4 harg4 arg5 harg5 arg6 harg6 arg7 harg7 arg8 harg8 arg9 harg9 arg10 harg10 arg11 harg11 hc1 hc2 x0 x1 x2 x3 x4 x5 xs0 xs1 (ix2 a' 0)
      = ((∑ q : Fin 4096, k0_pay3 x0 x1 xs0 (ix2 a' q) * x4 (ix2 0 q)) + (∑ q : Fin 4096, max (k0_pay3 x0 x1 xs0 (ix2 a' q)) 0 * (x5 (ix2 0 q) - x4 (ix2 0 q))))
        + (k0_pay4 x0 x2 xs1 (ix2 a' 0) + x3 (ix2 a' 0)) := by
  unfold leftC_out7
  rw [View.read_writes_eq_canon _ _ _ (coverC_out7 c i arg2 harg2 arg3 harg3 arg4 harg4 arg5 harg5 arg6 harg6 arg7 harg7 arg8 harg8 arg9 harg9 arg10 harg10 arg11 harg11 hc1 hc2 x0 x1 x2 x3 x4 x5 xs0 xs1)]
  refine (View.canon_apply_of_pieces
    (fun y : S512x1.Idx => upperRow (k0_pay3 x0 x1 xs0) (k0_pay4 x0 x2 xs1) x3 x4 x5 (y 0)) _ ?_ (ix2 a' 0)
    (coverC_out7 c i arg2 harg2 arg3 harg3 arg4 harg4 arg5 harg5 arg6 harg6 arg7 harg7 arg8 harg8 arg9 harg9 arg10 harg10 arg11 harg11 hc1 hc2 x0 x1 x2 x3 x4 x5 xs0 xs1 (ix2 a' 0))).trans rfl
  unfold bodyRunC
  dsimp only
  sl_unfold_words
  simp only [View.readAt_eq_ld, harg2.read_unread, harg3.read_unread, harg4.read_unread, harg5.read_unread, harg6.read_unread, harg7.read_unread, harg10.read_unread, harg11.read_unread, View.ld_unit_zero (S := S512x512) hz2, View.ld_unit_zero (S := S512x4096) hz2, View.ld_unit_zero (S := S1x512) hz2, View.ld_unit_zero (S := S1x4096) hz2, View.ld_unit_zero (S := S512x1) hz2]
  intro p hp x
  simp only [List.mem_cons, List.mem_singleton, List.not_mem_nil, or_false] at hp
  rcases hp with rfl | rfl | rfl | rfl
  · exact chunk_pay6 arg10.view arg11.view _ _ x3 x4 x5 384 (by omega) x
  · exact chunk_pay19 arg10.view arg11.view _ _ x3 x4 x5 256 (by omega) x
  · exact chunk_pay15 arg10.view arg11.view _ _ x3 x4 x5 128 (by omega) x
  · exact chunk_pay11 arg10.view arg11.view _ _ x3 x4 x5 0 (by omega) x

end Cert.KernelIdeal.Hand
-- ==== Proof.KI.Low0.lean ====
import proofs.«165992_j40183714021526_2_alg».proof.Proof.KI.Acc0
import proofs.«165992_j40183714021526_2_alg».proof.Proof.KI.Final0
import proofs.«165992_j40183714021526_2_alg».proof.Proof.KI.Out0
import proofs.«165992_j40183714021526_2_alg».proof.Proof.KI.Segs
import proofs.«165992_j40183714021526_2_alg».proof.Proof.Results
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Finset DeepPoly DeepPoly.Relax

/-! # The first kernel's two result columns are the pre-activation bounds

At a `k = 7` point the slope accumulator holds a full row block of `W2 · W1` and the intercept accumulator the matching
entries of `W2 · b1`; the body's four chunks of 128 rows turn each row into
`∑ S·ub0 − ∑ max(S,0)·(ub0 − lb0) + (c + b2)` and `∑ S·lb0 + ∑ max(S,0)·(ub0 − lb0) + (c + b2)`; the eight write-backs
tile the two columns. -/

section
variable (V : (c : Dev nD) → (b : Ref sig .tc) → Buf (Elt Ideal) ((c : Thread nD τ).loc b))

theorem full_slope (c : Dev nD) (r : Fin 4096) (q : Fin 4096) :
    (∑ j ∈ range (8 * 512), w2 V c r.val j * w1 V c j q.val)
      = prodK (mat (F := Ideal) (V c main_arg2)) (mat (F := Ideal) (V c main_arg4)) r q := by
  rw [show 8 * 512 = 4096 from rfl, Finset.sum_range]
  refine Finset.sum_congr rfl fun k _ => ?_
  rw [w2, w1, dif_pos ⟨r.isLt, k.isLt⟩, dif_pos ⟨k.isLt, q.isLt⟩]
  rfl

theorem full_bias (c : Dev nD) (r : Fin 4096) :
    (∑ j ∈ range (8 * 512), w2 V c r.val j * bias1 V c j)
      = ∑ k : Fin 4096, mat (F := Ideal) (V c main_arg4) r k * row (F := Ideal) (V c main_arg3) k := by
  rw [show 8 * 512 = 4096 from rfl, Finset.sum_range]
  refine Finset.sum_congr rfl fun k _ => ?_
  rw [w2, bias1, dif_pos ⟨r.isLt, k.isLt⟩, dif_pos k.isLt]
  rfl

/-! ## What a `k = 7` point stores into the two outputs, row by row -/

set_option maxHeartbeats 4000000 in
theorem low_at (c : Dev nD) (t : Fin cfg0.N) (h7 : t.val % 8 = 7) (a : Fin 512) (j : S4096x1.Idx)
    (hj : (j 0).val = 512 * (t.val / 8) + a.val) :
    (outsAt0 V c t.val t.isLt).1 (ix2 a 0)
      = lowK (row (F := Ideal) (V c main_arg0)) (row (F := Ideal) (V c main_arg1)) (mat (F := Ideal) (V c main_arg2)) (row (F := Ideal) (V c main_arg3)) (mat (F := Ideal) (V c main_arg4))
          (fun r => (V c main_v0 : S4096x1.Idx → EReal) (ix2 r 0)) (j 0) := by
  have h1 : ¬t.val % 8 = 0 := by omega
  have hc1 : ¬first0 (grid0.coords t) := fun h => h1 ((hfirst0 t).mp h)
  have hc2 : last0 (grid0.coords t) := (hlast0 t).mpr h7
  have e := outsAt0_C V c t h1 h7
  generalize (outsAt0 V c (t.val - 1) (Nat.lt_of_le_of_lt (Nat.sub_le _ _) t.isLt)).2.2.1 = pS at e
  generalize (outsAt0 V c (t.val - 1) (Nat.lt_of_le_of_lt (Nat.sub_le _ _) t.isLt)).2.2.2 = pC at e
  have e1 : (outsAt0 V c t.val t.isLt).1 = leftC_out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) hc1 hc2 (iblk0 V c 0 t) (iblk0 V c 1 t) (iblk0 V c 2 t) (iblk0 V c 3 t) (iblk0 V c 4 t) (iblk0 V c 5 t) pS pC := by rw [e]
  have eS : (outsAt0 V c t.val t.isLt).2.2.1 = leftC_accS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) hc1 hc2 (iblk0 V c 0 t) (iblk0 V c 1 t) (iblk0 V c 2 t) (iblk0 V c 3 t) (iblk0 V c 4 t) (iblk0 V c 5 t) pS pC := by rw [e]
  have eC : (outsAt0 V c t.val t.isLt).2.2.2 = leftC_accC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) hc1 hc2 (iblk0 V c 0 t) (iblk0 V c 1 t) (iblk0 V c 2 t) (iblk0 V c 3 t) (iblk0 V c 4 t) (iblk0 V c 5 t) pS pC := by rw [e]
  rw [leftC_accS_eq] at eS
  rw [leftC_accC_eq] at eC
  have hS : ∀ q : Fin 4096, k0_pay3 (tW2 V c t) (tW1 V c t) pS (ix2 a q) = prodK (mat (F := Ideal) (V c main_arg2)) (mat (F := Ideal) (V c main_arg4)) (j 0) q := fun q => by
    have hr : (⟨512 * (t.val / 8) + a.val, by rw [← hj]; exact idx2_lt0 j⟩ : Fin 4096) = j 0 := Fin.ext hj.symm
    rw [← hr, ← full_slope V c]
    refine (congrFun eS.symm (ix2 a q)).trans ((accS_eq V c t.val t.isLt a q).trans ?_)
    rw [h7]
  have hC : k0_pay4 (tW2 V c t) (tB1 V c t) pC (ix2 a 0) = ∑ k : Fin 4096, mat (F := Ideal) (V c main_arg4) (j 0) k * row (F := Ideal) (V c main_arg3) k := by
    have hr : (⟨512 * (t.val / 8) + a.val, by rw [← hj]; exact idx2_lt0 j⟩ : Fin 4096) = j 0 := Fin.ext hj.symm
    rw [← hr, ← full_bias V c]
    refine (congrFun eC.symm (ix2 a 0)).trans ((accC_eq V c t.val t.isLt a).trans ?_)
    rw [h7]
  rw [e1, leftC_out6_apply]
  show ((∑ q : Fin 4096, k0_pay3 (tW2 V c t) (tW1 V c t) pS (ix2 a q) * _) - (∑ q : Fin 4096, max (k0_pay3 (tW2 V c t) (tW1 V c t) pS (ix2 a q)) 0 * _)) + (k0_pay4 (tW2 V c t) (tB1 V c t) pC (ix2 a 0) + _) = _
  have hx5 : ∀ q : Fin 4096, (iblk0 V c 5 t : Vec Ideal S1x4096 .f32) (ix2 0 q) = row (F := Ideal) (V c main_arg1) q := fun q => blk5_apply V c t q
  have hx4 : ∀ q : Fin 4096, (iblk0 V c 4 t : Vec Ideal S1x4096 .f32) (ix2 0 q) = row (F := Ideal) (V c main_arg0) q := fun q => blk4_apply V c t q
  have hx3 : (iblk0 V c 3 t : Vec Ideal S512x1 .f32) (ix2 a 0) = (V c main_v0 : S4096x1.Idx → EReal) (ix2 (j 0) 0) :=
    blk3_apply V c t a (ix2 (j 0) 0) hj
  simp only [hS, hC, hx5, hx4, hx3]
  rfl

set_option maxHeartbeats 4000000 in
theorem upp_at (c : Dev nD) (t : Fin cfg0.N) (h7 : t.val % 8 = 7) (a : Fin 512) (j : S4096x1.Idx)
    (hj : (j 0).val = 512 * (t.val / 8) + a.val) :
    (outsAt0 V c t.val t.isLt).2.1 (ix2 a 0)
      = uppK (row (F := Ideal) (V c main_arg0)) (row (F := Ideal) (V c main_arg1)) (mat (F := Ideal) (V c main_arg2)) (row (F := Ideal) (V c main_arg3)) (mat (F := Ideal) (V c main_arg4))
          (fun r => (V c main_v0 : S4096x1.Idx → EReal) (ix2 r 0)) (j 0) := by
  have h1 : ¬t.val % 8 = 0 := by omega
  have hc1 : ¬first0 (grid0.coords t) := fun h => h1 ((hfirst0 t).mp h)
  have hc2 : last0 (grid0.coords t) := (hlast0 t).mpr h7
  have e := outsAt0_C V c t h1 h7
  generalize (outsAt0 V c (t.val - 1) (Nat.lt_of_le_of_lt (Nat.sub_le _ _) t.isLt)).2.2.1 = pS at e
  generalize (outsAt0 V c (t.val - 1) (Nat.lt_of_le_of_lt (Nat.sub_le _ _) t.isLt)).2.2.2 = pC at e
  have e1 : (outsAt0 V c t.val t.isLt).2.1 = leftC_out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) hc1 hc2 (iblk0 V c 0 t) (iblk0 V c 1 t) (iblk0 V c 2 t) (iblk0 V c 3 t) (iblk0 V c 4 t) (iblk0 V c 5 t) pS pC := by rw [e]
  have eS : (outsAt0 V c t.val t.isLt).2.2.1 = leftC_accS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) hc1 hc2 (iblk0 V c 0 t) (iblk0 V c 1 t) (iblk0 V c 2 t) (iblk0 V c 3 t) (iblk0 V c 4 t) (iblk0 V c 5 t) pS pC := by rw [e]
  have eC : (outsAt0 V c t.val t.isLt).2.2.2 = leftC_accC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accS (Memref.isWhole_whole _) accC (Memref.isWhole_whole _) hc1 hc2 (iblk0 V c 0 t) (iblk0 V c 1 t) (iblk0 V c 2 t) (iblk0 V c 3 t) (iblk0 V c 4 t) (iblk0 V c 5 t) pS pC := by rw [e]
  rw [leftC_accS_eq] at eS
  rw [leftC_accC_eq] at eC
  have hS : ∀ q : Fin 4096, k0_pay3 (tW2 V c t) (tW1 V c t) pS (ix2 a q) = prodK (mat (F := Ideal) (V c main_arg2)) (mat (F := Ideal) (V c main_arg4)) (j 0) q := fun q => by
    have hr : (⟨512 * (t.val / 8) + a.val, by rw [← hj]; exact idx2_lt0 j⟩ : Fin 4096) = j 0 := Fin.ext hj.symm
    rw [← hr, ← full_slope V c]
    refine (congrFun eS.symm (ix2 a q)).trans ((accS_eq V c t.val t.isLt a q).trans ?_)
    rw [h7]
  have hC : k0_pay4 (tW2 V c t) (tB1 V c t) pC (ix2 a 0) = ∑ k : Fin 4096, mat (F := Ideal) (V c main_arg4) (j 0) k * row (F := Ideal) (V c main_arg3) k := by
    have hr : (⟨512 * (t.val / 8) + a.val, by rw [← hj]; exact idx2_lt0 j⟩ : Fin 4096) = j 0 := Fin.ext hj.symm
    rw [← hr, ← full_bias V c]
    refine (congrFun eC.symm (ix2 a 0)).trans ((accC_eq V c t.val t.isLt a).trans ?_)
    rw [h7]
  rw [e1, leftC_out7_apply]
  show ((∑ q : Fin 4096, k0_pay3 (tW2 V c t) (tW1 V c t) pS (ix2 a q) * _) + (∑ q : Fin 4096, max (k0_pay3 (tW2 V c t) (tW1 V c t) pS (ix2 a q)) 0 * _)) + (k0_pay4 (tW2 V c t) (tB1 V c t) pC (ix2 a 0) + _) = _
  have hx5 : ∀ q : Fin 4096, (iblk0 V c 5 t : Vec Ideal S1x4096 .f32) (ix2 0 q) = row (F := Ideal) (V c main_arg1) q := fun q => blk5_apply V c t q
  have hx4 : ∀ q : Fin 4096, (iblk0 V c 4 t : Vec Ideal S1x4096 .f32) (ix2 0 q) = row (F := Ideal) (V c main_arg0) q := fun q => blk4_apply V c t q
  have hx3 : (iblk0 V c 3 t : Vec Ideal S512x1 .f32) (ix2 a 0) = (V c main_v0 : S4096x1.Idx → EReal) (ix2 (j 0) 0) :=
    blk3_apply V c t a (ix2 (j 0) 0) hj
  simp only [hS, hC, hx5, hx4, hx3]
  rfl

theorem low_col (c : Dev nD) : (dat0 V c).arrAt 6 cfg0.N = fun i : S4096x1.Idx =>
    lowK (row (F := Ideal) (V c main_arg0)) (row (F := Ideal) (V c main_arg1)) (mat (F := Ideal) (V c main_arg2)) (row (F := Ideal) (V c main_arg3)) (mat (F := Ideal) (V c main_arg4))
      (fun r => (V c main_v0 : S4096x1.Idx → EReal) (ix2 r 0)) (i 0) :=
  final6 V c _ fun t h7 a j hj => low_at V c t h7 a j hj

theorem upp_col (c : Dev nD) : (dat0 V c).arrAt 7 cfg0.N = fun i : S4096x1.Idx =>
    uppK (row (F := Ideal) (V c main_arg0)) (row (F := Ideal) (V c main_arg1)) (mat (F := Ideal) (V c main_arg2)) (row (F := Ideal) (V c main_arg3)) (mat (F := Ideal) (V c main_arg4))
      (fun r => (V c main_v0 : S4096x1.Idx → EReal) (ix2 r 0)) (i 0) :=
  final7 V c _ fun t h7 a j hj => upp_at V c t h7 a j hj

end

/-! ## At the first kernel's entry the arrays are the arguments, the second bias a column -/

variable (m : (ℓ : Loc nD τ sig) → Buf (Elt Ideal) ℓ)

theorem V1_arg (c : Dev nD) (r : Ref sig .tc) (h : r ∉ hostOps0_W) : V1 m c r = m ((c : Thread nD τ).loc r) :=
  W1_of m c r h

/-- The one host operation before the first kernel lays the second bias out as a column. -/
theorem V1_v0 (c : Dev nD) (r : Fin 4096) :
    (V1 m c main_v0 : S4096x1.Idx → EReal) (ix2 r 0) = (m ((c : Thread nD τ).loc main_arg5) : S1x4096.Idx → EReal) (ix2 0 r) := by
  have e : (V1 m c main_v0 : S4096x1.Idx → EReal)
      = shapeCast S4096x1 (m ((c : Thread nD τ).loc main_arg5) : S1x4096.Idx → EReal) shapeCasts_S1x4096_S4096x1 := by
    dsimp only [V1, W1, W0, hostOps0]; after_results; rfl
  rw [e, shapeCast_apply _ _ _ (ix2 0 r) (by decide +revert)]

theorem low_final (c : Dev nD) : (dat0 (V1 m) c).arrAt 6 cfg0.N = fun i : S4096x1.Idx =>
    lowKof (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) := by
  rw [low_col (V1 m) c]
  funext i
  unfold lowKof
  rw [V1_arg m c main_arg0 (by decide), V1_arg m c main_arg1 (by decide), V1_arg m c main_arg2 (by decide),
    V1_arg m c main_arg3 (by decide), V1_arg m c main_arg4 (by decide)]
  congr 1
  funext r
  exact V1_v0 m c r

theorem upp_final (c : Dev nD) : (dat0 (V1 m) c).arrAt 7 cfg0.N = fun i : S4096x1.Idx =>
    uppKof (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) := by
  rw [upp_col (V1 m) c]
  funext i
  unfold uppKof
  rw [V1_arg m c main_arg0 (by decide), V1_arg m c main_arg1 (by decide), V1_arg m c main_arg2 (by decide),
    V1_arg m c main_arg3 (by decide), V1_arg m c main_arg4 (by decide)]
  congr 1
  funext r
  exact V1_v0 m c r

end Cert.KernelIdeal.Hand

end
-- ==== Proof.FiniteInputs.lean ====
/-
  Finiteness of the inputs from the precondition.

  The precondition computes, for each float argument, `all (|x| < +∞)` and the conjunction of these, and states
  that the result is true.  A conjunction of bits is `1` only if each is; a reduction by `and` over all axes that
  is `1` had a `1` at every entry; and at the exact instance `|x| = max x (−x) < +∞` says that `x` is neither
  `+∞` nor `−∞`: the bit pattern `0x7F800000` denotes `+∞`, and `max (+∞) (−∞) = max (−∞) (+∞) = +∞`.
-/
import proofs.«165992_j40183714021526_2_alg».proof.Defs
import proofs.«165992_j40183714021526_2_alg».proof.Proof.Gen.Pre_finite_inputs
import Idealize.ShloMosaic.Lib.ReduceAll
import Idealize.ShloMosaic.Lib.ValueIdx

set_option maxRecDepth 16384

noncomputable section

namespace Cert.Hand

open Idealize.ShloMosaic Idealize.ShloMosaic.TcCoe Idealize.SL.Sem

/-- The scalar shape has one index. -/
instance : Subsingleton Cert.Pre_finite_inputs.S_.Idx := ⟨fun a b => funext fun d => d.elim0⟩

/-- The single-precision pattern `0x7F800000` denotes `+∞`. -/
theorem ofBits_inf : Ideal.ofBits .f32 0x7F800000#32 = (⊤ : EReal) := by
  simp [Ideal.ofBits, Ideal.ieee]

/-- An extended real whose absolute value is below `+∞` is neither infinity. -/
theorem finite_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  have h' : max x (-x) < (⊤ : EReal) := by
    have e : BitVec.ofBool (decide (max x (-x) < Ideal.ofBits .f32 0x7F800000#32)) = 1#1 := h
    rw [ofBits_inf] at e
    by_contra hn
    rw [decide_eq_false hn] at e
    exact absurd e (by decide)
  constructor
  · rintro rfl; simp at h'
  · rintro rfl; simp at h'

/-- Under the precondition every entry of the first six argument arrays is a real number, on every device. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S1x4096.Idx, m ((c.tc : Thread Cert.KernelIdeal.nD Cert.KernelIdeal.τ).loc Cert.KernelIdeal.main_arg0) i ≠ (⊤ : EReal)
        ∧ m ((c.tc : Thread Cert.KernelIdeal.nD Cert.KernelIdeal.τ).loc Cert.KernelIdeal.main_arg0) i ≠ (⊥ : EReal))
    ∧ (∀ i : Cert.Pre_finite_inputs.S1x4096.Idx, m ((c.tc : Thread Cert.KernelIdeal.nD Cert.KernelIdeal.τ).loc Cert.KernelIdeal.main_arg1) i ≠ (⊤ : EReal)
        ∧ m ((c.tc : Thread Cert.KernelIdeal.nD Cert.KernelIdeal.τ).loc Cert.KernelIdeal.main_arg1) i ≠ (⊥ : EReal))
    ∧ (∀ i : Cert.Pre_finite_inputs.S4096x4096.Idx, m ((c.tc : Thread Cert.KernelIdeal.nD Cert.KernelIdeal.τ).loc Cert.KernelIdeal.main_arg2) i ≠ (⊤ : EReal)
        ∧ m ((c.tc : Thread Cert.KernelIdeal.nD Cert.KernelIdeal.τ).loc Cert.KernelIdeal.main_arg2) i ≠ (⊥ : EReal))
    ∧ (∀ i : Cert.Pre_finite_inputs.S1x4096.Idx, m ((c.tc : Thread Cert.KernelIdeal.nD Cert.KernelIdeal.τ).loc Cert.KernelIdeal.main_arg3) i ≠ (⊤ : EReal)
        ∧ m ((c.tc : Thread Cert.KernelIdeal.nD Cert.KernelIdeal.τ).loc Cert.KernelIdeal.main_arg3) i ≠ (⊥ : EReal))
    ∧ (∀ i : Cert.Pre_finite_inputs.S4096x4096.Idx, m ((c.tc : Thread Cert.KernelIdeal.nD Cert.KernelIdeal.τ).loc Cert.KernelIdeal.main_arg4) i ≠ (⊤ : EReal)
        ∧ m ((c.tc : Thread Cert.KernelIdeal.nD Cert.KernelIdeal.τ).loc Cert.KernelIdeal.main_arg4) i ≠ (⊥ : EReal))
    ∧ (∀ i : Cert.Pre_finite_inputs.S1x4096.Idx, m ((c.tc : Thread Cert.KernelIdeal.nD Cert.KernelIdeal.τ).loc Cert.KernelIdeal.main_arg5) i ≠ (⊤ : EReal)
        ∧ m ((c.tc : Thread Cert.KernelIdeal.nD Cert.KernelIdeal.τ).loc Cert.KernelIdeal.main_arg5) i ≠ (⊥ : EReal)) := by
  have e := congrFun (h c) ValueIdx.ix0
  dsimp only [Cert.Pre_finite_inputs.fn, Cert.Pre_finite_inputs.fn_part1] at e
  simp only [andi, IntOp.andi_eq_one] at e
  obtain ⟨⟨⟨⟨⟨⟨h0, h1⟩, h2⟩, h3⟩, h4⟩, h5⟩, -⟩ := e
  exact ⟨fun i => finite_of_abs_lt _ (Host.reduce_andi_all _ _ _ _ _ h0 i),
    fun i => finite_of_abs_lt _ (Host.reduce_andi_all _ _ _ _ _ h1 i),
    fun i => finite_of_abs_lt _ (Host.reduce_andi_all _ _ _ _ _ h2 i),
    fun i => finite_of_abs_lt _ (Host.reduce_andi_all _ _ _ _ _ h3 i),
    fun i => finite_of_abs_lt _ (Host.reduce_andi_all _ _ _ _ _ h4 i),
    fun i => finite_of_abs_lt _ (Host.reduce_andi_all _ _ _ _ _ h5 i)⟩

end Cert.Hand

end
-- ==== Proof.RefRun.lean ====
/-
  The reference program's @main as one straight line of host operations and its run.

  @main is three consecutive windows of statements; a call of a module-local function means the callee's
  body on the call's buffers, so each window is a list of operations: the window's own, and at each call
  the callee's (for the diagonal builder, its own ten and the three of the select it calls). Run as one
  sequence, every buffer ends at the fold of the operations' results over the contents at launch; no
  operation writes an argument buffer, so the seven arguments end unchanged.
-/
import proofs.«165992_j40183714021526_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the first window of @main, in order, each call's callee written out over the call's buffers. -/
abbrev ops_part0 : List (HloOp τ sig (Elt F)) :=
  [ nullary main_cst (constant S_ .f32 0x00000000#32),
    unary main_cst main_v0 (broadcastInDim S4096x4096 ![] bcast_S_S4096x4096 : (⟨S_, .f32⟩ : BufTy).Contents (Elt F) → (⟨S4096x4096, .f32⟩ : BufTy).Contents (Elt F)),
    binary main_arg4 main_v0 main_v1 (cmpf .ogt : (⟨S4096x4096, .f32⟩ : BufTy).Contents (Elt F) → (⟨S4096x4096, .f32⟩ : BufTy).Contents (Elt F) → (⟨S4096x4096, .i1⟩ : BufTy).Contents (Elt F)),
    nullary main_cst_0 (constant S_ .f32 0x00000000#32),
    unary main_cst_0 main_v2 (broadcastInDim S4096x4096 ![] bcast_S_S4096x4096 : (⟨S_, .f32⟩ : BufTy).Contents (Elt F) → (⟨S4096x4096, .f32⟩ : BufTy).Contents (Elt F)),
    TRef.ternary (.of main_v1 : TRef sig ⟨S4096x4096, .i1⟩) (.of main_arg4 : TRef sig ⟨S4096x4096, .f32⟩) (.of main_v2 : TRef sig ⟨S4096x4096, .f32⟩) main_call0.v0 select,
    nullary main_cst_1 (constant S_ .f32 0x00000000#32),
    unary main_cst_1 main_v4 (broadcastInDim S4096x4096 ![] bcast_S_S4096x4096 : (⟨S_, .f32⟩ : BufTy).Contents (Elt F) → (⟨S4096x4096, .f32⟩ : BufTy).Contents (Elt F)),
    binary main_arg4 main_v4 main_v5 (cmpf .olt : (⟨S4096x4096, .f32⟩ : BufTy).Contents (Elt F) → (⟨S4096x4096, .f32⟩ : BufTy).Contents (Elt F) → (⟨S4096x4096, .i1⟩ : BufTy).Contents (Elt F)),
    nullary main_cst_2 (constant S_ .f32 0x00000000#32),
    unary main_cst_2 main_v6 (broadcastInDim S4096x4096 ![] bcast_S_S4096x4096 : (⟨S_, .f32⟩ : BufTy).Contents (Elt F) → (⟨S4096x4096, .f32⟩ : BufTy).Contents (Elt F)),
    TRef.ternary (.of main_v5 : TRef sig ⟨S4096x4096, .i1⟩) (.of main_arg4 : TRef sig ⟨S4096x4096, .f32⟩) (.of main_v6 : TRef sig ⟨S4096x4096, .f32⟩) main_call1.v0 select,
    nullary main_cst_3 (constant S_ .f32 0x00000000#32),
    unary main_cst_3 main_v8 (broadcastInDim S4096x4096 ![] bcast_S_S4096x4096 : (⟨S_, .f32⟩ : BufTy).Contents (Elt F) → (⟨S4096x4096, .f32⟩ : BufTy).Contents (Elt F)),
    binary main_arg4 main_v8 main_v9 (cmpf .ogt : (⟨S4096x4096, .f32⟩ : BufTy).Contents (Elt F) → (⟨S4096x4096, .f32⟩ : BufTy).Contents (Elt F) → (⟨S4096x4096, .i1⟩ : BufTy).Contents (Elt F)),
    nullary main_cst_4 (constant S_ .f32 0x00000000#32),
    unary main_cst_4 main_v10 (broadcastInDim S4096x4096 ![] bcast_S_S4096x4096 : (⟨S_, .f32⟩ : BufTy).Contents (Elt F) → (⟨S4096x4096, .f32⟩ : BufTy).Contents (Elt F)),
    TRef.ternary (.of main_v9 : TRef sig ⟨S4096x4096, .i1⟩) (.of main_arg4 : TRef sig ⟨S4096x4096, .f32⟩) (.of main_v10 : TRef sig ⟨S4096x4096, .f32⟩) main_call2.v0 select,
    nullary main_cst_5 (constant S_ .f32 0x00000000#32),
    unary main_cst_5 main_v12 (broadcastInDim S4096x4096 ![] bcast_S_S4096x4096 : (⟨S_, .f32⟩ : BufTy).Contents (Elt F) → (⟨S4096x4096, .f32⟩ : BufTy).Contents (Elt F)),
    binary main_arg4 main_v12 main_v13 (cmpf .olt : (⟨S4096x4096, .f32⟩ : BufTy).Contents (Elt F) → (⟨S4096x4096, .f32⟩ : BufTy).Contents (Elt F) → (⟨S4096x4096, .i1⟩ : BufTy).Contents (Elt F)),
    nullary main_cst_6 (constant S_ .f32 0x00000000#32),
    unary main_cst_6 main_v14 (broadcastInDim S4096x4096 ![] bcast_S_S4096x4096 : (⟨S_, .f32⟩ : BufTy).Contents (Elt F) → (⟨S4096x4096, .f32⟩ : BufTy).Contents (Elt F)),
    TRef.ternary (.of main_v13 : TRef sig ⟨S4096x4096, .i1⟩) (.of main_arg4 : TRef sig ⟨S4096x4096, .f32⟩) (.of main_v14 : TRef sig ⟨S4096x4096, .f32⟩) main_call3.v0 select,
    unary main_v3 main_v16 ((transpose S4096x4096 [1, 0] · transposes_S4096x4096_S4096x4096_1_0) : (⟨S4096x4096, .f32⟩ : BufTy).Contents (Elt F) → (⟨S4096x4096, .f32⟩ : BufTy).Contents (Elt F)),
    binary main_arg3 main_v16 main_v17 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    unary main_v7 main_v18 ((transpose S4096x4096 [1, 0] · transposes_S4096x4096_S4096x4096_1_0) : (⟨S4096x4096, .f32⟩ : BufTy).Contents (Elt F) → (⟨S4096x4096, .f32⟩ : BufTy).Contents (Elt F)),
    binary main_arg3 main_v18 main_v19 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    binary main_v17 main_v19 main_v20 (addf : (⟨S1x4096, .f32⟩ : BufTy).Contents (Elt F) → (⟨S1x4096, .f32⟩ : BufTy).Contents (Elt F) → (⟨S1x4096, .f32⟩ : BufTy).Contents (Elt F)),
    binary main_v20 main_arg5 main_v21 (addf : (⟨S1x4096, .f32⟩ : BufTy).Contents (Elt F) → (⟨S1x4096, .f32⟩ : BufTy).Contents (Elt F) → (⟨S1x4096, .f32⟩ : BufTy).Contents (Elt F)),
    unary main_v11 main_v22 ((transpose S4096x4096 [1, 0] · transposes_S4096x4096_S4096x4096_1_0) : (⟨S4096x4096, .f32⟩ : BufTy).Contents (Elt F) → (⟨S4096x4096, .f32⟩ : BufTy).Contents (Elt F)),
    binary main_arg3 main_v22 main_v23 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    unary main_v15 main_v24 ((transpose S4096x4096 [1, 0] · transposes_S4096x4096_S4096x4096_1_0) : (⟨S4096x4096, .f32⟩ : BufTy).Contents (Elt F) → (⟨S4096x4096, .f32⟩ : BufTy).Contents (Elt F)),
    binary main_arg3 main_v24 main_v25 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    binary main_v23 main_v25 main_v26 (addf : (⟨S1x4096, .f32⟩ : BufTy).Contents (Elt F) → (⟨S1x4096, .f32⟩ : BufTy).Contents (Elt F) → (⟨S1x4096, .f32⟩ : BufTy).Contents (Elt F)),
    binary main_v26 main_arg5 main_v27 (addf : (⟨S1x4096, .f32⟩ : BufTy).Contents (Elt F) → (⟨S1x4096, .f32⟩ : BufTy).Contents (Elt F) → (⟨S1x4096, .f32⟩ : BufTy).Contents (Elt F)),
    binary main_v3 main_arg2 main_v28 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v7 main_arg2 main_v29 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v28 main_v29 main_v30 (addf : (⟨S4096x4096, .f32⟩ : BufTy).Contents (Elt F) → (⟨S4096x4096, .f32⟩ : BufTy).Contents (Elt F) → (⟨S4096x4096, .f32⟩ : BufTy).Contents (Elt F)),
    binary main_v11 main_arg2 main_v31 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v15 main_arg2 main_v32 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v31 main_v32 main_v33 (addf : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x00000000#32),
    unary main_cst_7 main_v34 (broadcastInDim S4096x4096 ![] bcast_S_S4096x4096 : (⟨S_, .f32⟩ : BufTy).Contents (Elt F) → (⟨S4096x4096, .f32⟩ : BufTy).Contents (Elt F)),
    binary main_v30 main_v34 main_v35 (cmpf .ogt : (⟨S4096x4096, .f32⟩ : BufTy).Contents (Elt F) → (⟨S4096x4096, .f32⟩ : BufTy).Contents (Elt F) → (⟨S4096x4096, .i1⟩ : BufTy).Contents (Elt F)),
    nullary main_cst_8 (constant S_ .f32 0x00000000#32),
    unary main_cst_8 main_v36 (broadcastInDim S4096x4096 ![] bcast_S_S4096x4096 : (⟨S_, .f32⟩ : BufTy).Contents (Elt F) → (⟨S4096x4096, .f32⟩ : BufTy).Contents (Elt F)),
    TRef.ternary (.of main_v35 : TRef sig ⟨S4096x4096, .i1⟩) (.of main_v30 : TRef sig ⟨S4096x4096, .f32⟩) (.of main_v36 : TRef sig ⟨S4096x4096, .f32⟩) main_call4.v0 select,
    nullary main_cst_9 (constant S_ .f32 0x00000000#32),
    unary main_cst_9 main_v38 (broadcastInDim S4096x4096 ![] bcast_S_S4096x4096 : (⟨S_, .f32⟩ : BufTy).Contents (Elt F) → (⟨S4096x4096, .f32⟩ : BufTy).Contents (Elt F)),
    binary main_v30 main_v38 main_v39 (cmpf .olt : (⟨S4096x4096, .f32⟩ : BufTy).Contents (Elt F) → (⟨S4096x4096, .f32⟩ : BufTy).Contents (Elt F) → (⟨S4096x4096, .i1⟩ : BufTy).Contents (Elt F)),
    nullary main_cst_10 (constant S_ .f32 0x00000000#32),
    unary main_cst_10 main_v40 (broadcastInDim S4096x4096 ![] bcast_S_S4096x4096 : (⟨S_, .f32⟩ : BufTy).Contents (Elt F) → (⟨S4096x4096, .f32⟩ : BufTy).Contents (Elt F)),
    TRef.ternary (.of main_v39 : TRef sig ⟨S4096x4096, .i1⟩) (.of main_v30 : TRef sig ⟨S4096x4096, .f32⟩) (.of main_v40 : TRef sig ⟨S4096x4096, .f32⟩) main_call5.v0 select,
    nullary main_cst_11 (constant S_ .f32 0x00000000#32),
    unary main_cst_11 main_v42 (broadcastInDim S4096x4096 ![] bcast_S_S4096x4096 : (⟨S_, .f32⟩ : BufTy).Contents (Elt F) → (⟨S4096x4096, .f32⟩ : BufTy).Contents (Elt F)),
    binary main_v33 main_v42 main_v43 (cmpf .ogt : (⟨S4096x4096, .f32⟩ : BufTy).Contents (Elt F) → (⟨S4096x4096, .f32⟩ : BufTy).Contents (Elt F) → (⟨S4096x4096, .i1⟩ : BufTy).Contents (Elt F)),
    nullary main_cst_12 (constant S_ .f32 0x00000000#32),
    unary main_cst_12 main_v44 (broadcastInDim S4096x4096 ![] bcast_S_S4096x4096 : (⟨S_, .f32⟩ : BufTy).Contents (Elt F) → (⟨S4096x4096, .f32⟩ : BufTy).Contents (Elt F)),
    TRef.ternary (.of main_v43 : TRef sig ⟨S4096x4096, .i1⟩) (.of main_v33 : TRef sig ⟨S4096x4096, .f32⟩) (.of main_v44 : TRef sig ⟨S4096x4096, .f32⟩) main_call6.v0 select ]

/-- The operations of the second window of @main, in order, each call's callee written out over the call's buffers. -/
abbrev ops_part1 : List (HloOp τ sig (Elt F)) :=
  [ nullary main_cst_13 (constant S_ .f32 0x00000000#32),
    unary main_cst_13 main_v46 (broadcastInDim S4096x4096 ![] bcast_S_S4096x4096 : (⟨S_, .f32⟩ : BufTy).Contents (Elt F) → (⟨S4096x4096, .f32⟩ : BufTy).Contents (Elt F)),
    binary main_v33 main_v46 main_v47 (cmpf .olt : (⟨S4096x4096, .f32⟩ : BufTy).Contents (Elt F) → (⟨S4096x4096, .f32⟩ : BufTy).Contents (Elt F) → (⟨S4096x4096, .i1⟩ : BufTy).Contents (Elt F)),
    nullary main_cst_14 (constant S_ .f32 0x00000000#32),
    unary main_cst_14 main_v48 (broadcastInDim S4096x4096 ![] bcast_S_S4096x4096 : (⟨S_, .f32⟩ : BufTy).Contents (Elt F) → (⟨S4096x4096, .f32⟩ : BufTy).Contents (Elt F)),
    TRef.ternary (.of main_v47 : TRef sig ⟨S4096x4096, .i1⟩) (.of main_v33 : TRef sig ⟨S4096x4096, .f32⟩) (.of main_v48 : TRef sig ⟨S4096x4096, .f32⟩) main_call7.v0 select,
    unary main_v37 main_v50 ((transpose S4096x4096 [1, 0] · transposes_S4096x4096_S4096x4096_1_0) : (⟨S4096x4096, .f32⟩ : BufTy).Contents (Elt F) → (⟨S4096x4096, .f32⟩ : BufTy).Contents (Elt F)),
    binary main_arg0 main_v50 main_v51 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    unary main_v41 main_v52 ((transpose S4096x4096 [1, 0] · transposes_S4096x4096_S4096x4096_1_0) : (⟨S4096x4096, .f32⟩ : BufTy).Contents (Elt F) → (⟨S4096x4096, .f32⟩ : BufTy).Contents (Elt F)),
    binary main_arg1 main_v52 main_v53 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    binary main_v51 main_v53 main_v54 (addf : (⟨S1x4096, .f32⟩ : BufTy).Contents (Elt F) → (⟨S1x4096, .f32⟩ : BufTy).Contents (Elt F) → (⟨S1x4096, .f32⟩ : BufTy).Contents (Elt F)),
    binary main_v54 main_v21 main_v55 (addf : (⟨S1x4096, .f32⟩ : BufTy).Contents (Elt F) → (⟨S1x4096, .f32⟩ : BufTy).Contents (Elt F) → (⟨S1x4096, .f32⟩ : BufTy).Contents (Elt F)),
    unary main_v45 main_v56 ((transpose S4096x4096 [1, 0] · transposes_S4096x4096_S4096x4096_1_0) : (⟨S4096x4096, .f32⟩ : BufTy).Contents (Elt F) → (⟨S4096x4096, .f32⟩ : BufTy).Contents (Elt F)),
    binary main_arg1 main_v56 main_v57 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    unary main_v49 main_v58 ((transpose S4096x4096 [1, 0] · transposes_S4096x4096_S4096x4096_1_0) : (⟨S4096x4096, .f32⟩ : BufTy).Contents (Elt F) → (⟨S4096x4096, .f32⟩ : BufTy).Contents (Elt F)),
    binary main_arg0 main_v58 main_v59 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    binary main_v57 main_v59 main_v60 (addf : (⟨S1x4096, .f32⟩ : BufTy).Contents (Elt F) → (⟨S1x4096, .f32⟩ : BufTy).Contents (Elt F) → (⟨S1x4096, .f32⟩ : BufTy).Contents (Elt F)),
    binary main_v60 main_v27 main_v61 (addf : (⟨S1x4096, .f32⟩ : BufTy).Contents (Elt F) → (⟨S1x4096, .f32⟩ : BufTy).Contents (Elt F) → (⟨S1x4096, .f32⟩ : BufTy).Contents (Elt F)),
    unary main_arg6 main_v62 (Host.negf : (⟨S4096, .f32⟩ : BufTy).Contents (Elt F) → (⟨S4096, .f32⟩ : BufTy).Contents (Elt F)),
    unary main_v62 main_v63 (Host.exp : (⟨S4096, .f32⟩ : BufTy).Contents (Elt F) → (⟨S4096, .f32⟩ : BufTy).Contents (Elt F)),
    nullary main_cst_15 (constant S_ .f32 0x3F800000#32),
    unary main_cst_15 main_v64 (broadcastInDim S4096 ![] bcast_S_S4096 : (⟨S_, .f32⟩ : BufTy).Contents (Elt F) → (⟨S4096, .f32⟩ : BufTy).Contents (Elt F)),
    binary main_v64 main_v63 main_v65 (addf : (⟨S4096, .f32⟩ : BufTy).Contents (Elt F) → (⟨S4096, .f32⟩ : BufTy).Contents (Elt F) → (⟨S4096, .f32⟩ : BufTy).Contents (Elt F)),
    nullary main_cst_16 (constant S_ .f32 0x3F800000#32),
    unary main_cst_16 main_v66 (broadcastInDim S4096 ![] bcast_S_S4096 : (⟨S_, .f32⟩ : BufTy).Contents (Elt F) → (⟨S4096, .f32⟩ : BufTy).Contents (Elt F)),
    binary main_v66 main_v65 main_v67 (Host.divf : (⟨S4096, .f32⟩ : BufTy).Contents (Elt F) → (⟨S4096, .f32⟩ : BufTy).Contents (Elt F) → (⟨S4096, .f32⟩ : BufTy).Contents (Elt F)),
    nullary main_cst_17 (constant S_ .f32 0x3C23D70A#32),
    unary main_cst_17 main_v68 (broadcastInDim S1x4096 ![] bcast_S_S1x4096 : (⟨S_, .f32⟩ : BufTy).Contents (Elt F) → (⟨S1x4096, .f32⟩ : BufTy).Contents (Elt F)),
    binary main_v55 main_v68 main_v69 (mulf : (⟨S1x4096, .f32⟩ : BufTy).Contents (Elt F) → (⟨S1x4096, .f32⟩ : BufTy).Contents (Elt F) → (⟨S1x4096, .f32⟩ : BufTy).Contents (Elt F)),
    binary main_v61 main_v69 main_v70 (subf : (⟨S1x4096, .f32⟩ : BufTy).Contents (Elt F) → (⟨S1x4096, .f32⟩ : BufTy).Contents (Elt F) → (⟨S1x4096, .f32⟩ : BufTy).Contents (Elt F)),
    binary main_v61 main_v55 main_v71 (subf : (⟨S1x4096, .f32⟩ : BufTy).Contents (Elt F) → (⟨S1x4096, .f32⟩ : BufTy).Contents (Elt F) → (⟨S1x4096, .f32⟩ : BufTy).Contents (Elt F)),
    binary main_v70 main_v71 main_v72 (Host.divf : (⟨S1x4096, .f32⟩ : BufTy).Contents (Elt F) → (⟨S1x4096, .f32⟩ : BufTy).Contents (Elt F) → (⟨S1x4096, .f32⟩ : BufTy).Contents (Elt F)),
    reshape main_v72 main_v73 rfl shapeCasts_S1x4096_S4096,
    binary main_v73 main_v73 main_v74 (cmpf .une : (⟨S4096, .f32⟩ : BufTy).Contents (Elt F) → (⟨S4096, .f32⟩ : BufTy).Contents (Elt F) → (⟨S4096, .i1⟩ : BufTy).Contents (Elt F)),
    nullary main_cst_18 (constant S_ .f32 0x00000000#32),
    unary main_cst_18 main_v75 (broadcastInDim S4096 ![] bcast_S_S4096 : (⟨S_, .f32⟩ : BufTy).Contents (Elt F) → (⟨S4096, .f32⟩ : BufTy).Contents (Elt F)),
    TRef.ternary (.of main_v74 : TRef sig ⟨S4096, .i1⟩) (.of main_v75 : TRef sig ⟨S4096, .f32⟩) (.of main_v73 : TRef sig ⟨S4096, .f32⟩) main_call8.v0 select,
    nullary main_cst_19 (constant S_ .f32 0x3F800000#32),
    unary main_cst_19 main_v77 (broadcastInDim S4096 ![] bcast_S_S4096 : (⟨S_, .f32⟩ : BufTy).Contents (Elt F) → (⟨S4096, .f32⟩ : BufTy).Contents (Elt F)),
    binary main_v77 main_v76 main_v78 (subf : (⟨S4096, .f32⟩ : BufTy).Contents (Elt F) → (⟨S4096, .f32⟩ : BufTy).Contents (Elt F) → (⟨S4096, .f32⟩ : BufTy).Contents (Elt F)),
    unary main_v78 main_v79 (broadcastInDim S1x4096 ![1] bcast_S4096_S1x4096_1 : (⟨S4096, .f32⟩ : BufTy).Contents (Elt F) → (⟨S1x4096, .f32⟩ : BufTy).Contents (Elt F)),
    binary main_v79 main_v61 main_v80 (mulf : (⟨S1x4096, .f32⟩ : BufTy).Contents (Elt F) → (⟨S1x4096, .f32⟩ : BufTy).Contents (Elt F) → (⟨S1x4096, .f32⟩ : BufTy).Contents (Elt F)),
    nullary main_cst_20 (constant S_ .f32 0x3F800000#32),
    unary main_cst_20 main_v81 (broadcastInDim S4096 ![] bcast_S_S4096 : (⟨S_, .f32⟩ : BufTy).Contents (Elt F) → (⟨S4096, .f32⟩ : BufTy).Contents (Elt F)),
    nullary main_cst_21 (constant S_ .f32 0x00000000#32),
    unary main_cst_21 main_v82 (broadcastInDim S1x4096 ![] bcast_S_S1x4096 : (⟨S_, .f32⟩ : BufTy).Contents (Elt F) → (⟨S1x4096, .f32⟩ : BufTy).Contents (Elt F)),
    nullary main_cst_22 (constant S_ .f32 0x00000000#32),
    unary main_cst_22 main_v83 (broadcastInDim S1x4096 ![] bcast_S_S1x4096 : (⟨S_, .f32⟩ : BufTy).Contents (Elt F) → (⟨S1x4096, .f32⟩ : BufTy).Contents (Elt F)),
    binary main_v61 main_v83 main_v84 (cmpf .ole : (⟨S1x4096, .f32⟩ : BufTy).Contents (Elt F) → (⟨S1x4096, .f32⟩ : BufTy).Contents (Elt F) → (⟨S1x4096, .i1⟩ : BufTy).Contents (Elt F)),
    reshape main_v84 main_v85 rfl shapeCasts_S1x4096_S4096,
    nullary main_cst_23 (constant S_ .f32 0x00000000#32),
    unary main_cst_23 main_v86 (broadcastInDim S1x4096 ![] bcast_S_S1x4096 : (⟨S_, .f32⟩ : BufTy).Contents (Elt F) → (⟨S1x4096, .f32⟩ : BufTy).Contents (Elt F)),
    binary main_v55 main_v86 main_v87 (cmpf .oge : (⟨S1x4096, .f32⟩ : BufTy).Contents (Elt F) → (⟨S1x4096, .f32⟩ : BufTy).Contents (Elt F) → (⟨S1x4096, .i1⟩ : BufTy).Contents (Elt F)),
    reshape main_v87 main_v88 rfl shapeCasts_S1x4096_S4096,
    nullary main_cst_24 (constant S_ .f32 0x3C23D70A#32),
    unary main_cst_24 main_v89 (broadcastInDim S4096 ![] bcast_S_S4096 : (⟨S_, .f32⟩ : BufTy).Contents (Elt F) → (⟨S4096, .f32⟩ : BufTy).Contents (Elt F)),
    binary main_v89 main_v81 main_v90 (mulf : (⟨S4096, .f32⟩ : BufTy).Contents (Elt F) → (⟨S4096, .f32⟩ : BufTy).Contents (Elt F) → (⟨S4096, .f32⟩ : BufTy).Contents (Elt F)),
    TRef.ternary (.of main_v85 : TRef sig ⟨S4096, .i1⟩) (.of main_v90 : TRef sig ⟨S4096, .f32⟩) (.of main_v81 : TRef sig ⟨S4096, .f32⟩) main_call9.v0 select,
    nullary main_cst_25 (constant S_ .f32 0x3C23D70A#32),
    unary main_cst_25 main_v92 (broadcastInDim S4096 ![] bcast_S_S4096 : (⟨S_, .f32⟩ : BufTy).Contents (Elt F) → (⟨S4096, .f32⟩ : BufTy).Contents (Elt F)) ]

/-- The operations of the third window of @main, in order, each call's callee written out over the call's buffers. -/
abbrev ops_part2 : List (HloOp τ sig (Elt F)) :=
  [ binary main_v92 main_v81 main_v93 (mulf : (⟨S4096, .f32⟩ : BufTy).Contents (Elt F) → (⟨S4096, .f32⟩ : BufTy).Contents (Elt F) → (⟨S4096, .f32⟩ : BufTy).Contents (Elt F)),
    TRef.ternary (.of main_v85 : TRef sig ⟨S4096, .i1⟩) (.of main_v93 : TRef sig ⟨S4096, .f32⟩) (.of main_v81 : TRef sig ⟨S4096, .f32⟩) main_call10.v0 select,
    TRef.ternary (.of main_v88 : TRef sig ⟨S4096, .i1⟩) (.of main_v81 : TRef sig ⟨S4096, .f32⟩) (.of main_v91 : TRef sig ⟨S4096, .f32⟩) main_call11.v0 select,
    TRef.ternary (.of main_v88 : TRef sig ⟨S4096, .i1⟩) (.of main_v81 : TRef sig ⟨S4096, .f32⟩) (.of main_v94 : TRef sig ⟨S4096, .f32⟩) main_call12.v0 select,
    binary main_v85 main_v88 main_v97 (ori : (⟨S4096, .i1⟩ : BufTy).Contents (Elt F) → (⟨S4096, .i1⟩ : BufTy).Contents (Elt F) → (⟨S4096, .i1⟩ : BufTy).Contents (Elt F)),
    unary main_v97 main_v98 (noti : (⟨S4096, .i1⟩ : BufTy).Contents (Elt F) → (⟨S4096, .i1⟩ : BufTy).Contents (Elt F)),
    TRef.ternary (.of main_v98 : TRef sig ⟨S4096, .i1⟩) (.of main_v76 : TRef sig ⟨S4096, .f32⟩) (.of main_v96 : TRef sig ⟨S4096, .f32⟩) main_call13.v0 select,
    TRef.unary (.of main_v98 : TRef sig ⟨S4096, .i1⟩) main_call14.v0 (broadcastInDim S1x4096 ![1] bcast_S4096_S1x4096_1),
    TRef.ternary main_call14.v0 (.of main_v80 : TRef sig ⟨S1x4096, .f32⟩) (.of main_v82 : TRef sig ⟨S1x4096, .f32⟩) main_call14.v1 select,
    TRef.ternary (.of main_v98 : TRef sig ⟨S4096, .i1⟩) (.of main_v81 : TRef sig ⟨S4096, .f32⟩) (.of main_v95 : TRef sig ⟨S4096, .f32⟩) main_call15.v0 select,
    nullary main_cst_26 (constant S_ .f32 0x3C23D70A#32),
    unary main_cst_26 main_v102 (broadcastInDim S4096 ![] bcast_S_S4096 : (⟨S_, .f32⟩ : BufTy).Contents (Elt F) → (⟨S4096, .f32⟩ : BufTy).Contents (Elt F)),
    binary main_v102 main_v81 main_v103 (mulf : (⟨S4096, .f32⟩ : BufTy).Contents (Elt F) → (⟨S4096, .f32⟩ : BufTy).Contents (Elt F) → (⟨S4096, .f32⟩ : BufTy).Contents (Elt F)),
    TRef.ternary (.of main_v98 : TRef sig ⟨S4096, .i1⟩) (.of main_v103 : TRef sig ⟨S4096, .f32⟩) (.of main_v95 : TRef sig ⟨S4096, .f32⟩) main_call16.v0 select,
    binary main_v67 main_v101 main_v105 (mulf : (⟨S4096, .f32⟩ : BufTy).Contents (Elt F) → (⟨S4096, .f32⟩ : BufTy).Contents (Elt F) → (⟨S4096, .f32⟩ : BufTy).Contents (Elt F)),
    nullary main_cst_27 (constant S_ .f32 0x3F800000#32),
    unary main_cst_27 main_v106 (broadcastInDim S4096 ![] bcast_S_S4096 : (⟨S_, .f32⟩ : BufTy).Contents (Elt F) → (⟨S4096, .f32⟩ : BufTy).Contents (Elt F)),
    binary main_v106 main_v67 main_v107 (subf : (⟨S4096, .f32⟩ : BufTy).Contents (Elt F) → (⟨S4096, .f32⟩ : BufTy).Contents (Elt F) → (⟨S4096, .f32⟩ : BufTy).Contents (Elt F)),
    binary main_v107 main_v104 main_v108 (mulf : (⟨S4096, .f32⟩ : BufTy).Contents (Elt F) → (⟨S4096, .f32⟩ : BufTy).Contents (Elt F) → (⟨S4096, .f32⟩ : BufTy).Contents (Elt F)),
    binary main_v105 main_v108 main_v109 (addf : (⟨S4096, .f32⟩ : BufTy).Contents (Elt F) → (⟨S4096, .f32⟩ : BufTy).Contents (Elt F) → (⟨S4096, .f32⟩ : BufTy).Contents (Elt F)),
    TRef.nullary main_call17.cst (constant S_ .f32 0x00000000#32),
    TRef.binary (.of main_v109 : TRef sig ⟨S4096, .f32⟩) main_call17.cst main_call17.v0 (fun x v => pad S4096 ![0] ![0] ![0] x v pads_S4096_S4096_000 h_S_),
    TRef.nullary main_call17.v1 (iotaInDim S4096x4096 32 0),
    TRef.nullary main_call17.v2 (iotaInDim S4096x4096 32 1),
    TRef.nullary main_call17.c (constantI S_ 32 0#32),
    TRef.unary main_call17.c main_call17.v3 (broadcastInDim S4096x4096 ![] bcast_S_S4096x4096),
    TRef.binary main_call17.v1 main_call17.v3 main_call17.v4 addi,
    TRef.binary main_call17.v4 main_call17.v2 main_call17.v5 (cmpi .eq),
    TRef.unary main_call17.v0 main_call17.v6 (broadcastInDim S4096x1 ![0] bcast_S4096_S4096x1_0),
    TRef.nullary main_call17.cst_0 (constant S_ .f32 0x00000000#32),
    TRef.unary main_call17.v6 main_call17.call0.v0 (broadcastInDim S4096x4096 ![0, 1] bcast_S4096x1_S4096x4096_0_1),
    TRef.unary main_call17.cst_0 main_call17.call0.v1 (broadcastInDim S4096x4096 ![] bcast_S_S4096x4096),
    TRef.ternary main_call17.v5 main_call17.call0.v0 main_call17.call0.v1 main_call17.call0.v2 select,
    TRef.nullary main_call18.cst (constant S_ .f32 0x00000000#32),
    TRef.binary (.of main_v99 : TRef sig ⟨S4096, .f32⟩) main_call18.cst main_call18.v0 (fun x v => pad S4096 ![0] ![0] ![0] x v pads_S4096_S4096_000 h_S_),
    TRef.nullary main_call18.v1 (iotaInDim S4096x4096 32 0),
    TRef.nullary main_call18.v2 (iotaInDim S4096x4096 32 1),
    TRef.nullary main_call18.c (constantI S_ 32 0#32),
    TRef.unary main_call18.c main_call18.v3 (broadcastInDim S4096x4096 ![] bcast_S_S4096x4096),
    TRef.binary main_call18.v1 main_call18.v3 main_call18.v4 addi,
    TRef.binary main_call18.v4 main_call18.v2 main_call18.v5 (cmpi .eq),
    TRef.unary main_call18.v0 main_call18.v6 (broadcastInDim S4096x1 ![0] bcast_S4096_S4096x1_0),
    TRef.nullary main_call18.cst_0 (constant S_ .f32 0x00000000#32),
    TRef.unary main_call18.v6 main_call18.call0.v0 (broadcastInDim S4096x4096 ![0, 1] bcast_S4096x1_S4096x4096_0_1),
    TRef.unary main_call18.cst_0 main_call18.call0.v1 (broadcastInDim S4096x4096 ![] bcast_S_S4096x4096),
    TRef.ternary main_call18.v5 main_call18.call0.v0 main_call18.call0.v1 main_call18.call0.v2 select ]

/-- @main's 166 operations, in order. -/
abbrev ops : List (HloOp τ sig (Elt F)) := ops_part0 ++ (ops_part1 ++ ops_part2)

set_option maxRecDepth 8192 in
set_option maxHeartbeats 4000000 in
/-- The first window is its list: the callees' definitions unfolded at their calls, sequencing reassociated. -/
theorem main_part0_eq (c : Dev nD) : main_part0 (F := F) c = seq ops_part0 := by
  simp only [main_part0, fn_where.body, fn_where_0.body, seq, bind_assoc, pure_bind]

set_option maxRecDepth 8192 in
set_option maxHeartbeats 4000000 in
/-- The second window ends on an operation, its list on the return after it: equal by computation. -/
theorem main_part1_eq (c : Dev nD) : main_part1 (F := F) c = seq ops_part1 := by
  simp only [main_part1, fn_where_0.body, fn_where_1.body, seq, bind_assoc, pure_bind]
  rfl

set_option maxRecDepth 8192 in
set_option maxHeartbeats 4000000 in
theorem main_part2_eq (c : Dev nD) : main_part2 (F := F) c = seq ops_part2 := by
  simp only [main_part2, fn_where_1.body, fn_where_2.body, fn_where_3.body, fn_diag.body, seq, bind_assoc, pure_bind]

/-- @main is that straight line: the windows one after the other are their concatenation. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., unary_bufs_sub .., binary_bufs_sub .., unary_bufs_sub .., binary_bufs_sub .., binary_bufs_sub .., binary_bufs_sub .., unary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub ..⟩
set_option maxRecDepth 8192 in
theorem ops_part1_sub : (ops_part1 : List (HloOp τ sig (Elt F))).Forall fun op => op.bufs ⊆ tcRefs τ sig :=
  ⟨nullary_bufs_sub .., unary_bufs_sub .., binary_bufs_sub .., nullary_bufs_sub .., unary_bufs_sub .., ternary_bufs_sub .., unary_bufs_sub .., binary_bufs_sub .., unary_bufs_sub .., binary_bufs_sub .., binary_bufs_sub .., binary_bufs_sub .., unary_bufs_sub .., binary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., reshape_bufs_sub .., binary_bufs_sub .., nullary_bufs_sub .., unary_bufs_sub .., ternary_bufs_sub .., nullary_bufs_sub .., unary_bufs_sub .., binary_bufs_sub .., unary_bufs_sub .., binary_bufs_sub .., nullary_bufs_sub .., unary_bufs_sub .., nullary_bufs_sub .., unary_bufs_sub .., nullary_bufs_sub .., unary_bufs_sub .., binary_bufs_sub .., reshape_bufs_sub .., nullary_bufs_sub .., unary_bufs_sub .., binary_bufs_sub .., reshape_bufs_sub .., nullary_bufs_sub .., unary_bufs_sub .., binary_bufs_sub .., ternary_bufs_sub .., nullary_bufs_sub .., unary_bufs_sub ..⟩
set_option maxRecDepth 8192 in
theorem ops_part2_sub : (ops_part2 : List (HloOp τ sig (Elt F))).Forall fun op => op.bufs ⊆ tcRefs τ sig :=
  ⟨binary_bufs_sub .., ternary_bufs_sub .., ternary_bufs_sub .., ternary_bufs_sub .., binary_bufs_sub .., unary_bufs_sub .., ternary_bufs_sub .., unary_bufs_sub .., ternary_bufs_sub .., ternary_bufs_sub .., nullary_bufs_sub .., unary_bufs_sub .., binary_bufs_sub .., ternary_bufs_sub .., binary_bufs_sub .., nullary_bufs_sub .., unary_bufs_sub .., binary_bufs_sub .., binary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

set_option maxRecDepth 8192 in
set_option maxHeartbeats 4000000 in
theorem ops_part0_fresh : ∀ op ∈ (ops_part0 : List (HloOp τ sig (Elt F))), op.fresh = ∅ := by
  intro _ h; (repeat (cases h with | head => rfl | tail _ h => ?_)); exact nomatch h
set_option maxRecDepth 8192 in
set_option maxHeartbeats 4000000 in
theorem ops_part1_fresh : ∀ op ∈ (ops_part1 : List (HloOp τ sig (Elt F))), op.fresh = ∅ := by
  intro _ h; (repeat (cases h with | head => rfl | tail _ h => ?_)); exact nomatch h
set_option maxRecDepth 8192 in
set_option maxHeartbeats 4000000 in
theorem ops_part2_fresh : ∀ op ∈ (ops_part2 : List (HloOp τ sig (Elt F))), op.fresh = ∅ := by
  intro _ h; (repeat (cases h with | head => rfl | tail _ h => ?_)); exact nomatch h
/-- Every operation determines its results. -/
theorem ops_fresh : ∀ op ∈ (ops : List (HloOp τ sig (Elt F))), op.fresh = ∅ := by
  intro op h
  simp only [ops, List.mem_append] at h
  rcases h with h | h | h
  exacts [ops_part0_fresh op h, ops_part1_fresh op h, ops_part2_fresh op h]

/-- On every device, for any float values, from any memory with zero counters: every weakly fair execution of
    @main terminates, and every final state has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over a concatenation is the folds in turn. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The arguments end unchanged

Each window's operations write only their own result buffers, none of them an argument. -/

set_option maxRecDepth 8192 in
set_option maxHeartbeats 4000000 in
theorem keep0_arg0 (V : Valuation τ sig (Elt F)) :
    after ops_part0 V (main_arg0 : DevRef τ sig) = V (main_arg0 : DevRef τ sig) := by
  after_results_simp
set_option maxRecDepth 8192 in
set_option maxHeartbeats 4000000 in
theorem keep0_arg1 (V : Valuation τ sig (Elt F)) :
    after ops_part0 V (main_arg1 : DevRef τ sig) = V (main_arg1 : DevRef τ sig) := by
  after_results_simp
set_option maxRecDepth 8192 in
set_option maxHeartbeats 4000000 in
theorem keep0_arg2 (V : Valuation τ sig (Elt F)) :
    after ops_part0 V (main_arg2 : DevRef τ sig) = V (main_arg2 : DevRef τ sig) := by
  after_results_simp
set_option maxRecDepth 8192 in
set_option maxHeartbeats 4000000 in
theorem keep0_arg3 (V : Valuation τ sig (Elt F)) :
    after ops_part0 V (main_arg3 : DevRef τ sig) = V (main_arg3 : DevRef τ sig) := by
  after_results_simp
set_option maxRecDepth 8192 in
set_option maxHeartbeats 4000000 in
theorem keep0_arg4 (V : Valuation τ sig (Elt F)) :
    after ops_part0 V (main_arg4 : DevRef τ sig) = V (main_arg4 : DevRef τ sig) := by
  after_results_simp
set_option maxRecDepth 8192 in
set_option maxHeartbeats 4000000 in
theorem keep0_arg5 (V : Valuation τ sig (Elt F)) :
    after ops_part0 V (main_arg5 : DevRef τ sig) = V (main_arg5 : DevRef τ sig) := by
  after_results_simp
set_option maxRecDepth 8192 in
set_option maxHeartbeats 4000000 in
theorem keep0_arg6 (V : Valuation τ sig (Elt F)) :
    after ops_part0 V (main_arg6 : DevRef τ sig) = V (main_arg6 : DevRef τ sig) := by
  after_results_simp
set_option maxRecDepth 8192 in
set_option maxHeartbeats 4000000 in
theorem keep1_arg0 (V : Valuation τ sig (Elt F)) :
    after ops_part1 V (main_arg0 : DevRef τ sig) = V (main_arg0 : DevRef τ sig) := by
  after_results_simp
set_option maxRecDepth 8192 in
set_option maxHeartbeats 4000000 in
theorem keep1_arg1 (V : Valuation τ sig (Elt F)) :
    after ops_part1 V (main_arg1 : DevRef τ sig) = V (main_arg1 : DevRef τ sig) := by
  after_results_simp
set_option maxRecDepth 8192 in
set_option maxHeartbeats 4000000 in
theorem keep1_arg2 (V : Valuation τ sig (Elt F)) :
    after ops_part1 V (main_arg2 : DevRef τ sig) = V (main_arg2 : DevRef τ sig) := by
  after_results_simp
set_option maxRecDepth 8192 in
set_option maxHeartbeats 4000000 in
theorem keep1_arg3 (V : Valuation τ sig (Elt F)) :
    after ops_part1 V (main_arg3 : DevRef τ sig) = V (main_arg3 : DevRef τ sig) := by
  after_results_simp
set_option maxRecDepth 8192 in
set_option maxHeartbeats 4000000 in
theorem keep1_arg4 (V : Valuation τ sig (Elt F)) :
    after ops_part1 V (main_arg4 : DevRef τ sig) = V (main_arg4 : DevRef τ sig) := by
  after_results_simp
set_option maxRecDepth 8192 in
set_option maxHeartbeats 4000000 in
theorem keep1_arg5 (V : Valuation τ sig (Elt F)) :
    after ops_part1 V (main_arg5 : DevRef τ sig) = V (main_arg5 : DevRef τ sig) := by
  after_results_simp
set_option maxRecDepth 8192 in
set_option maxHeartbeats 4000000 in
theorem keep1_arg6 (V : Valuation τ sig (Elt F)) :
    after ops_part1 V (main_arg6 : DevRef τ sig) = V (main_arg6 : DevRef τ sig) := by
  after_results_simp
set_option maxRecDepth 8192 in
set_option maxHeartbeats 4000000 in
theorem keep2_arg0 (V : Valuation τ sig (Elt F)) :
    after ops_part2 V (main_arg0 : DevRef τ sig) = V (main_arg0 : DevRef τ sig) := by
  after_results_simp
set_option maxRecDepth 8192 in
set_option maxHeartbeats 4000000 in
theorem keep2_arg1 (V : Valuation τ sig (Elt F)) :
    after ops_part2 V (main_arg1 : DevRef τ sig) = V (main_arg1 : DevRef τ sig) := by
  after_results_simp
set_option maxRecDepth 8192 in
set_option maxHeartbeats 4000000 in
theorem keep2_arg2 (V : Valuation τ sig (Elt F)) :
    after ops_part2 V (main_arg2 : DevRef τ sig) = V (main_arg2 : DevRef τ sig) := by
  after_results_simp
set_option maxRecDepth 8192 in
set_option maxHeartbeats 4000000 in
theorem keep2_arg3 (V : Valuation τ sig (Elt F)) :
    after ops_part2 V (main_arg3 : DevRef τ sig) = V (main_arg3 : DevRef τ sig) := by
  after_results_simp
set_option maxRecDepth 8192 in
set_option maxHeartbeats 4000000 in
theorem keep2_arg4 (V : Valuation τ sig (Elt F)) :
    after ops_part2 V (main_arg4 : DevRef τ sig) = V (main_arg4 : DevRef τ sig) := by
  after_results_simp
set_option maxRecDepth 8192 in
set_option maxHeartbeats 4000000 in
theorem keep2_arg5 (V : Valuation τ sig (Elt F)) :
    after ops_part2 V (main_arg5 : DevRef τ sig) = V (main_arg5 : DevRef τ sig) := by
  after_results_simp
set_option maxRecDepth 8192 in
set_option maxHeartbeats 4000000 in
theorem keep2_arg6 (V : Valuation τ sig (Elt F)) :
    after ops_part2 V (main_arg6 : DevRef τ sig) = V (main_arg6 : DevRef τ sig) := by
  after_results_simp

/-- No operation writes argument 0. -/
theorem arg0_eq (V : Valuation τ sig (Elt F)) : after ops V (main_arg0 : DevRef τ sig) = V (main_arg0 : DevRef τ sig) := by
  rw [ops, after_app, after_app, keep2_arg0, keep1_arg0, keep0_arg0]
/-- No operation writes argument 1. -/
theorem arg1_eq (V : Valuation τ sig (Elt F)) : after ops V (main_arg1 : DevRef τ sig) = V (main_arg1 : DevRef τ sig) := by
  rw [ops, after_app, after_app, keep2_arg1, keep1_arg1, keep0_arg1]
/-- No operation writes argument 2. -/
theorem arg2_eq (V : Valuation τ sig (Elt F)) : after ops V (main_arg2 : DevRef τ sig) = V (main_arg2 : DevRef τ sig) := by
  rw [ops, after_app, after_app, keep2_arg2, keep1_arg2, keep0_arg2]
/-- No operation writes argument 3. -/
theorem arg3_eq (V : Valuation τ sig (Elt F)) : after ops V (main_arg3 : DevRef τ sig) = V (main_arg3 : DevRef τ sig) := by
  rw [ops, after_app, after_app, keep2_arg3, keep1_arg3, keep0_arg3]
/-- No operation writes argument 4. -/
theorem arg4_eq (V : Valuation τ sig (Elt F)) : after ops V (main_arg4 : DevRef τ sig) = V (main_arg4 : DevRef τ sig) := by
  rw [ops, after_app, after_app, keep2_arg4, keep1_arg4, keep0_arg4]
/-- No operation writes argument 5. -/
theorem arg5_eq (V : Valuation τ sig (Elt F)) : after ops V (main_arg5 : DevRef τ sig) = V (main_arg5 : DevRef τ sig) := by
  rw [ops, after_app, after_app, keep2_arg5, keep1_arg5, keep0_arg5]
/-- No operation writes argument 6. -/
theorem arg6_eq (V : Valuation τ sig (Elt F)) : after ops V (main_arg6 : DevRef τ sig) = V (main_arg6 : DevRef τ sig) := by
  rw [ops, after_app, after_app, keep2_arg6, keep1_arg6, keep0_arg6]

/-- On every device, for any float values, from any memory with zero counters: every weakly fair execution of
    @main terminates with the seven argument arrays unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_all m ρ)

end Cert.ReferenceIdeal.Hand

end
-- ==== Proof.RefStages.lean ====
/-
  The reference program's values, stage by stage, as functions of whole arrays, and each window of @main read
  back as those functions of the contents before it.

  The bounds: the second layer's matrix is split into its positive and negative parts by a comparison with zero
  and a selection; the composed intercept row is the first layer's bias row times each part, transposed, plus the
  second bias row; the composed slope is each part times the first layer's matrix, summed; the bound rows are the
  input box's rows times the positive and negative parts of the composed slope, transposed, plus the intercept.
  The relaxation: the mixing weight, the chord's slope (zero where the quotient is unequal to itself) and intercept,
  the two sign tests, the slope of a neuron that does not cross zero, the two relaxation slopes and the upper
  intercept; and the diagonal matrix of a vector, built by comparing the row and column coordinates.
-/
import proofs.«165992_j40183714021526_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Literal arrays: a scalar word broadcast. -/
abbrev zM : FVec F S4096x4096 .f32 := broadcastInDim S4096x4096 ![] bcast_S_S4096x4096 (constant S_ .f32 0x00000000#32)
abbrev zeroR : FVec F S1x4096 .f32 := broadcastInDim S1x4096 ![] bcast_S_S1x4096 (constant S_ .f32 0x00000000#32)
abbrev nsR : FVec F S1x4096 .f32 := broadcastInDim S1x4096 ![] bcast_S_S1x4096 (constant S_ .f32 0x3C23D70A#32)
abbrev zeroV : FVec F S4096 .f32 := broadcastInDim S4096 ![] bcast_S_S4096 (constant S_ .f32 0x00000000#32)
abbrev oneV : FVec F S4096 .f32 := broadcastInDim S4096 ![] bcast_S_S4096 (constant S_ .f32 0x3F800000#32)
abbrev nsV : FVec F S4096 .f32 := broadcastInDim S4096 ![] bcast_S_S4096 (constant S_ .f32 0x3C23D70A#32)

/-- The positive part of a matrix: itself where it exceeds zero, else zero. -/
def posM (x : FVec F S4096x4096 .f32) : FVec F S4096x4096 .f32 := select (cmpf .ogt x zM) x zM
/-- The negative part of a matrix: itself where it is below zero, else zero. -/
def negM (x : FVec F S4096x4096 .f32) : FVec F S4096x4096 .f32 := select (cmpf .olt x zM) x zM
/-- The transpose of a square matrix. -/
def tr (x : FVec F S4096x4096 .f32) : FVec F S4096x4096 .f32 :=
  transpose S4096x4096 [1, 0] x transposes_S4096x4096_S4096x4096_1_0
/-- A row times a matrix. -/
def dotRow (l : FVec F S1x4096 .f32) (r : FVec F S4096x4096 .f32) : FVec F S1x4096 .f32 :=
  Host.dotGeneral dot_S1x4096_S4096x4096_S1x4096_1_0_0_1_n_n none l r
/-- A matrix times a matrix. -/
def dotMat (l r : FVec F S4096x4096 .f32) : FVec F S4096x4096 .f32 :=
  Host.dotGeneral dot_S4096x4096_S4096x4096_S4096x4096_1_0_0_1_n_n none l r
/-- A row against the transposes of two matrices, plus a row. -/
def rowsOf (x y : FVec F S1x4096 .f32) (P N : FVec F S4096x4096 .f32) (c : FVec F S1x4096 .f32) : FVec F S1x4096 .f32 :=
  addf (addf (dotRow x (tr P)) (dotRow y (tr N))) c
/-- The composed intercept row. -/
def biasRow (b1 : FVec F S1x4096 .f32) (W2 : FVec F S4096x4096 .f32) (b2 : FVec F S1x4096 .f32) : FVec F S1x4096 .f32 :=
  rowsOf b1 b1 (posM W2) (negM W2) b2
/-- The composed slope matrix. -/
def prodM (W2 W1 : FVec F S4096x4096 .f32) : FVec F S4096x4096 .f32 := addf (dotMat (posM W2) W1) (dotMat (negM W2) W1)

/-- A row `[1, 4096]` laid out as a vector `[4096]`. -/
def flat {α : Type} (x : S1x4096.Idx → α) : S4096.Idx → α := shapeCast S4096 x shapeCasts_S1x4096_S4096
/-- A vector `[4096]` laid out as a row `[1, 4096]`. -/
def asRow {α : Type} (x : S4096.Idx → α) : S1x4096.Idx → α := broadcastInDim S1x4096 ![1] bcast_S4096_S1x4096_1 x

/-- The mixing weight. -/
def alphaV (a : FVec F S4096 .f32) : FVec F S4096 .f32 := Host.divf oneV (addf oneV (Host.exp (Host.negf a)))
/-- The chord's slope before the guard. -/
def chordR (L U : FVec F S1x4096 .f32) : FVec F S1x4096 .f32 := Host.divf (subf U (mulf L nsR)) (subf U L)
/-- The chord's slope, zero where the quotient is unequal to itself. -/
def slopeV (L U : FVec F S1x4096 .f32) : FVec F S4096 .f32 :=
  select (cmpf .une (flat (chordR L U)) (flat (chordR L U))) zeroV (flat (chordR L U))
/-- The chord's intercept. -/
def interceptR (L U : FVec F S1x4096 .f32) : FVec F S1x4096 .f32 := mulf (asRow (subf oneV (slopeV L U))) U
/-- The upper bound is at most zero. -/
def belowV (U : FVec F S1x4096 .f32) : IVec S4096 1 := flat (cmpf .ole U zeroR)
/-- The lower bound is at least zero. -/
def aboveV (L : FVec F S1x4096 .f32) : IVec S4096 1 := flat (cmpf .oge L zeroR)
/-- Neither of two tests. -/
def neither (bl ab : IVec S4096 1) : IVec S4096 1 := noti (ori bl ab)
/-- The slope below zero, from the slope word and the ones. -/
def belowSlope (bl : IVec S4096 1) (nsv one : FVec F S4096 .f32) : FVec F S4096 .f32 := select bl (mulf nsv one) one

/-- The lower relaxation's slope from the stages it reads. -/
def lslopeOf (al one s91 : FVec F S4096 .f32) (bl ab : IVec S4096 1) : FVec F S4096 .f32 :=
  addf (mulf al (select (neither bl ab) one (select ab one s91)))
    (mulf (subf oneV al) (select (neither bl ab) (mulf nsV one) (select ab one s91)))
/-- The upper relaxation's slope from the stages it reads. -/
def uslopeOf (sl one nsv : FVec F S4096 .f32) (bl ab : IVec S4096 1) : FVec F S4096 .f32 :=
  select (neither bl ab) sl (select ab one (belowSlope bl nsv one))
/-- The upper relaxation's intercept from the stages it reads. -/
def uintOf (ic zr : FVec F S1x4096 .f32) (bl ab : IVec S4096 1) : FVec F S1x4096 .f32 :=
  select (asRow (neither bl ab)) ic zr

/-- The diagonal matrix of a vector: the vector as a column, spread along the rows, kept where the row and column
    coordinates agree, zero elsewhere. -/
def diagM (v : FVec F S4096 .f32) : FVec F S4096x4096 .f32 :=
  select
    (cmpi .eq (addi (iotaInDim S4096x4096 32 0) (broadcastInDim S4096x4096 ![] bcast_S_S4096x4096 (constantI S_ 32 0#32)))
      (iotaInDim S4096x4096 32 1))
    (broadcastInDim S4096x4096 ![0, 1] bcast_S4096x1_S4096x4096_0_1
      (broadcastInDim S4096x1 ![0] bcast_S4096_S4096x1_0
        (pad S4096 ![0] ![0] ![0] v (constant (F := F) S_ .f32 0x00000000#32) pads_S4096_S4096_000 h_S_)))
    (broadcastInDim S4096x4096 ![] bcast_S_S4096x4096 (constant S_ .f32 0x00000000#32))

/-- The two bound rows, the relaxation's three arrays, from the seven arguments. -/
def lowRow (a0 a1 : FVec F S1x4096 .f32) (a2 : FVec F S4096x4096 .f32) (a3 : FVec F S1x4096 .f32) (a4 : FVec F S4096x4096 .f32)
    (a5 : FVec F S1x4096 .f32) : FVec F S1x4096 .f32 :=
  rowsOf a0 a1 (posM (prodM a4 a2)) (negM (prodM a4 a2)) (biasRow a3 a4 a5)
def uppRow (a0 a1 : FVec F S1x4096 .f32) (a2 : FVec F S4096x4096 .f32) (a3 : FVec F S1x4096 .f32) (a4 : FVec F S4096x4096 .f32)
    (a5 : FVec F S1x4096 .f32) : FVec F S1x4096 .f32 :=
  rowsOf a1 a0 (posM (prodM a4 a2)) (negM (prodM a4 a2)) (biasRow a3 a4 a5)
def lslopeV (L U : FVec F S1x4096 .f32) (a : FVec F S4096 .f32) : FVec F S4096 .f32 :=
  lslopeOf (alphaV a) oneV (belowSlope (belowV U) nsV oneV) (belowV U) (aboveV L)
def uslopeV (L U : FVec F S1x4096 .f32) : FVec F S4096 .f32 := uslopeOf (slopeV L U) oneV nsV (belowV U) (aboveV L)
def uintR (L U : FVec F S1x4096 .f32) : FVec F S1x4096 .f32 := uintOf (interceptR L U) zeroR (belowV U) (aboveV L)

/-! ## The windows read back -/

set_option maxRecDepth 8192 in
set_option maxHeartbeats 4000000 in
theorem w0_v21 (V : Valuation τ sig (Elt F)) :
    after ops_part0 V (main_v21 : DevRef τ sig) = biasRow (V (main_arg3 : DevRef τ sig)) (V (main_arg4 : DevRef τ sig)) (V (main_arg5 : DevRef τ sig)) := by
  after_results_simp <;> rfl

set_option maxRecDepth 8192 in
set_option maxHeartbeats 4000000 in
theorem w0_v27 (V : Valuation τ sig (Elt F)) :
    after ops_part0 V (main_v27 : DevRef τ sig) = biasRow (V (main_arg3 : DevRef τ sig)) (V (main_arg4 : DevRef τ sig)) (V (main_arg5 : DevRef τ sig)) := by
  after_results_simp <;> rfl

set_option maxRecDepth 8192 in
set_option maxHeartbeats 4000000 in
theorem w0_v33 (V : Valuation τ sig (Elt F)) :
    after ops_part0 V (main_v33 : DevRef τ sig) = prodM (V (main_arg4 : DevRef τ sig)) (V (main_arg2 : DevRef τ sig)) := by
  after_results_simp <;> rfl

set_option maxRecDepth 8192 in
set_option maxHeartbeats 4000000 in
theorem w0_v37 (V : Valuation τ sig (Elt F)) :
    after ops_part0 V (main_v37 : DevRef τ sig) = posM (prodM (V (main_arg4 : DevRef τ sig)) (V (main_arg2 : DevRef τ sig))) := by
  after_results_simp <;> rfl

set_option maxRecDepth 8192 in
set_option maxHeartbeats 4000000 in
theorem w0_v41 (V : Valuation τ sig (Elt F)) :
    after ops_part0 V (main_v41 : DevRef τ sig) = negM (prodM (V (main_arg4 : DevRef τ sig)) (V (main_arg2 : DevRef τ sig))) := by
  after_results_simp <;> rfl

set_option maxRecDepth 8192 in
set_option maxHeartbeats 4000000 in
theorem w0_v45 (V : Valuation τ sig (Elt F)) :
    after ops_part0 V (main_v45 : DevRef τ sig) = posM (prodM (V (main_arg4 : DevRef τ sig)) (V (main_arg2 : DevRef τ sig))) := by
  after_results_simp <;> rfl

set_option maxRecDepth 8192 in
set_option maxHeartbeats 4000000 in
theorem w1_v55 (V : Valuation τ sig (Elt F)) :
    after ops_part1 V (main_v55 : DevRef τ sig) = (rowsOf (V (main_arg0 : DevRef τ sig)) (V (main_arg1 : DevRef τ sig)) (V (main_v37 : DevRef τ sig)) (V (main_v41 : DevRef τ sig)) (V (main_v21 : DevRef τ sig))) := by
  after_results_simp <;> rfl

set_option maxRecDepth 8192 in
set_option maxHeartbeats 4000000 in
theorem w1_v61 (V : Valuation τ sig (Elt F)) :
    after ops_part1 V (main_v61 : DevRef τ sig) = (rowsOf (V (main_arg1 : DevRef τ sig)) (V (main_arg0 : DevRef τ sig)) (V (main_v45 : DevRef τ sig)) (negM (V (main_v33 : DevRef τ sig))) (V (main_v27 : DevRef τ sig))) := by
  after_results_simp <;> rfl

set_option maxRecDepth 8192 in
set_option maxHeartbeats 4000000 in
theorem w1_v67 (V : Valuation τ sig (Elt F)) :
    after ops_part1 V (main_v67 : DevRef τ sig) = alphaV (V (main_arg6 : DevRef τ sig)) := by
  after_results_simp <;> rfl

set_option maxRecDepth 8192 in
set_option maxHeartbeats 4000000 in
theorem w1_v76 (V : Valuation τ sig (Elt F)) :
    after ops_part1 V (main_v76 : DevRef τ sig) = slopeV (rowsOf (V (main_arg0 : DevRef τ sig)) (V (main_arg1 : DevRef τ sig)) (V (main_v37 : DevRef τ sig)) (V (main_v41 : DevRef τ sig)) (V (main_v21 : DevRef τ sig))) (rowsOf (V (main_arg1 : DevRef τ sig)) (V (main_arg0 : DevRef τ sig)) (V (main_v45 : DevRef τ sig)) (negM (V (main_v33 : DevRef τ sig))) (V (main_v27 : DevRef τ sig))) := by
  after_results_simp <;> rfl

set_option maxRecDepth 8192 in
set_option maxHeartbeats 4000000 in
theorem w1_v80 (V : Valuation τ sig (Elt F)) :
    after ops_part1 V (main_v80 : DevRef τ sig) = interceptR (rowsOf (V (main_arg0 : DevRef τ sig)) (V (main_arg1 : DevRef τ sig)) (V (main_v37 : DevRef τ sig)) (V (main_v41 : DevRef τ sig)) (V (main_v21 : DevRef τ sig))) (rowsOf (V (main_arg1 : DevRef τ sig)) (V (main_arg0 : DevRef τ sig)) (V (main_v45 : DevRef τ sig)) (negM (V (main_v33 : DevRef τ sig))) (V (main_v27 : DevRef τ sig))) := by
  after_results_simp <;> rfl

set_option maxRecDepth 8192 in
set_option maxHeartbeats 4000000 in
theorem w1_v81 (V : Valuation τ sig (Elt F)) :
    after ops_part1 V (main_v81 : DevRef τ sig) = oneV := by
  after_results_simp <;> rfl

set_option maxRecDepth 8192 in
set_option maxHeartbeats 4000000 in
theorem w1_v82 (V : Valuation τ sig (Elt F)) :
    after ops_part1 V (main_v82 : DevRef τ sig) = zeroR := by
  after_results_simp <;> rfl

set_option maxRecDepth 8192 in
set_option maxHeartbeats 4000000 in
theorem w1_v85 (V : Valuation τ sig (Elt F)) :
    after ops_part1 V (main_v85 : DevRef τ sig) = belowV (rowsOf (V (main_arg1 : DevRef τ sig)) (V (main_arg0 : DevRef τ sig)) (V (main_v45 : DevRef τ sig)) (negM (V (main_v33 : DevRef τ sig))) (V (main_v27 : DevRef τ sig))) := by
  after_results_simp <;> rfl

set_option maxRecDepth 8192 in
set_option maxHeartbeats 4000000 in
theorem w1_v88 (V : Valuation τ sig (Elt F)) :
    after ops_part1 V (main_v88 : DevRef τ sig) = aboveV (rowsOf (V (main_arg0 : DevRef τ sig)) (V (main_arg1 : DevRef τ sig)) (V (main_v37 : DevRef τ sig)) (V (main_v41 : DevRef τ sig)) (V (main_v21 : DevRef τ sig))) := by
  after_results_simp <;> rfl

set_option maxRecDepth 8192 in
set_option maxHeartbeats 4000000 in
theorem w1_v91 (V : Valuation τ sig (Elt F)) :
    after ops_part1 V (main_v91 : DevRef τ sig) = belowSlope (belowV (rowsOf (V (main_arg1 : DevRef τ sig)) (V (main_arg0 : DevRef τ sig)) (V (main_v45 : DevRef τ sig)) (negM (V (main_v33 : DevRef τ sig))) (V (main_v27 : DevRef τ sig)))) nsV oneV := by
  after_results_simp <;> rfl

set_option maxRecDepth 8192 in
set_option maxHeartbeats 4000000 in
theorem w1_v92 (V : Valuation τ sig (Elt F)) :
    after ops_part1 V (main_v92 : DevRef τ sig) = nsV := by
  after_results_simp <;> rfl

set_option maxRecDepth 8192 in
set_option maxHeartbeats 4000000 in
theorem w2_v110 (V : Valuation τ sig (Elt F)) :
    after ops_part2 V (main_v110 : DevRef τ sig) = diagM (lslopeOf (V (main_v67 : DevRef τ sig)) (V (main_v81 : DevRef τ sig)) (V (main_v91 : DevRef τ sig)) (V (main_v85 : DevRef τ sig)) (V (main_v88 : DevRef τ sig))) := by
  after_results_simp <;> rfl

set_option maxRecDepth 8192 in
set_option maxHeartbeats 4000000 in
theorem w2_v111 (V : Valuation τ sig (Elt F)) :
    after ops_part2 V (main_v111 : DevRef τ sig) = diagM (uslopeOf (V (main_v76 : DevRef τ sig)) (V (main_v81 : DevRef τ sig)) (V (main_v92 : DevRef τ sig)) (V (main_v85 : DevRef τ sig)) (V (main_v88 : DevRef τ sig))) := by
  after_results_simp <;> rfl

set_option maxRecDepth 8192 in
set_option maxHeartbeats 4000000 in
theorem w2_v100 (V : Valuation τ sig (Elt F)) :
    after ops_part2 V (main_v100 : DevRef τ sig) = uintOf (V (main_v80 : DevRef τ sig)) (V (main_v82 : DevRef τ sig)) (V (main_v85 : DevRef τ sig)) (V (main_v88 : DevRef τ sig)) := by
  after_results_simp <;> rfl

set_option maxRecDepth 8192 in
set_option maxHeartbeats 4000000 in
theorem w2_v82 (V : Valuation τ sig (Elt F)) :
    after ops_part2 V (main_v82 : DevRef τ sig) = (V (main_v82 : DevRef τ sig)) := by
  after_results_simp <;> rfl

end Cert.ReferenceIdeal.Hand

end
-- ==== Proof.RefPoint.lean ====
/-
  The relaxation stages and the diagonal matrix, read at an index: each array stage of the reference program is,
  element by element, the scalar relaxation applied to the elements of the bound rows and of the raw mixing weights.
  Elementwise operations read the operands at the same index; a row laid out as a vector, a vector laid out as a row,
  a column spread along the rows and a padding of width zero read one element of their operand; the comparison of the
  row and column coordinates holds exactly on the diagonal, the coordinates being below the word size.
-/
import proofs.«165992_j40183714021526_2_alg».proof.Proof.RefStages
import proofs.«165992_j40183714021526_2_alg».proof.Proof.Relax
import Idealize.ShloMosaic.Lib.ValueLayout
import Idealize.ShloMosaic.Lib.Pipeline.Value
import Idealize.ShloMosaic.Lib.KernelVsHost

noncomputable section

namespace Cert.ReferenceIdeal.Hand

open Cert.ReferenceIdeal Cert.ReferenceIdeal.Gen Idealize.ShloMosaic Idealize.ShloMosaic.ValueIdx DeepPoly

variable {F : FTy → Type} [FloatOps F]

/-! ## Elementwise operations at an index -/

section At
variable {s : Shape} {φ : FTy} {w : Nat}
theorem addf_at (a b : FVec F s φ) (i : s.Idx) : addf a b i = FloatOps.addf (a i) (b i) := rfl
theorem subf_at (a b : FVec F s φ) (i : s.Idx) : subf a b i = FloatOps.subf (a i) (b i) := rfl
theorem mulf_at (a b : FVec F s φ) (i : s.Idx) : mulf a b i = FloatOps.mulf (a i) (b i) := rfl
theorem ori_at (a b : IVec s w) (i : s.Idx) : ori a b i = IntOp.ori (a i) (b i) := rfl
theorem noti_at (a : IVec s w) (i : s.Idx) : noti a i = ~~~(a i) := rfl
end At

theorem neither_at (bl ab : IVec S4096 1) (i : S4096.Idx) : neither bl ab i = ~~~(IntOp.ori (bl i) (ab i)) := rfl

/-! ## The layouts at an index -/

/-- A row laid out as a vector reads the row's one line. -/
theorem flat_at {α : Type} (x : S1x4096.Idx → α) (r : Fin 4096) : flat x (ix1 r) = x (ix2 (0 : Fin 1) r) :=
  shapeCast_1a_a_apply x shapeCasts_S1x4096_S4096 r

/-- A vector laid out as a row reads the vector at the column. -/
theorem asRow_at {α : Type} (x : S4096.Idx → α) (u : Fin 1) (q : Fin 4096) : asRow x (ix2 u q) = x (ix1 q) :=
  broadcastInDim_apply _ bcast_S4096_S1x4096_1 x (ix2 u q) (ix1 q) (fun a => by
    match a with
    | ⟨0, _⟩ => rfl)

/-! ## The stages at an index -/

theorem alphaV_at (a : FVec F S4096 .f32) (r : Fin 4096) : alphaV a (ix1 r) = Relax.alpha (a (ix1 r)) := rfl

theorem chordR_at (L U : FVec F S1x4096 .f32) (r : Fin 4096) :
    chordR L U (ix2 (0 : Fin 1) r) = Relax.chord (L (ix2 (0 : Fin 1) r)) (U (ix2 (0 : Fin 1) r)) := rfl

theorem slopeV_at (L U : FVec F S1x4096 .f32) (r : Fin 4096) :
    slopeV L U (ix1 r) = Relax.slope (L (ix2 (0 : Fin 1) r)) (U (ix2 (0 : Fin 1) r)) := by
  simp only [slopeV, select_apply, cmpf_apply, flat_at, chordR_at]
  rfl

theorem belowV_at (U : FVec F S1x4096 .f32) (r : Fin 4096) : belowV U (ix1 r) = Relax.below (U (ix2 (0 : Fin 1) r)) := by
  simp only [belowV, flat_at]
  rfl

theorem aboveV_at (L : FVec F S1x4096 .f32) (r : Fin 4096) : aboveV L (ix1 r) = Relax.above (L (ix2 (0 : Fin 1) r)) := by
  simp only [aboveV, flat_at]
  rfl

theorem interceptR_at (L U : FVec F S1x4096 .f32) (r : Fin 4096) :
    interceptR L U (ix2 (0 : Fin 1) r) = Relax.intercept (L (ix2 (0 : Fin 1) r)) (U (ix2 (0 : Fin 1) r)) := by
  simp only [interceptR, mulf_at, asRow_at, subf_at, slopeV_at]
  rfl

theorem lslopeV_at (L U : FVec F S1x4096 .f32) (a : FVec F S4096 .f32) (r : Fin 4096) :
    lslopeV L U a (ix1 r) = Relax.lslope (L (ix2 (0 : Fin 1) r)) (U (ix2 (0 : Fin 1) r)) (a (ix1 r)) := by
  simp only [lslopeV, lslopeOf, belowSlope, addf_at, mulf_at, subf_at, select_apply, neither_at, belowV_at, aboveV_at, alphaV_at]
  rfl

theorem uslopeV_at (L U : FVec F S1x4096 .f32) (r : Fin 4096) :
    uslopeV L U (ix1 r) = Relax.uslope (L (ix2 (0 : Fin 1) r)) (U (ix2 (0 : Fin 1) r)) := by
  simp only [uslopeV, uslopeOf, belowSlope, mulf_at, select_apply, neither_at, belowV_at, aboveV_at, slopeV_at]
  rfl

theorem uintR_at (L U : FVec F S1x4096 .f32) (u : Fin 1) (q : Fin 4096) :
    uintR L U (ix2 u q) = Relax.uintercept (L (ix2 (0 : Fin 1) q)) (U (ix2 (0 : Fin 1) q)) := by
  obtain rfl : u = 0 := Subsingleton.elim _ _
  simp only [uintR, uintOf, select_apply, asRow_at, neither_at, belowV_at, aboveV_at, interceptR_at]
  rfl

/-! ## The diagonal matrix -/

/-- Two coordinates below 4096, as 32-bit words, are equal words exactly when they are equal. -/
theorem coord_eq (a b : Fin 4096) :
    cmpi .eq (addi (iotaInDim S4096x4096 32 0) (broadcastInDim S4096x4096 ![] bcast_S_S4096x4096 (constantI S_ 32 0#32)))
        (iotaInDim S4096x4096 32 1) (ix2 a b)
      = if a.val = b.val then 1#1 else 0#1 := by
  show IntOp.cmpi .eq (IntOp.addi (BitVec.ofNat 32 a.val) 0#32) (BitVec.ofNat 32 b.val) = _
  have ha : a.val < 2 ^ 32 := Nat.lt_trans a.isLt (by decide)
  have hb : b.val < 2 ^ 32 := Nat.lt_trans b.isLt (by decide)
  simp only [IntOp.cmpi, IntOp.addi, BitVec.add_zero]
  by_cases h : a.val = b.val
  · rw [if_pos h, h]; simp
  · rw [if_neg h]
    have hne : (BitVec.ofNat 32 a.val == BitVec.ofNat 32 b.val) = false := by
      rw [beq_eq_false_iff_ne]
      intro e
      have e' := congrArg BitVec.toNat e
      rw [BitVec.toNat_ofNat, BitVec.toNat_ofNat, Nat.mod_eq_of_lt ha, Nat.mod_eq_of_lt hb] at e'
      exact h e'
    rw [hne]; rfl

/-- The column spread along the rows reads the vector at the row coordinate. -/
theorem spread_at (v : FVec F S4096 .f32) (a b : Fin 4096) :
    broadcastInDim S4096x4096 ![0, 1] bcast_S4096x1_S4096x4096_0_1
        (broadcastInDim S4096x1 ![0] bcast_S4096_S4096x1_0
          (pad S4096 ![0] ![0] ![0] v (constant (F := F) S_ .f32 0x00000000#32) pads_S4096_S4096_000 h_S_)) (ix2 a b)
      = v (ix1 a) := by
  refine (broadcastInDim_apply _ bcast_S4096x1_S4096x4096_0_1 _ (ix2 a b) (ix2 a (0 : Fin 1)) (fun c => by
    match c with
    | ⟨0, _⟩ => rfl
    | ⟨1, _⟩ => rfl)).trans ?_
  refine (broadcastInDim_apply _ bcast_S4096_S4096x1_0 _ (ix2 a (0 : Fin 1)) (ix1 a) (fun c => by
    match c with
    | ⟨0, _⟩ => rfl)).trans ?_
  exact pad_apply_of_inside _ _ _ v _ pads_S4096_S4096_000 h_S_ (ix1 a) (ix1 a) (fun c => by
    match c with
    | ⟨0, _⟩ =>
      show a.val = 0 + a.val * (0 + 1)
      omega)

theorem diagM_at (v : FVec F S4096 .f32) (a b : Fin 4096) :
    diagM v (ix2 a b) = if a.val = b.val then v (ix1 a) else Relax.zero := by
  unfold diagM
  rw [select_apply, coord_eq, spread_at]
  by_cases h : a.val = b.val
  · rw [if_pos h, if_pos h, select_one]
  · rw [if_neg h, if_neg h, select_zero]; rfl

theorem diagM_eq (v : FVec F S4096 .f32) : diagM v = Relax.diag (Relax.vec v) := by
  funext i
  obtain ⟨a, b, rfl⟩ : ∃ (a b : Fin 4096), i = ix2 a b := ⟨i 0, i 1, eq_ix2 i⟩
  exact (diagM_at v a b).trans (Relax.diag_ix2 (Relax.vec v) a b).symm

/-! ## The three arrays of the relaxation as the scalar relaxation of the bound rows -/

theorem outDiagL_eq (L U : FVec F S1x4096 .f32) (a : FVec F S4096 .f32) :
    diagM (lslopeV L U a) = Relax.outDiagL (Relax.row L) (Relax.row U) (Relax.vec a) :=
  (diagM_eq _).trans (congrArg Relax.diag (funext fun r => lslopeV_at L U a r))

theorem outDiagU_eq (L U : FVec F S1x4096 .f32) :
    diagM (uslopeV L U) = Relax.outDiagU (Relax.row L) (Relax.row U) :=
  (diagM_eq _).trans (congrArg Relax.diag (funext fun r => uslopeV_at L U r))

theorem outUint_eq (L U : FVec F S1x4096 .f32) : uintR L U = Relax.outUint (Relax.row L) (Relax.row U) := by
  funext i
  obtain ⟨u, q, rfl⟩ : ∃ (u : Fin 1) (q : Fin 4096), i = ix2 u q := ⟨i 0, i 1, eq_ix2 i⟩
  exact uintR_at L U u q

theorem outLint_eq : (zeroR : FVec F S1x4096 .f32) = Relax.outLint := rfl

end Cert.ReferenceIdeal.Hand

end
-- ==== Proof.RefValue.lean ====
/-
  The reference program's four results at the exact extended reals, as the leaky-rectifier relaxation of the
  pre-activation bounds in the arrangement that splits every matrix into its positive and negative parts.

  At the extended reals a comparison with zero followed by a selection is the positive (negative) part; a product of
  a row or a matrix with a matrix is, at an index, the sum over the contracted coordinate of the products of the
  entries, and a transposed operand reads the entry with its coordinates exchanged. So the intercept row, the composed
  slope and the two bound rows are, element by element, the sums that define the bounds; the relaxation stages are
  the scalar relaxation of those elements at any float values.
-/
import proofs.«165992_j40183714021526_2_alg».proof.Proof.RefPoint
import proofs.«165992_j40183714021526_2_alg».proof.Proof.Results
import Idealize.ShloMosaic.Lib.StackMember
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx DeepPoly
open scoped BigOperators

/-! ## The results as array stages of the arguments, at any float values -/

section Vec
variable {F : FTy → Type} [FloatOps F]

theorem v110_vec (V : Valuation τ sig (Elt F)) :
    after ops V (main_v110 : DevRef τ sig)
      = diagM (lslopeV (lowRow (V (main_arg0 : DevRef τ sig)) (V (main_arg1 : DevRef τ sig)) (V (main_arg2 : DevRef τ sig)) (V (main_arg3 : DevRef τ sig)) (V (main_arg4 : DevRef τ sig)) (V (main_arg5 : DevRef τ sig))) (uppRow (V (main_arg0 : DevRef τ sig)) (V (main_arg1 : DevRef τ sig)) (V (main_arg2 : DevRef τ sig)) (V (main_arg3 : DevRef τ sig)) (V (main_arg4 : DevRef τ sig)) (V (main_arg5 : DevRef τ sig))) (V (main_arg6 : DevRef τ sig))) := by
  rw [ops, after_app, after_app, w2_v110, w1_v67, w1_v81, w1_v91, w1_v85, w1_v88,
    keep0_arg6, keep0_arg0, keep0_arg1, w0_v37, w0_v41, w0_v21, w0_v45, w0_v33, w0_v27]
  rfl

theorem v111_vec (V : Valuation τ sig (Elt F)) :
    after ops V (main_v111 : DevRef τ sig) = diagM (uslopeV (lowRow (V (main_arg0 : DevRef τ sig)) (V (main_arg1 : DevRef τ sig)) (V (main_arg2 : DevRef τ sig)) (V (main_arg3 : DevRef τ sig)) (V (main_arg4 : DevRef τ sig)) (V (main_arg5 : DevRef τ sig))) (uppRow (V (main_arg0 : DevRef τ sig)) (V (main_arg1 : DevRef τ sig)) (V (main_arg2 : DevRef τ sig)) (V (main_arg3 : DevRef τ sig)) (V (main_arg4 : DevRef τ sig)) (V (main_arg5 : DevRef τ sig)))) := by
  rw [ops, after_app, after_app, w2_v111, w1_v76, w1_v81, w1_v92, w1_v85, w1_v88,
    keep0_arg0, keep0_arg1, w0_v37, w0_v41, w0_v21, w0_v45, w0_v33, w0_v27]
  rfl

theorem v100_vec (V : Valuation τ sig (Elt F)) :
    after ops V (main_v100 : DevRef τ sig) = uintR (lowRow (V (main_arg0 : DevRef τ sig)) (V (main_arg1 : DevRef τ sig)) (V (main_arg2 : DevRef τ sig)) (V (main_arg3 : DevRef τ sig)) (V (main_arg4 : DevRef τ sig)) (V (main_arg5 : DevRef τ sig))) (uppRow (V (main_arg0 : DevRef τ sig)) (V (main_arg1 : DevRef τ sig)) (V (main_arg2 : DevRef τ sig)) (V (main_arg3 : DevRef τ sig)) (V (main_arg4 : DevRef τ sig)) (V (main_arg5 : DevRef τ sig))) := by
  rw [ops, after_app, after_app, w2_v100, w1_v80, w1_v82, w1_v85, w1_v88,
    keep0_arg0, keep0_arg1, w0_v37, w0_v41, w0_v21, w0_v45, w0_v33, w0_v27]
  rfl

theorem v82_vec (V : Valuation τ sig (Elt F)) : after ops V (main_v82 : DevRef τ sig) = zeroR := by
  rw [ops, after_app, after_app, w2_v82, w1_v82]

/-- The transpose reads the entry with its coordinates exchanged. -/
theorem tr_at (M : FVec F S4096x4096 .f32) (j i : Fin 4096) : tr M (ix2 j i) = M (ix2 i j) :=
  transpose_ix2_apply M transposes_S4096x4096_S4096x4096_1_0 j i

end Vec

/-! ## The bounds at the extended reals -/

/-- The positive part at an element. -/
theorem posM_at (x : FVec Ideal S4096x4096 .f32) (i : S4096x4096.Idx) : posM x i = DeepPoly.pos (x i) := by
  show Scalar.select (Ideal.cmp .ogt (x i) (Ideal.ofBits .f32 0x00000000#32)) (x i) (Ideal.ofBits .f32 0x00000000#32) = _
  rw [Ideal.ofBits_zero_f32]
  unfold DeepPoly.pos Ideal.cmp Scalar.select
  by_cases h : (0 : EReal) < x i
  · simp [h]
  · simp [h]

/-- The negative part at an element. -/
theorem negM_at (x : FVec Ideal S4096x4096 .f32) (i : S4096x4096.Idx) : negM x i = DeepPoly.neg (x i) := by
  show Scalar.select (Ideal.cmp .olt (x i) (Ideal.ofBits .f32 0x00000000#32)) (x i) (Ideal.ofBits .f32 0x00000000#32) = _
  rw [Ideal.ofBits_zero_f32]
  unfold DeepPoly.neg Ideal.cmp Scalar.select
  by_cases h : x i < (0 : EReal)
  · simp [h]
  · simp [h]

/-- A row times a transposed matrix, at a column: the sum over the contracted coordinate. -/
theorem dotRow_tr_at (l : FVec Ideal S1x4096 .f32) (M : FVec Ideal S4096x4096 .f32) (r : Fin 4096) :
    dotRow l (tr M) (ix2 (0 : Fin 1) r) = ∑ k : Fin 4096, l (ix2 (0 : Fin 1) k) * M (ix2 r k) := by
  show Host.dotGeneral (DotDims.plain 1 4096 4096) none l (tr M) (ix2 (0 : Fin 1) r) = _
  rw [StackMember.dotGeneral_plain_apply]
  exact Finset.sum_congr rfl fun k _ => by rw [tr_at]

/-- A matrix times a matrix, at an entry: the sum over the contracted coordinate. -/
theorem dotMat_at (A B : FVec Ideal S4096x4096 .f32) (r q : Fin 4096) :
    dotMat A B (ix2 r q) = ∑ k : Fin 4096, A (ix2 r k) * B (ix2 k q) := by
  show Host.dotGeneral (DotDims.plain 4096 4096 4096) none A B (ix2 r q) = _
  rw [StackMember.dotGeneral_plain_apply]

theorem rowsOf_at (x y : FVec Ideal S1x4096 .f32) (P N : FVec Ideal S4096x4096 .f32) (c : FVec Ideal S1x4096 .f32) (r : Fin 4096) :
    rowsOf x y P N c (ix2 (0 : Fin 1) r)
      = ((∑ k : Fin 4096, x (ix2 (0 : Fin 1) k) * P (ix2 r k)) + (∑ k : Fin 4096, y (ix2 (0 : Fin 1) k) * N (ix2 r k)))
          + c (ix2 (0 : Fin 1) r) := by
  show (dotRow x (tr P) (ix2 (0 : Fin 1) r) + dotRow y (tr N) (ix2 (0 : Fin 1) r)) + c (ix2 (0 : Fin 1) r) = _
  rw [dotRow_tr_at, dotRow_tr_at]

/-- The composed intercept row is the bounds' intercept. -/
theorem biasRow_at (b1 : FVec Ideal S1x4096 .f32) (W2 : FVec Ideal S4096x4096 .f32) (b2 : FVec Ideal S1x4096 .f32) (r : Fin 4096) :
    biasRow b1 W2 b2 (ix2 (0 : Fin 1) r) = biasR (Relax.row b1) (Relax.mat W2) (Relax.row b2) r := by
  unfold biasRow
  rw [rowsOf_at]
  simp only [posM_at, negM_at]
  rfl

/-- The composed slope matrix is the bounds' slope. -/
theorem prodM_at (W2 W1 : FVec Ideal S4096x4096 .f32) (r q : Fin 4096) :
    prodM W2 W1 (ix2 r q) = prodR (Relax.mat W1) (Relax.mat W2) r q := by
  show dotMat (posM W2) W1 (ix2 r q) + dotMat (negM W2) W1 (ix2 r q) = _
  rw [dotMat_at, dotMat_at]
  simp only [posM_at, negM_at]
  rfl

section Bounds
variable (a0 a1 : FVec Ideal S1x4096 .f32) (a2 : FVec Ideal S4096x4096 .f32) (a3 : FVec Ideal S1x4096 .f32)
  (a4 : FVec Ideal S4096x4096 .f32) (a5 : FVec Ideal S1x4096 .f32)

/-- The lower bound row is the bounds' lower bound. -/
theorem lowRow_row : Relax.row (lowRow a0 a1 a2 a3 a4 a5) = lowRof a0 a1 a2 a3 a4 a5 := by
  funext r
  show lowRow a0 a1 a2 a3 a4 a5 (ix2 (0 : Fin 1) r) = _
  unfold lowRow
  rw [rowsOf_at, biasRow_at]
  simp only [posM_at, negM_at, prodM_at]
  rfl

/-- The upper bound row is the bounds' upper bound. -/
theorem uppRow_row : Relax.row (uppRow a0 a1 a2 a3 a4 a5) = uppRof a0 a1 a2 a3 a4 a5 := by
  funext r
  show uppRow a0 a1 a2 a3 a4 a5 (ix2 (0 : Fin 1) r) = _
  unfold uppRow
  rw [rowsOf_at, biasRow_at]
  simp only [posM_at, negM_at, prodM_at]
  rfl

end Bounds

/-! ## The four results -/

theorem v110_spec (V : Valuation τ sig (Elt Ideal)) :
    after ops V (main_v110 : DevRef τ sig)
      = Relax.outDiagL (lowRof (V (main_arg0 : DevRef τ sig)) (V (main_arg1 : DevRef τ sig)) (V (main_arg2 : DevRef τ sig)) (V (main_arg3 : DevRef τ sig)) (V (main_arg4 : DevRef τ sig)) (V (main_arg5 : DevRef τ sig))) (uppRof (V (main_arg0 : DevRef τ sig)) (V (main_arg1 : DevRef τ sig)) (V (main_arg2 : DevRef τ sig)) (V (main_arg3 : DevRef τ sig)) (V (main_arg4 : DevRef τ sig)) (V (main_arg5 : DevRef τ sig))) (Relax.vec (V (main_arg6 : DevRef τ sig))) := by
  rw [v110_vec, outDiagL_eq, lowRow_row, uppRow_row]

theorem v111_spec (V : Valuation τ sig (Elt Ideal)) :
    after ops V (main_v111 : DevRef τ sig) = Relax.outDiagU (lowRof (V (main_arg0 : DevRef τ sig)) (V (main_arg1 : DevRef τ sig)) (V (main_arg2 : DevRef τ sig)) (V (main_arg3 : DevRef τ sig)) (V (main_arg4 : DevRef τ sig)) (V (main_arg5 : DevRef τ sig))) (uppRof (V (main_arg0 : DevRef τ sig)) (V (main_arg1 : DevRef τ sig)) (V (main_arg2 : DevRef τ sig)) (V (main_arg3 : DevRef τ sig)) (V (main_arg4 : DevRef τ sig)) (V (main_arg5 : DevRef τ sig))) := by
  rw [v111_vec, outDiagU_eq, lowRow_row, uppRow_row]

theorem v100_spec (V : Valuation τ sig (Elt Ideal)) :
    after ops V (main_v100 : DevRef τ sig) = Relax.outUint (lowRof (V (main_arg0 : DevRef τ sig)) (V (main_arg1 : DevRef τ sig)) (V (main_arg2 : DevRef τ sig)) (V (main_arg3 : DevRef τ sig)) (V (main_arg4 : DevRef τ sig)) (V (main_arg5 : DevRef τ sig))) (uppRof (V (main_arg0 : DevRef τ sig)) (V (main_arg1 : DevRef τ sig)) (V (main_arg2 : DevRef τ sig)) (V (main_arg3 : DevRef τ sig)) (V (main_arg4 : DevRef τ sig)) (V (main_arg5 : DevRef τ sig))) := by
  rw [v100_vec, outUint_eq, lowRow_row, uppRow_row]

theorem v82_spec (V : Valuation τ sig (Elt Ideal)) : after ops V (main_v82 : DevRef τ sig) = Relax.outLint (F := Ideal) :=
  (v82_vec V).trans outLint_eq

/-- On every device, from any memory with zero counters, at the exact extended reals: every weakly fair execution of
    @main terminates with the four results the relaxation of the bounds of the arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v110)
          = Relax.outDiagL (lowRof (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (uppRof (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (Relax.vec (m ((c.tc : Thread nD τ).loc main_arg6)))
      ∧ r.2.mem ((c.tc : Thread nD τ).loc main_v82) = Relax.outLint (F := Ideal)
      ∧ r.2.mem ((c.tc : Thread nD τ).loc main_v111) = Relax.outDiagU (lowRof (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (uppRof (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v100) = Relax.outUint (lowRof (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (uppRof (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_v110).trans (v110_spec _), (h c main_v82).trans (v82_spec _), (h c main_v111).trans (v111_spec _),
      (h c main_v100).trans (v100_spec _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_all m ρ)

end Cert.ReferenceIdeal.Hand

end
-- ==== Proof.LibERealCoeSum.lean ====
/-
  The inclusion of the reals into the extended reals commutes with finite sums.

  The inclusion `ℝ → EReal` sends `0` to `0` and is additive, so by induction on the index set the image of a
  finite sum of reals is the sum of the images.  No infinite value ever enters, so none of the conventions for
  `⊤ + ⊥` plays a part.
-/
import Mathlib.Data.EReal.Basic
import Mathlib.Algebra.BigOperators.Group.Finset.Basic

namespace ERealCoeSum

open scoped BigOperators

/-- The image in `EReal` of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite index type. -/
theorem coe_sum {ι : Type*} [Fintype ι] (f : ι → ℝ) :
    ((∑ i, f i : ℝ) : EReal) = ∑ i, (f i : EReal) :=
  coe_finset_sum Finset.univ f

end ERealCoeSum
-- ==== Proof.BoundsLaw.lean ====
/-
  The two arrangements of the interval bounds of a two-layer affine map agree on finite inputs.

  For a real `x` the selections `pos x` and `neg x` are `max x 0` and `min x 0`, and `max x 0 + min x 0 = x`.
  Hence splitting the second layer into its positive and negative parts before the product changes nothing:
  `∑ pos(W2)·W1 + ∑ neg(W2)·W1 = ∑ W2·W1`, and likewise for the intercept.  With the common slope `S`,
  each summand satisfies `S·ub − max(S,0)·(ub − lb) = lb·max(S,0) + ub·min(S,0)` (put `min(S,0) = S − max(S,0)`),
  and symmetrically `S·lb + max(S,0)·(ub − lb) = ub·max(S,0) + lb·min(S,0)`.

  All of this is arithmetic of finite sums of reals.  On the extended reals the same expressions are the images
  of the real ones as long as every input is a real number, because the inclusion `ℝ → EReal` commutes with
  `+`, `−`, `·`, `max · 0` and finite sums; so the identities transfer.
-/
import proofs.«165992_j40183714021526_2_alg».proof.Proof.Bounds
import proofs.«165992_j40183714021526_2_alg».proof.Proof.LibERealCoeSum
import Mathlib.Tactic.Ring
import Mathlib.Tactic.Linarith
import Mathlib.Tactic.Lift

noncomputable section

namespace DeepPoly

open scoped BigOperators

/-! ### The selections on a real number -/

/-- On a real number the positive selection is `max x 0`. -/
theorem pos_coe (x : ℝ) : pos (x : EReal) = ((max x 0 : ℝ) : EReal) := by
  unfold pos
  by_cases h : 0 < x
  · rw [if_pos (EReal.coe_pos.2 h), max_eq_left h.le]
  · rw [if_neg (fun h' => h (EReal.coe_pos.1 h')), max_eq_right (not_lt.1 h), EReal.coe_zero]

/-- On a real number the negative selection is `min x 0`. -/
theorem neg_coe (x : ℝ) : neg (x : EReal) = ((min x 0 : ℝ) : EReal) := by
  unfold neg
  by_cases h : x < 0
  · rw [if_pos (EReal.coe_neg'.2 h), min_eq_left h.le]
  · rw [if_neg (fun h' => h (EReal.coe_neg'.1 h')), min_eq_right (not_lt.1 h), EReal.coe_zero]

/-- The inclusion of the reals commutes with `max · 0`. -/
theorem max_coe_zero (x : ℝ) : max (x : EReal) 0 = ((max x 0 : ℝ) : EReal) := by
  rcases le_total x 0 with h | h
  · rw [max_eq_right h, EReal.coe_zero, max_eq_right (EReal.coe_nonpos.2 h)]
  · rw [max_eq_left h, max_eq_left (EReal.coe_nonneg.2 h)]

/-- A real number is the sum of its positive and negative parts. -/
theorem max_add_min_zero (x : ℝ) : max x 0 + min x 0 = x := by
  rcases le_total x 0 with h | h
  · rw [max_eq_right h, min_eq_left h, zero_add]
  · rw [max_eq_left h, min_eq_right h, add_zero]

/-! ### The identities over the reals -/

section RealIdentities

variable {K Q : Type} [Fintype K] [Fintype Q]

/-- Splitting the left factor into its parts does not change a sum of products. -/
theorem real_split_left (w v : K → ℝ) :
    (∑ k, max (w k) 0 * v k) + (∑ k, min (w k) 0 * v k) = ∑ k, w k * v k := by
  rw [← Finset.sum_add_distrib]
  refine Finset.sum_congr rfl (fun k _ => ?_)
  rw [← add_mul, max_add_min_zero]

/-- Splitting the right factor into its parts does not change a sum of products (factors commuted). -/
theorem real_split_right (w v : K → ℝ) :
    (∑ k, v k * max (w k) 0) + (∑ k, v k * min (w k) 0) = ∑ k, w k * v k := by
  rw [← Finset.sum_add_distrib]
  refine Finset.sum_congr rfl (fun k _ => ?_)
  rw [← mul_add, max_add_min_zero, mul_comm]

/-- The lower bound: removing the negative part algebraically equals selecting the box corner by sign. -/
theorem real_low (S lb ub : Q → ℝ) :
    (∑ q, S q * ub q) - (∑ q, max (S q) 0 * (ub q - lb q))
      = (∑ q, lb q * max (S q) 0) + (∑ q, ub q * min (S q) 0) := by
  rw [← Finset.sum_sub_distrib, ← Finset.sum_add_distrib]
  refine Finset.sum_congr rfl (fun q _ => ?_)
  have hm : min (S q) 0 = S q - max (S q) 0 := by
    have := max_add_min_zero (S q); linarith
  rw [hm]; ring

/-- The upper bound: the same with the corners exchanged. -/
theorem real_upp (S lb ub : Q → ℝ) :
    (∑ q, S q * lb q) + (∑ q, max (S q) 0 * (ub q - lb q))
      = (∑ q, ub q * max (S q) 0) + (∑ q, lb q * min (S q) 0) := by
  rw [← Finset.sum_add_distrib, ← Finset.sum_add_distrib]
  refine Finset.sum_congr rfl (fun q _ => ?_)
  have hm : min (S q) 0 = S q - max (S q) 0 := by
    have := max_add_min_zero (S q); linarith
  rw [hm]; ring

end RealIdentities

/-! ### Transfer to the extended reals: real inputs -/

section RealInputs

variable {I K Q : Type} [Fintype K] [Fintype Q]
variable (lb0 ub0 : Q → ℝ) (W1 : K → Q → ℝ) (b1 : K → ℝ) (W2 : I → K → ℝ) (b2 : I → ℝ)

/-- The slope formed once is the image of the real slope. -/
theorem prodK_coe (r : I) (q : Q) :
    prodK (fun k q => (W1 k q : EReal)) (fun i k => (W2 i k : EReal)) r q
      = ((∑ k, W2 r k * W1 k q : ℝ) : EReal) := by
  simp only [prodK, ERealCoeSum.coe_sum, EReal.coe_mul]

/-- The slope formed from the parts is the image of the same real slope. -/
theorem prodR_coe (r : I) (q : Q) :
    prodR (fun k q => (W1 k q : EReal)) (fun i k => (W2 i k : EReal)) r q
      = ((∑ k, W2 r k * W1 k q : ℝ) : EReal) := by
  rw [← real_split_left (fun k => W2 r k) (fun k => W1 k q)]
  simp only [prodR, pos_coe, neg_coe, ERealCoeSum.coe_sum, EReal.coe_mul, EReal.coe_add]

/-- The intercept formed once is the image of the real intercept. -/
theorem biasK_coe (r : I) :
    biasK (fun k => (b1 k : EReal)) (fun i k => (W2 i k : EReal)) (fun i => (b2 i : EReal)) r
      = (((∑ k, W2 r k * b1 k) + b2 r : ℝ) : EReal) := by
  simp only [biasK, ERealCoeSum.coe_sum, EReal.coe_mul, EReal.coe_add]

/-- The intercept formed from the parts is the image of the same real intercept. -/
theorem biasR_coe (r : I) :
    biasR (fun k => (b1 k : EReal)) (fun i k => (W2 i k : EReal)) (fun i => (b2 i : EReal)) r
      = (((∑ k, W2 r k * b1 k) + b2 r : ℝ) : EReal) := by
  rw [← real_split_right (fun k => W2 r k) (fun k => b1 k)]
  simp only [biasR, pos_coe, neg_coe, ERealCoeSum.coe_sum, EReal.coe_mul, EReal.coe_add]

/-- The two lower bounds agree on real inputs. -/
theorem lowK_eq_lowR (r : I) :
    lowK (fun q => (lb0 q : EReal)) (fun q => (ub0 q : EReal)) (fun k q => (W1 k q : EReal))
        (fun k => (b1 k : EReal)) (fun i k => (W2 i k : EReal)) (fun i => (b2 i : EReal)) r
      = lowR (fun q => (lb0 q : EReal)) (fun q => (ub0 q : EReal)) (fun k q => (W1 k q : EReal))
        (fun k => (b1 k : EReal)) (fun i k => (W2 i k : EReal)) (fun i => (b2 i : EReal)) r := by
  unfold lowK lowR
  rw [biasK_coe, biasR_coe]
  simp only [prodK_coe, prodR_coe, max_coe_zero, pos_coe, neg_coe, ← EReal.coe_sub, ← EReal.coe_mul,
    ← ERealCoeSum.coe_sum, ← EReal.coe_add]
  rw [real_low]

/-- The two upper bounds agree on real inputs. -/
theorem uppK_eq_uppR (r : I) :
    uppK (fun q => (lb0 q : EReal)) (fun q => (ub0 q : EReal)) (fun k q => (W1 k q : EReal))
        (fun k => (b1 k : EReal)) (fun i k => (W2 i k : EReal)) (fun i => (b2 i : EReal)) r
      = uppR (fun q => (lb0 q : EReal)) (fun q => (ub0 q : EReal)) (fun k q => (W1 k q : EReal))
        (fun k => (b1 k : EReal)) (fun i k => (W2 i k : EReal)) (fun i => (b2 i : EReal)) r := by
  unfold uppK uppR
  rw [biasK_coe, biasR_coe]
  simp only [prodK_coe, prodR_coe, max_coe_zero, pos_coe, neg_coe, ← EReal.coe_sub, ← EReal.coe_mul,
    ← ERealCoeSum.coe_sum, ← EReal.coe_add]
  rw [real_upp]

end RealInputs

/-! ### Extended-real inputs none of which is infinite -/

section FiniteInputs

variable {I K Q : Type} [Fintype K] [Fintype Q]
variable (lb0 ub0 : Q → EReal) (W1 : K → Q → EReal) (b1 : K → EReal) (W2 : I → K → EReal) (b2 : I → EReal)

/-- The two lower bounds agree when no input entry is `⊤` or `⊥`. -/
theorem lowK_eq_lowR_of_finite
    (hlb : ∀ q, lb0 q ≠ ⊤ ∧ lb0 q ≠ ⊥) (hub : ∀ q, ub0 q ≠ ⊤ ∧ ub0 q ≠ ⊥)
    (hW1 : ∀ k q, W1 k q ≠ ⊤ ∧ W1 k q ≠ ⊥) (hb1 : ∀ k, b1 k ≠ ⊤ ∧ b1 k ≠ ⊥)
    (hW2 : ∀ i k, W2 i k ≠ ⊤ ∧ W2 i k ≠ ⊥) (hb2 : ∀ i, b2 i ≠ ⊤ ∧ b2 i ≠ ⊥) (r : I) :
    lowK lb0 ub0 W1 b1 W2 b2 r = lowR lb0 ub0 W1 b1 W2 b2 r := by
  lift lb0 to Q → ℝ using hlb
  lift ub0 to Q → ℝ using hub
  lift W1 to K → Q → ℝ using hW1
  lift b1 to K → ℝ using hb1
  lift W2 to I → K → ℝ using hW2
  lift b2 to I → ℝ using hb2
  exact lowK_eq_lowR lb0 ub0 W1 b1 W2 b2 r

/-- The two upper bounds agree when no input entry is `⊤` or `⊥`. -/
theorem uppK_eq_uppR_of_finite
    (hlb : ∀ q, lb0 q ≠ ⊤ ∧ lb0 q ≠ ⊥) (hub : ∀ q, ub0 q ≠ ⊤ ∧ ub0 q ≠ ⊥)
    (hW1 : ∀ k q, W1 k q ≠ ⊤ ∧ W1 k q ≠ ⊥) (hb1 : ∀ k, b1 k ≠ ⊤ ∧ b1 k ≠ ⊥)
    (hW2 : ∀ i k, W2 i k ≠ ⊤ ∧ W2 i k ≠ ⊥) (hb2 : ∀ i, b2 i ≠ ⊤ ∧ b2 i ≠ ⊥) (r : I) :
    uppK lb0 ub0 W1 b1 W2 b2 r = uppR lb0 ub0 W1 b1 W2 b2 r := by
  lift lb0 to Q → ℝ using hlb
  lift ub0 to Q → ℝ using hub
  lift W1 to K → Q → ℝ using hW1
  lift b1 to K → ℝ using hb1
  lift W2 to I → K → ℝ using hW2
  lift b2 to I → ℝ using hb2
  exact uppK_eq_uppR lb0 ub0 W1 b1 W2 b2 r

end FiniteInputs

end DeepPoly

end
-- ==== Proof.lean ====
/-
  The certificate of a two-layer interval-bound computation followed by a leaky-rectifier relaxation.

  Both programs take an input box, two affine layers and raw mixing weights, compute for every neuron of the second
  layer a lower and an upper pre-activation bound over the box, and from the two bounds the relaxation's lower slope,
  upper slope and upper intercept, returned as two diagonal matrices, a zero row and a row.

  The two programs arrange the bounds differently. One forms the composed slope once and removes its negative part
  algebraically, `∑ S·ub − ∑ max(S, 0)·(ub − lb) + c`; the other splits every matrix into its positive and negative
  parts before each product. On finite inputs the two arrangements agree: a real number is the sum of its positive and
  negative parts, and its positive part is its maximum with zero, so each sum of products splits term by term. The
  precondition makes every input entry finite, so the two pairs of bounds are equal as extended reals, neuron by neuron.
  Both programs then apply the same scalar relaxation to the same bounds, entry by entry, so the four results agree.
  No program writes an argument array, which gives the three frames; the idealization changed no operation.
-/
import proofs.«165992_j40183714021526_2_alg».proof.Defs
import proofs.«165992_j40183714021526_2_alg».proof.Proof.Gen.Kernel
import proofs.«165992_j40183714021526_2_alg».proof.Proof.Gen.KernelIdeal
import proofs.«165992_j40183714021526_2_alg».proof.Proof.Gen.ReferenceIdeal
import proofs.«165992_j40183714021526_2_alg».proof.Proof.Gen.Pre_finite_inputs
import proofs.«165992_j40183714021526_2_alg».proof.Proof.K.Segs
import proofs.«165992_j40183714021526_2_alg».proof.Proof.KI.KernelSpec
import proofs.«165992_j40183714021526_2_alg».proof.Proof.KI.DiagFinal
import proofs.«165992_j40183714021526_2_alg».proof.Proof.KI.Low0
import proofs.«165992_j40183714021526_2_alg».proof.Proof.FiniteInputs
import proofs.«165992_j40183714021526_2_alg».proof.Proof.RefValue
import proofs.«165992_j40183714021526_2_alg».proof.Proof.BoundsLaw

noncomputable section

namespace Cert.Proof

open Idealize.ShloMosaic Idealize.SL.Sem Idealize.ShloMosaic.ValueIdx DeepPoly

/-- The two arrangements of the lower bound agree when no input entry is infinite: the law of the bounds at the
    arrays' rows and matrices. -/
theorem lowKof_eq_lowRof (a0 a1 : FVec Ideal ⟨2, ![1, 4096]⟩ .f32) (a2 : FVec Ideal ⟨2, ![4096, 4096]⟩ .f32) (a3 : FVec Ideal ⟨2, ![1, 4096]⟩ .f32) (a4 : FVec Ideal ⟨2, ![4096, 4096]⟩ .f32) (a5 : FVec Ideal ⟨2, ![1, 4096]⟩ .f32)
    (h0 : ∀ i, a0 i ≠ (⊤ : EReal) ∧ a0 i ≠ (⊥ : EReal)) (h1 : ∀ i, a1 i ≠ (⊤ : EReal) ∧ a1 i ≠ (⊥ : EReal))
    (h2 : ∀ i, a2 i ≠ (⊤ : EReal) ∧ a2 i ≠ (⊥ : EReal)) (h3 : ∀ i, a3 i ≠ (⊤ : EReal) ∧ a3 i ≠ (⊥ : EReal))
    (h4 : ∀ i, a4 i ≠ (⊤ : EReal) ∧ a4 i ≠ (⊥ : EReal)) (h5 : ∀ i, a5 i ≠ (⊤ : EReal) ∧ a5 i ≠ (⊥ : EReal)) :
    lowKof a0 a1 a2 a3 a4 a5 = lowRof a0 a1 a2 a3 a4 a5 :=
  funext fun r =>
    lowK_eq_lowR_of_finite (Relax.row a0) (Relax.row a1) (Relax.mat a2) (Relax.row a3) (Relax.mat a4) (Relax.row a5)
      (fun q => h0 (ix2 0 q)) (fun q => h1 (ix2 0 q)) (fun k q => h2 (ix2 k q)) (fun k => h3 (ix2 0 k))
      (fun i k => h4 (ix2 i k)) (fun i => h5 (ix2 0 i)) r

/-- The two arrangements of the upper bound agree when no input entry is infinite. -/
theorem uppKof_eq_uppRof (a0 a1 : FVec Ideal ⟨2, ![1, 4096]⟩ .f32) (a2 : FVec Ideal ⟨2, ![4096, 4096]⟩ .f32) (a3 : FVec Ideal ⟨2, ![1, 4096]⟩ .f32) (a4 : FVec Ideal ⟨2, ![4096, 4096]⟩ .f32) (a5 : FVec Ideal ⟨2, ![1, 4096]⟩ .f32)
    (h0 : ∀ i, a0 i ≠ (⊤ : EReal) ∧ a0 i ≠ (⊥ : EReal)) (h1 : ∀ i, a1 i ≠ (⊤ : EReal) ∧ a1 i ≠ (⊥ : EReal))
    (h2 : ∀ i, a2 i ≠ (⊤ : EReal) ∧ a2 i ≠ (⊥ : EReal)) (h3 : ∀ i, a3 i ≠ (⊤ : EReal) ∧ a3 i ≠ (⊥ : EReal))
    (h4 : ∀ i, a4 i ≠ (⊤ : EReal) ∧ a4 i ≠ (⊥ : EReal)) (h5 : ∀ i, a5 i ≠ (⊤ : EReal) ∧ a5 i ≠ (⊥ : EReal)) :
    uppKof a0 a1 a2 a3 a4 a5 = uppRof a0 a1 a2 a3 a4 a5 :=
  funext fun r =>
    uppK_eq_uppR_of_finite (Relax.row a0) (Relax.row a1) (Relax.mat a2) (Relax.row a3) (Relax.mat a4) (Relax.row a5)
      (fun q => h0 (ix2 0 q)) (fun q => h1 (ix2 0 q)) (fun k q => h2 (ix2 k q)) (fun k => h3 (ix2 0 k))
      (fun i k => h4 (ix2 i k)) (fun i => h5 (ix2 0 i)) r

/-- From memories that agree on the arguments, the two idealized programs end with equal results: the relaxation of
    the bounds, which the two arrangements compute equally on finite inputs. -/
theorem algebraic : Cert.algebraic_KernelIdeal_ReferenceIdeal := by
  intro m g m' g' hpre hagree
  have hfin := fun c : Dev Cert.KernelIdeal.nD => Cert.Hand.finite_of_pre m hpre c
  -- the two arrangements of the bounds agree on finite inputs
  have hlowE : ∀ c : Dev Cert.KernelIdeal.nD, lowKof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = lowRof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := fun c => by
    obtain ⟨f0, f1, f2, f3, f4, f5⟩ := hfin c
    exact lowKof_eq_lowRof _ _ _ _ _ _ f0 f1 f2 f3 f4 f5
  have huppE : ∀ c : Dev Cert.KernelIdeal.nD, uppKof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = uppRof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := fun c => by
    obtain ⟨f0, f1, f2, f3, f4, f5⟩ := hfin c
    exact uppKof_eq_uppRof _ _ _ _ _ _ f0 f1 f2 f3 f4 f5
  refine ⟨fun c => Relax.outDiagL (lowRof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (uppRof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (Relax.vec (m ((c.tc : Thread Cert.KernelIdeal.nD Cert.KernelIdeal.τ).loc Cert.KernelIdeal.main_arg6))), fun _ => Relax.outLint (F := Ideal),
    fun c => Relax.outDiagU (lowRof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (uppRof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), fun c => Relax.outUint (lowRof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (uppRof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · -- the kernel program: its bounds are the arrangement that forms the slope once
    refine (θ_run _ _ _).mono (fun r h c => ?_)
      (Cert.KernelIdeal.Hand.run_spec m g (Cert.KernelIdeal.Hand.low_final m) (Cert.KernelIdeal.Hand.upp_final m)
        (fun c => Cert.KernelIdeal.Hand.final1_2 (Cert.KernelIdeal.Hand.V18 m) c)
        (fun c => Cert.KernelIdeal.Hand.final1_3 (Cert.KernelIdeal.Hand.V18 m) c))
    obtain ⟨h0, h1, h2, h3, hargs⟩ := h c
    refine ⟨?_, h1, ?_, ?_, hargs⟩
    · rw [h0, hlowE c, huppE c]
    · rw [h2, hlowE c, huppE c]
    · rw [h3, hlowE c, huppE c]
  · -- the reference program, run from a memory that agrees on the arguments
    refine (θ_run _ _ _).mono (fun r h c => ?_) (Cert.ReferenceIdeal.Hand.run_spec m' g')
    obtain ⟨h0, h1, h2, h3, hargs⟩ := h c
    obtain ⟨e0, e1, e2, e3, e4, e5, e6⟩ := hagree c
    refine ⟨?_, h1, ?_, ?_, hargs⟩
    · rw [h0, e0, e1, e2, e3, e4, e5, e6]
    · rw [h2, e0, e1, e2, e3, e4, e5]
    · rw [h3, e0, e1, e2, e3, e4, e5]

theorem claim : Cert.Claim :=
  ⟨Cert.Kernel.Gen.facts, Cert.KernelIdeal.Gen.facts, Cert.ReferenceIdeal.Gen.facts, Cert.Pre_finite_inputs.Gen.facts,
    fun m g _ => Cert.Kernel.Hand.frame (F := Bits) m g,
    fun m g _ => Cert.KernelIdeal.Hand.frame (F := Ideal) m g,
    fun m g _ => Cert.ReferenceIdeal.Hand.frame (F := Ideal) m g,
    trivial, algebraic⟩

end Cert.Proof

end
